-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v102) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x2x3 : Shape := ⟨3, ![50000, 2, 3]⟩
abbrev S262x128 : Shape := ⟨2, ![262, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x2x3 : S_.BroadcastsInDim S50000x2x3 (![] : Fin 0 → Fin S50000x2x3.rank)
  reducesTo_S50000x2x3_S_d0_1_2 : S50000x2x3.ReducesTo [0, 1, 2] S_
  bcast_S_S262x128 : S_.BroadcastsInDim S262x128 (![] : Fin 0 → Fin S262x128.rank)
  reducesTo_S262x128_S_d0_1 : S262x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_

variable [Facts]

def fn_part3 {F : FTy → Type} [FloatOps F] (main_arg12 : FVec F S128 .f32) (main_arg13 : FVec F S128x2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg13
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S50000x2x3 .f32) (main_arg3 : FVec F S262x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x2x3 .f32 := Host.absf main_arg2
  let main_cst_0 : FVec F S_ .f32 := constant S_ .f32 0x7F800000#32
  let main_v5 : FVec F S50000x2x3 .f32 := broadcastInDim S50000x2x3 ![] bcast_S_S50000x2x3 main_cst_0
  let main_v6 : IVec S50000x2x3 1 := cmpf .olt main_v4 main_v5
  let main_c_1 : IVec S_ 1 := constantI S_ 1 1#1
  let main_v7 : IVec S_ 1 := (fun x v => Host.reduce IntOp.andi x v reducesTo_S50000x2x3_S_d0_1_2 h_S_) main_v6 main_c_1
  let main_v8 : IVec S_ 1 := andi main_v3 main_v7
  let main_v9 : FVec F S262x128 .f32 := Host.absf main_arg3
  let main_cst_2 : FVec F S_ .f32 := constant S_ .f32 0x7F800000#32
  let main_v10 : FVec F S262x128 .f32 := broadcastInDim S262x128 ![] bcast_S_S262x128 main_cst_2
  let main_v11 : IVec S262x128 1 := cmpf .olt main_v9 main_v10
  let main_c_3 : IVec S_ 1 := constantI S_ 1 1#1
  let main_v12 : IVec S_ 1 := (fun x v => Host.reduce IntOp.andi x v reducesTo_S262x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000x2x3 : Shape := ⟨3, ![50000, 2, 3]⟩
abbrev S262x128 : Shape := ⟨2, ![262, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x2x3 : Shape := ⟨3, ![800000, 2, 3]⟩
abbrev S800000x1x3 : Shape := ⟨3, ![800000, 1, 3]⟩
abbrev S800000x3 : Shape := ⟨2, ![800000, 3]⟩
abbrev S800000x6 : Shape := ⟨2, ![800000, 6]⟩
abbrev S800000x12 : Shape := ⟨2, ![800000, 12]⟩
abbrev S6x128 : Shape := ⟨2, ![6, 128]⟩
abbrev S1x128 : Shape := ⟨2, ![1, 128]⟩
abbrev S2000x128 : Shape := ⟨2, ![2000, 128]⟩
abbrev S2000x12 : Shape := ⟨2, ![2000, 12]⟩
abbrev S2000x6 : Shape := ⟨2, ![2000, 6]⟩
abbrev S2000x2 : Shape := ⟨2, ![2000, 2]⟩
abbrev S2000x3 : Shape := ⟨2, ![2000, 3]⟩
abbrev S2000x1 : Shape := ⟨2, ![2000, 1]⟩
abbrev S50000x6 : Shape := ⟨2, ![50000, 6]⟩
abbrev S50000 : Shape := ⟨1, ![50000]⟩
abbrev S50000x1x1 : Shape := ⟨3, ![50000, 1, 1]⟩

abbrev nBuf : Space → Nat
  | .hbm => 153
  | .vmem => 30
  | .smem => 0
  | _ => 0

abbrev hbmTy0_0 (i : Nat) : BufTy := match i % 128 with
  | 0 => ⟨S50000x128, .f32⟩
  | 1 => ⟨S2x800000, .i32⟩
  | 2 => ⟨S50000x2x3, .f32⟩
  | 3 => ⟨S262x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x2, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x2x3, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x2x3, .f32⟩
  | 54 => ⟨S800000x1x3, .f32⟩
  | 55 => ⟨S800000x3, .f32⟩
  | 56 => ⟨S800000x1x3, .f32⟩
  | 57 => ⟨S800000x3, .f32⟩
  | 58 => ⟨S800000x3, .f32⟩
  | 59 => ⟨S800000x3, .f32⟩
  | 60 => ⟨S_, .f32⟩
  | 61 => ⟨S800000, .f32⟩
  | 62 => ⟨S800000, .f32⟩
  | 63 => ⟨S800000x1x3, .f32⟩
  | 64 => ⟨S800000x3, .f32⟩
  | 65 => ⟨S800000x1x3, .f32⟩
  | 66 => ⟨S800000x3, .f32⟩
  | 67 => ⟨S800000x3, .f32⟩
  | 68 => ⟨S800000x3, .f32⟩
  | 69 => ⟨S_, .f32⟩
  | 70 => ⟨S800000, .f32⟩
  | 71 => ⟨S800000, .f32⟩
  | 72 => ⟨S800000x3, .f32⟩
  | 73 => ⟨S_, .f32⟩
  | 74 => ⟨S800000, .f32⟩
  | 75 => ⟨S800000, .f32⟩
  | 76 => ⟨S800000, .f32⟩
  | 77 => ⟨S800000x1x3, .f32⟩
  | 78 => ⟨S800000x3, .f32⟩
  | 79 => ⟨S800000x1x3, .f32⟩
  | 80 => ⟨S800000x3, .f32⟩
  | 81 => ⟨S800000x3, .f32⟩
  | 82 => ⟨S800000x3, .f32⟩
  | 83 => ⟨S_, .f32⟩
  | 84 => ⟨S800000, .f32⟩
  | 85 => ⟨S800000, .f32⟩
  | 86 => ⟨S800000x3, .f32⟩
  | 87 => ⟨S_, .f32⟩
  | 88 => ⟨S800000, .f32⟩
  | 89 => ⟨S800000, .f32⟩
  | 90 => ⟨S800000, .f32⟩
  | 91 => ⟨S800000x3, .f32⟩
  | 92 => ⟨S_, .f32⟩
  | 93 => ⟨S800000, .f32⟩
  | 94 => ⟨S800000, .f32⟩
  | 95 => ⟨S800000, .f32⟩
  | 96 => ⟨S800000x1, .f32⟩
  | 97 => ⟨S800000x1, .f32⟩
  | 98 => ⟨S800000x1, .f32⟩
  | 99 => ⟨S800000x1, .f32⟩
  | 100 => ⟨S800000x1, .f32⟩
  | 101 => ⟨S800000x1, .f32⟩
  | 102 => ⟨S800000x6, .f32⟩
  | 103 => ⟨S800000x2x3, .f32⟩
  | 104 => ⟨S800000x6, .f32⟩
  | 105 => ⟨S800000x12, .f32⟩
  | 106 => ⟨S800000x128, .bf16⟩
  | 107 => ⟨S800000x128, .bf16⟩
  | 108 => ⟨S128x128, .f32⟩
  | 109 => ⟨S128x128, .bf16⟩
  | 110 => ⟨S128x128, .f32⟩
  | 111 => ⟨S128x128, .bf16⟩
  | 112 => ⟨S6x128, .f32⟩
  | 113 => ⟨S6x128, .bf16⟩
  | 114 => ⟨S1x128, .f32⟩
  | 115 => ⟨S128x128, .bf16⟩
  | 116 => ⟨S1x128, .f32⟩
  | 117 => ⟨S128x128, .bf16⟩
  | 118 => ⟨S1x128, .f32⟩
  | 119 => ⟨S128x2, .bf16⟩
  | 120 => ⟨S800000x128, .f32⟩
  | 121 => ⟨S800000x6, .f32⟩
  | 122 => ⟨S_, .f32⟩
  | 123 => ⟨S50000x128, .f32⟩
  | 124 => ⟨S800000x1, .i32⟩
  | 125 => ⟨S50000x128, .f32⟩
  | 126 => ⟨S_, .f32⟩
  | 127 => ⟨S50000x6, .f32⟩
  | _ => ⟨S50000x128, .f32⟩

abbrev hbmTy0_1 (i : Nat) : BufTy := match i % 128 with
  | 0 => ⟨S800000x1, .i32⟩
  | 1 => ⟨S50000x6, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S50000x2x3, .f32⟩
  | 9 => ⟨S_, .f32⟩
  | 10 => ⟨S_, .f32⟩
  | 11 => ⟨S50000, .f32⟩
  | 12 => ⟨S50000, .f32⟩
  | 13 => ⟨S50000x1x1, .f32⟩
  | 14 => ⟨S50000x2x3, .f32⟩
  | 15 => ⟨S50000x2x3, .f32⟩
  | 16 => ⟨S50000x2x3, .f32⟩
  | 17 => ⟨S128x128, .f32⟩
  | 18 => ⟨S128x128, .bf16⟩
  | 19 => ⟨S128x128, .f32⟩
  | 20 => ⟨S128x128, .bf16⟩
  | 21 => ⟨S1x128, .f32⟩
  | 22 => ⟨S128x128, .bf16⟩
  | 23 => ⟨S1x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x12, .f32⟩
  | .local _ .vmem, ⟨5, _⟩ => ⟨S2000x12, .f32⟩
  | .local _ .vmem, ⟨6, _⟩ => ⟨S128x128, .bf16⟩
  | .local _ .vmem, ⟨7, _⟩ => ⟨S128x128, .bf16⟩
  | .local _ .vmem, ⟨8, _⟩ => ⟨S6x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S128x2, .bf16⟩
  | .local _ .vmem, ⟨15, _⟩ => ⟨S2000x128, .f32⟩
  | .local _ .vmem, ⟨16, _⟩ => ⟨S2000x128, .f32⟩
  | .local _ .vmem, ⟨17, _⟩ => ⟨S2000x6, .f32⟩
  | .local _ .vmem, ⟨18, _⟩ => ⟨S2000x6, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .bf16⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call0_v0 : Ref sig .tc := ⟨.hbm, 59, rfl⟩
abbrev main_call0_cst : Ref sig .tc := ⟨.hbm, 60, rfl⟩
abbrev main_call0_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_v43 : Ref sig .tc := ⟨.hbm, 71, rfl⟩
abbrev main_v44 : Ref sig .tc := ⟨.hbm, 72, rfl⟩
abbrev main_cst : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call2_v0 : Ref sig .tc := ⟨.hbm, 82, rfl⟩
abbrev main_call2_cst : Ref sig .tc := ⟨.hbm, 83, rfl⟩
abbrev main_call2_v1 : Ref sig .tc := ⟨.hbm, 84, rfl⟩
abbrev main_v53 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86_0 : Ref sig .tc := ⟨.hbm, 120, rfl⟩
abbrev main_v86_1 : Ref sig .tc := ⟨.hbm, 121, rfl⟩
abbrev main_cst_9 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_10 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_11 : Ref sig .tc := ⟨.hbm, 130, rfl⟩
abbrev main_v93 : Ref sig .tc := ⟨.hbm, 131, rfl⟩
abbrev main_cst_12 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_13 : Ref sig .tc := ⟨.hbm, 137, rfl⟩
abbrev main_call3_v0 : Ref sig .tc := ⟨.hbm, 138, rfl⟩
abbrev main_call3_v1 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x6 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S800000x2x3_S800000x1x3_0_0_0 : S800000x2x3.Slices ![0, 0, 0] S800000x1x3
  shapeCasts_S800000x1x3_S800000x3 : S800000x1x3.ShapeCasts S800000x3
  reducesTo_S800000x3_S800000_d1 : S800000x3.ReducesTo [1] S800000
  h_S_ : 0 < S_.numel
  slices_S800000x2x3_S800000x1x3_0_1_0 : S800000x2x3.Slices ![0, 1, 0] S800000x1x3
  concatenates_S800000x1_S800000x1_S800000x1_S800000x1_S800000x1_S800000x1_S800000x6_d1 : Shape.Concatenates [S800000x1, S800000x1, S800000x1, S800000x1, S800000x1, S800000x1] S800000x6 1
  shapeCasts_S800000x2x3_S800000x6 : S800000x2x3.ShapeCasts S800000x6
  concatenates_S800000x6_S800000x6_S800000x12_d1 : Shape.Concatenates [S800000x6, S800000x6] S800000x12 1
  bitsLt_bf16_f32 : FTy.bits .bf16 < FTy.bits .f32
  slices_S262x128_S128x128_0_0 : S262x128.Slices ![0, 0] S128x128
  slices_S262x128_S128x128_128_0 : S262x128.Slices ![128, 0] S128x128
  slices_S262x128_S6x128_256_0 : S262x128.Slices ![256, 0] S6x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x12_S2000x12_0_0 : ∀ a, (![0, 0] : Fin 2 → Nat) a + S2000x12.size a ≤ S2000x12.size a
  h_S2000x12 : 0 < S2000x12.numel
  shapeCasts_S2000x12_S2000x12 : S2000x12.ShapeCasts S2000x12
  slices_S2000x12_o0_0_S2000x6 : S2000x12.Slices ![0, 0] S2000x6
  slices_S2000x12_o0_6_S2000x6 : S2000x12.Slices ![0, 6] S2000x6
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  slices_S2000x6_o0_0_S2000x3 : S2000x6.Slices ![0, 0] S2000x3
  slices_S2000x2_o0_0_S2000x1 : S2000x2.Slices ![0, 0] S2000x1
  broadcasts_S2000x1_S2000x3 : S2000x1.Broadcasts S2000x3
  inb_S2000x6_S2000x3_0_0 : ∀ a, (![0, 0] : Fin 2 → Nat) a + S2000x3.size a ≤ S2000x6.size a
  h_S2000x3 : 0 < S2000x3.numel
  slices_S2000x6_o0_3_S2000x3 : S2000x6.Slices ![0, 3] S2000x3
  slices_S2000x2_o0_1_S2000x1 : S2000x2.Slices ![0, 1] S2000x1
  inb_S2000x6_S2000x3_0_3 : ∀ a, (![0, 3] : Fin 2 → Nat) a + S2000x3.size a ≤ S2000x6.size a
  bcast_S_S50000x128 : S_.BroadcastsInDim S50000x128 (![] : Fin 0 → Fin S50000x128.rank)
  bcast_S_S50000x6 : S_.BroadcastsInDim S50000x6 (![] : Fin 0 → Fin S50000x6.rank)
  bcast_S_S50000 : S_.BroadcastsInDim S50000 (![] : Fin 0 → Fin S50000.rank)
  shapeCasts_S50000x6_S50000x2x3 : S50000x6.ShapeCasts S50000x2x3
  bcast_S50000_S50000x1x1_0 : S50000.BroadcastsInDim S50000x1x1 (![0] : Fin 1 → Fin S50000x1x1.rank)
  bcast_S50000x1x1_S50000x2x3_0_1_2 : S50000x1x1.BroadcastsInDim S50000x2x3 (![0, 1, 2] : Fin 3 → Fin S50000x2x3.rank)
  slices_S256x128_S128x128_0_0 : S256x128.Slices ![0, 0] S128x128
  slices_S256x128_S128x128_128_0 : S256x128.Slices ![128, 0] S128x128
  gather_S50000x128_S800000x1_S800000x128_1_0_n_n_0_1_1128_wf : GatherDims.WF S50000x128 S800000x1 S800000x128 [1] [0] [] [0] [] 1 ![1, 128]
  gather_S50000x2x3_S800000x1_S800000x2x3_12_0_n_n_0_1_123_wf : GatherDims.WF S50000x2x3 S800000x1 S800000x2x3 [1, 2] [0] [] [0] [] 1 ![1, 2, 3]
  dot_S2000x128_S128x128_S2000x128_1_0_0_1_n_n_wf : DotDims.WF S2000x128 S128x128 S2000x128 [1] [0] [0] [1] [] []
  dot_S2000x6_S6x128_S2000x128_1_0_0_1_n_n_wf : DotDims.WF S2000x6 S6x128 S2000x128 [1] [0] [0] [1] [] []
  dot_S2000x128_S128x2_S2000x2_1_0_0_1_n_n_wf : DotDims.WF S2000x128 S128x2 S2000x2 [1] [0] [0] [1] [] []
  scatter_S50000x128_S800000x1_S800000x128_1_0_0_1_wf : ScatterDims.WF S50000x128 S800000x1 S800000x128 [1] [0] [0] 1
  scatter_S50000x6_S800000x1_S800000x6_1_0_0_1_wf : ScatterDims.WF S50000x6 S800000x1 S800000x6 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S800000x128.size a
  hwx0_0 : ∀ i : grid0.Coords, EltTy.bits .bf16 = 32 ∨ (Rect.block (s := S800000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S800000x128.size a
  hwx0_1 : ∀ i : grid0.Coords, EltTy.bits .bf16 = 32 ∨ (Rect.block (s := S800000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x12.size a ≤ S800000x12.size a
  hwx0_2 : ∀ i : grid0.Coords, EltTy.bits .f32 = 32 ∨ (Rect.block (s := S800000x12) S2000x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x128.size a ≤ S6x128.size a
  hwx0_5 : ∀ i : grid0.Coords, EltTy.bits .bf16 = 32 ∨ (Rect.block (s := S6x128) S6x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x2.size a ≤ S128x2.size a
  hwx0_11 : ∀ i : grid0.Coords, EltTy.bits .bf16 = 32 ∨ (Rect.block (s := S128x2) S128x2.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S800000x128.size a
  hwx0_12 : ∀ i : grid0.Coords, EltTy.bits .f32 = 32 ∨ (Rect.block (s := S800000x128) S2000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x6.size a ≤ S800000x6.size a
  hwx0_13 : ∀ i : grid0.Coords, EltTy.bits .f32 = 32 ∨ (Rect.block (s := S800000x6) S2000x6.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x2x3_S800000x1_S800000x2x3_12_0_n_n_0_1_123 : GatherDims S50000x2x3 S800000x1 S800000x2x3 where
  offsetDims := [1, 2]
  collapsedSliceDims := [0]
  operandBatchingDims := []
  startIndicesBatchingDims := []
  startIndexMap := [0]
  indexVectorDim := 1
  sliceSizes := ![1, 2, 3]
  wf := gather_S50000x2x3_S800000x1_S800000x2x3_12_0_n_n_0_1_123_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x6_S6x128_S2000x128_1_0_0_1_n_n : DotDims S2000x6 S6x128 S2000x128 where
  lhsContracting := [1]
  rhsContracting := [0]
  lhsNonContracting := [0]
  rhsNonContracting := [1]
  lhsBatch := []
  rhsBatch := []
  wf := dot_S2000x6_S6x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x6_S800000x1_S800000x6_1_0_0_1 : ScatterDims S50000x6 S800000x1 S800000x6 where
  updateWindowDims := [1]
  insertedWindowDims := [0]
  scatterDimsToOperandDims := [0]
  indexVectorDim := 1
  wf := scatter_S50000x6_S800000x1_S800000x6_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v72) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v73) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S2000x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v77) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v79) S6x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v80) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v81) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v82) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v83) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v84) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v85) S128x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v86_0) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v86_1) S2000x6.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v104) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v106) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v107) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v108) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v109) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v110) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x2x3 : Shape := ⟨3, ![50000, 2, 3]⟩
abbrev S262x128 : Shape := ⟨2, ![262, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2x3 : Shape := ⟨3, ![800000, 2, 3]⟩
abbrev S800000x1x3 : Shape := ⟨3, ![800000, 1, 3]⟩
abbrev S800000x3 : Shape := ⟨2, ![800000, 3]⟩
abbrev S800000x6 : Shape := ⟨2, ![800000, 6]⟩
abbrev S800000x128 : Shape := ⟨2, ![800000, 128]⟩
abbrev S800000x262 : Shape := ⟨2, ![800000, 262]⟩
abbrev S1x128 : Shape := ⟨2, ![1, 128]⟩
abbrev S800000x2 : Shape := ⟨2, ![800000, 2]⟩
abbrev S800000x2x1 : Shape := ⟨3, ![800000, 2, 1]⟩
abbrev S50000 : Shape := ⟨1, ![50000]⟩
abbrev S50000x1x1 : Shape := ⟨3, ![50000, 1, 1]⟩
abbrev S50000x256 : Shape := ⟨2, ![50000, 256]⟩

abbrev nBuf : Space → Nat
  | .hbm => 189
  | .vmem => 0
  | .smem => 0
  | _ => 0

abbrev hbmTy0_0 (i : Nat) : BufTy := match i % 128 with
  | 0 => ⟨S50000x128, .f32⟩
  | 1 => ⟨S2x800000, .i32⟩
  | 2 => ⟨S50000x2x3, .f32⟩
  | 3 => ⟨S262x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x2, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x2x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x2x3, .f32⟩
  | 36 => ⟨S800000x2x3, .f32⟩
  | 37 => ⟨S800000x1x3, .f32⟩
  | 38 => ⟨S800000x3, .f32⟩
  | 39 => ⟨S800000x1x3, .f32⟩
  | 40 => ⟨S800000x3, .f32⟩
  | 41 => ⟨S800000x3, .f32⟩
  | 42 => ⟨S800000x3, .f32⟩
  | 43 => ⟨S_, .f32⟩
  | 44 => ⟨S800000, .f32⟩
  | 45 => ⟨S800000, .f32⟩
  | 46 => ⟨S800000x1x3, .f32⟩
  | 47 => ⟨S800000x3, .f32⟩
  | 48 => ⟨S800000x1x3, .f32⟩
  | 49 => ⟨S800000x3, .f32⟩
  | 50 => ⟨S800000x3, .f32⟩
  | 51 => ⟨S800000x3, .f32⟩
  | 52 => ⟨S_, .f32⟩
  | 53 => ⟨S800000, .f32⟩
  | 54 => ⟨S800000, .f32⟩
  | 55 => ⟨S800000x3, .f32⟩
  | 56 => ⟨S_, .f32⟩
  | 57 => ⟨S800000, .f32⟩
  | 58 => ⟨S800000, .f32⟩
  | 59 => ⟨S800000, .f32⟩
  | 60 => ⟨S800000x1x3, .f32⟩
  | 61 => ⟨S800000x3, .f32⟩
  | 62 => ⟨S800000x1x3, .f32⟩
  | 63 => ⟨S800000x3, .f32⟩
  | 64 => ⟨S800000x3, .f32⟩
  | 65 => ⟨S800000x3, .f32⟩
  | 66 => ⟨S_, .f32⟩
  | 67 => ⟨S800000, .f32⟩
  | 68 => ⟨S800000, .f32⟩
  | 69 => ⟨S800000x3, .f32⟩
  | 70 => ⟨S_, .f32⟩
  | 71 => ⟨S800000, .f32⟩
  | 72 => ⟨S800000, .f32⟩
  | 73 => ⟨S800000, .f32⟩
  | 74 => ⟨S800000x3, .f32⟩
  | 75 => ⟨S_, .f32⟩
  | 76 => ⟨S800000, .f32⟩
  | 77 => ⟨S800000, .f32⟩
  | 78 => ⟨S800000, .f32⟩
  | 79 => ⟨S800000x1, .f32⟩
  | 80 => ⟨S800000x1, .f32⟩
  | 81 => ⟨S800000x1, .f32⟩
  | 82 => ⟨S800000x1, .f32⟩
  | 83 => ⟨S800000x1, .f32⟩
  | 84 => ⟨S800000x1, .f32⟩
  | 85 => ⟨S800000x6, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x262, .f32⟩
  | 105 => ⟨S800000x128, .f32⟩
  | 106 => ⟨S1x128, .f32⟩
  | 107 => ⟨S800000x128, .f32⟩
  | 108 => ⟨S800000x128, .f32⟩
  | 109 => ⟨S800000x128, .f32⟩
  | 110 => ⟨S800000x128, .f32⟩
  | 111 => ⟨S_, .f32⟩
  | 112 => ⟨S800000x128, .f32⟩
  | 113 => ⟨S800000x128, .f32⟩
  | 114 => ⟨S_, .f32⟩
  | 115 => ⟨S800000x128, .f32⟩
  | 116 => ⟨S800000x128, .f32⟩
  | 117 => ⟨S800000x128, .f32⟩
  | 118 => ⟨S800000x128, .f32⟩
  | 119 => ⟨S1x128, .f32⟩
  | 120 => ⟨S800000x128, .f32⟩
  | 121 => ⟨S800000x128, .f32⟩
  | 122 => ⟨S800000x128, .f32⟩
  | 123 => ⟨S800000x128, .f32⟩
  | 124 => ⟨S_, .f32⟩
  | 125 => ⟨S800000x128, .f32⟩
  | 126 => ⟨S800000x128, .f32⟩
  | 127 => ⟨S_, .f32⟩
  | _ => ⟨S50000x128, .f32⟩

abbrev hbmTy0_1 (i : Nat) : BufTy := match i % 128 with
  | 0 => ⟨S800000x128, .f32⟩
  | 1 => ⟨S800000x128, .f32⟩
  | 2 => ⟨S800000x128, .f32⟩
  | 3 => ⟨S800000x128, .f32⟩
  | 4 => ⟨S1x128, .f32⟩
  | 5 => ⟨S800000x128, .f32⟩
  | 6 => ⟨S800000x128, .f32⟩
  | 7 => ⟨S800000x128, .f32⟩
  | 8 => ⟨S800000x128, .f32⟩
  | 9 => ⟨S_, .f32⟩
  | 10 => ⟨S800000x128, .f32⟩
  | 11 => ⟨S800000x128, .f32⟩
  | 12 => ⟨S_, .f32⟩
  | 13 => ⟨S800000x128, .f32⟩
  | 14 => ⟨S800000x128, .f32⟩
  | 15 => ⟨S800000x128, .f32⟩
  | 16 => ⟨S800000x2, .f32⟩
  | 17 => ⟨S800000x2x1, .f32⟩
  | 18 => ⟨S800000x2x3, .f32⟩
  | 19 => ⟨S800000x2x3, .f32⟩
  | 20 => ⟨S_, .f32⟩
  | 21 => ⟨S50000x2x3, .f32⟩
  | 22 => ⟨S800000x1, .i32⟩
  | 23 => ⟨S50000x2x3, .f32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S_, .f32⟩
  | 32 => ⟨S50000, .f32⟩
  | 33 => ⟨S50000, .f32⟩
  | 34 => ⟨S50000x1x1, .f32⟩
  | 35 => ⟨S50000x2x3, .f32⟩
  | 36 => ⟨S50000x2x3, .f32⟩
  | 37 => ⟨S50000x2x3, .f32⟩
  | 38 => ⟨S_, .f32⟩
  | 39 => ⟨S50000x128, .f32⟩
  | 40 => ⟨S800000x1, .i32⟩
  | 41 => ⟨S50000x128, .f32⟩
  | 42 => ⟨S50000x256, .f32⟩
  | 43 => ⟨S50000x128, .f32⟩
  | 44 => ⟨S1x128, .f32⟩
  | 45 => ⟨S50000x128, .f32⟩
  | 46 => ⟨S50000x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_v30 : Ref sig .tc := ⟨.hbm, 54, rfl⟩
abbrev main_v31 : Ref sig .tc := ⟨.hbm, 55, rfl⟩
abbrev main_cst : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_v0 : Ref sig .tc := ⟨.hbm, 65, rfl⟩
abbrev main_call2_cst : Ref sig .tc := ⟨.hbm, 66, rfl⟩
abbrev main_call2_v1 : Ref sig .tc := ⟨.hbm, 67, rfl⟩
abbrev main_v40 : Ref sig .tc := ⟨.hbm, 68, rfl⟩
abbrev main_v41 : Ref sig .tc := ⟨.hbm, 69, rfl⟩
abbrev main_cst_3 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_5 : Ref sig .tc := ⟨.hbm, 86, rfl⟩
abbrev main_v56 : Ref sig .tc := ⟨.hbm, 87, rfl⟩
abbrev main_v57 : Ref sig .tc := ⟨.hbm, 88, rfl⟩
abbrev main_c_6 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_7 : Ref sig .tc := ⟨.hbm, 95, rfl⟩
abbrev main_v63 : Ref sig .tc := ⟨.hbm, 96, rfl⟩
abbrev main_v64 : Ref sig .tc := ⟨.hbm, 97, rfl⟩
abbrev main_c_8 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call3_v0 : Ref sig .tc := ⟨.hbm, 109, rfl⟩
abbrev main_call3_v1 : Ref sig .tc := ⟨.hbm, 110, rfl⟩
abbrev main_call3_cst : Ref sig .tc := ⟨.hbm, 111, rfl⟩
abbrev main_call3_v2 : Ref sig .tc := ⟨.hbm, 112, rfl⟩
abbrev main_call3_v3 : Ref sig .tc := ⟨.hbm, 113, rfl⟩
abbrev main_call3_cst_0 : Ref sig .tc := ⟨.hbm, 114, rfl⟩
abbrev main_call3_v4 : Ref sig .tc := ⟨.hbm, 115, rfl⟩
abbrev main_call3_v5 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call4_v0 : Ref sig .tc := ⟨.hbm, 122, rfl⟩
abbrev main_call4_v1 : Ref sig .tc := ⟨.hbm, 123, rfl⟩
abbrev main_call4_cst : Ref sig .tc := ⟨.hbm, 124, rfl⟩
abbrev main_call4_v2 : Ref sig .tc := ⟨.hbm, 125, rfl⟩
abbrev main_call4_v3 : Ref sig .tc := ⟨.hbm, 126, rfl⟩
abbrev main_call4_cst_0 : Ref sig .tc := ⟨.hbm, 127, rfl⟩
abbrev main_call4_v4 : Ref sig .tc := ⟨.hbm, 128, rfl⟩
abbrev main_call4_v5 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_9 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_10 : Ref sig .tc := ⟨.hbm, 152, rfl⟩
abbrev main_v93 : Ref sig .tc := ⟨.hbm, 153, rfl⟩
abbrev main_cst_11 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_12 : Ref sig .tc := ⟨.hbm, 158, rfl⟩
abbrev main_call6_v0 : Ref sig .tc := ⟨.hbm, 159, rfl⟩
abbrev main_call6_v1 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_13 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_call7_v0 : Ref sig .tc := ⟨.hbm, 175, rfl⟩
abbrev main_call7_v1 : Ref sig .tc := ⟨.hbm, 176, rfl⟩
abbrev main_call7_cst : Ref sig .tc := ⟨.hbm, 177, rfl⟩
abbrev main_call7_v2 : Ref sig .tc := ⟨.hbm, 178, rfl⟩
abbrev main_call7_v3 : Ref sig .tc := ⟨.hbm, 179, rfl⟩
abbrev main_call7_cst_0 : Ref sig .tc := ⟨.hbm, 180, rfl⟩
abbrev main_call7_v4 : Ref sig .tc := ⟨.hbm, 181, rfl⟩
abbrev main_call7_v5 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S800000x2x3_S800000x1x3_0_0_0 : S800000x2x3.Slices ![0, 0, 0] S800000x1x3
  shapeCasts_S800000x1x3_S800000x3 : S800000x1x3.ShapeCasts S800000x3
  reducesTo_S800000x3_S800000_d1 : S800000x3.ReducesTo [1] S800000
  h_S_ : 0 < S_.numel
  slices_S800000x2x3_S800000x1x3_0_1_0 : S800000x2x3.Slices ![0, 1, 0] S800000x1x3
  concatenates_S800000x1_S800000x1_S800000x1_S800000x1_S800000x1_S800000x1_S800000x6_d1 : Shape.Concatenates [S800000x1, S800000x1, S800000x1, S800000x1, S800000x1, S800000x1] S800000x6 1
  concatenates_S800000x128_S800000x128_S800000x6_S800000x262_d1 : Shape.Concatenates [S800000x128, S800000x128, S800000x6] S800000x262 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x2_S800000x2x1_0_1 : S800000x2.BroadcastsInDim S800000x2x1 (![0, 1] : Fin 2 → Fin S800000x2x1.rank)
  bcast_S800000x2x1_S800000x2x3_0_1_2 : S800000x2x1.BroadcastsInDim S800000x2x3 (![0, 1, 2] : Fin 3 → Fin S800000x2x3.rank)
  bcast_S_S50000x2x3 : S_.BroadcastsInDim S50000x2x3 (![] : Fin 0 → Fin S50000x2x3.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x2x3_0_1_2 : S50000x1x1.BroadcastsInDim S50000x2x3 (![0, 1, 2] : Fin 3 → Fin S50000x2x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x2x3_S800000x1_S800000x2x3_12_0_n_n_0_1_123_wf : GatherDims.WF S50000x2x3 S800000x1 S800000x2x3 [1, 2] [0] [] [0] [] 1 ![1, 2, 3]
  gather_S50000x128_S800000x1_S800000x128_1_0_n_n_0_1_1128_wf : GatherDims.WF S50000x128 S800000x1 S800000x128 [1] [0] [] [0] [] 1 ![1, 128]
  dot_S800000x262_S262x128_S800000x128_1_0_0_1_n_n_wf : DotDims.WF S800000x262 S262x128 S800000x128 [1] [0] [0] [1] [] []
  dot_S800000x128_S128x128_S800000x128_1_0_0_1_n_n_wf : DotDims.WF S800000x128 S128x128 S800000x128 [1] [0] [0] [1] [] []
  dot_S800000x128_S128x2_S800000x2_1_0_0_1_n_n_wf : DotDims.WF S800000x128 S128x2 S800000x2 [1] [0] [0] [1] [] []
  scatter_S50000x2x3_S800000x1_S800000x2x3_12_0_0_1_wf : ScatterDims.WF S50000x2x3 S800000x1 S800000x2x3 [1, 2] [0] [0] 1
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x2x3_S800000x1_S800000x2x3_12_0_n_n_0_1_123 : GatherDims S50000x2x3 S800000x1 S800000x2x3 where
  offsetDims := [1, 2]
  collapsedSliceDims := [0]
  operandBatchingDims := []
  startIndicesBatchingDims := []
  startIndexMap := [0]
  indexVectorDim := 1
  sliceSizes := ![1, 2, 3]
  wf := gather_S50000x2x3_S800000x1_S800000x2x3_12_0_n_n_0_1_123_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x262_S262x128_S800000x128_1_0_0_1_n_n : DotDims S800000x262 S262x128 S800000x128 where
  lhsContracting := [1]
  rhsContracting := [0]
  lhsNonContracting := [0]
  rhsNonContracting := [1]
  lhsBatch := []
  rhsBatch := []
  wf := dot_S800000x262_S262x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x2_S800000x2_1_0_0_1_n_n : DotDims S800000x128 S128x2 S800000x2 where
  lhsContracting := [1]
  rhsContracting := [0]
  lhsNonContracting := [0]
  rhsNonContracting := [1]
  lhsBatch := []
  rhsBatch := []
  wf := dot_S800000x128_S128x2_S800000x2_1_0_0_1_n_n_wf
def scatter_S50000x2x3_S800000x1_S800000x2x3_12_0_0_1 : ScatterDims S50000x2x3 S800000x1 S800000x2x3 where
  updateWindowDims := [1, 2]
  insertedWindowDims := [0]
  scatterDimsToOperandDims := [0]
  indexVectorDim := 1
  wf := scatter_S50000x2x3_S800000x1_S800000x2x3_12_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelDat.lean ====
import proofs.«102740_j91328184582715_1_alg».proof.Proof.Gen.Kernel.Launch
import proofs.«102740_j91328184582715_1_alg».proof.Proof.Gen.Kernel.Skeleton
import proofs.«102740_j91328184582715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two kernel regions' proof data, at a parameter

Both pallas regions of the program are of the plainest kind: at each grid point the body reads every input
window's staging buffer whole, computes, and overwrites every output window's staging buffer. So what the body
leaves in an output buffer is a closed function of the input windows' blocks at that point, and an input buffer
holds that window's block whether or not the block was moved there at that very point (a block whose index does
not change from one point to the next is moved once and found again).

Everything is stated at a parameter `V`: what the core's buffers hold when the region is entered. The run
instantiates it once per region.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The rectangles the two bodies load and store through -/

/-- The whole of a 2000 × 128 buffer. -/
abbrev rA : Rect S2000x128 := Rect.unit (s := S2000x128) ![0, 0] S2000x128.size inb_S2000x128_S2000x128_0_0
/-- The whole of a 2000 × 12 buffer. -/
abbrev rB : Rect S2000x12 := Rect.unit (s := S2000x12) ![0, 0] S2000x12.size inb_S2000x12_S2000x12_0_0
/-- The whole of a 128 × 128 buffer. -/
abbrev rC : Rect S128x128 := Rect.unit (s := S128x128) ![0, 0] S128x128.size inb_S128x128_S128x128_0_0
/-- The whole of a 6 × 128 buffer. -/
abbrev rD : Rect S6x128 := Rect.unit (s := S6x128) ![0, 0] S6x128.size inb_S6x128_S6x128_0_0
/-- The whole of a 1 × 128 buffer. -/
abbrev rE : Rect S1x128 := Rect.unit (s := S1x128) ![0, 0] S1x128.size inb_S1x128_S1x128_0_0
/-- The whole of a 128 × 2 buffer. -/
abbrev rF : Rect S128x2 := Rect.unit (s := S128x2) ![0, 0] S128x2.size inb_S128x2_S128x2_0_0
/-- Columns 0, 1, 2 of a 2000 × 6 buffer. -/
abbrev rL : Rect S2000x6 := Rect.unit (s := S2000x6) ![0, 0] S2000x3.size inb_S2000x6_S2000x3_0_0
/-- Columns 3, 4, 5 of a 2000 × 6 buffer. -/
abbrev rR : Rect S2000x6 := Rect.unit (s := S2000x6) ![0, 3] S2000x3.size inb_S2000x6_S2000x3_0_3

/-! # Region 0: the edge kernel (grid of 400 points, 12 input windows, 2 output windows) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point

for any proof data whose array is `V`'s and whose body leaves the block in place: moved there at this point, or
found again because the block index has not changed since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's staging buffer -/

/-- Output window 12 (the 2000 × 128 block of edge messages): one store over the whole buffer, of the second
    hidden layer's activation computed from the nine input blocks it depends on. -/
def out0_12 (x0 : Vec F S2000x128 .bf16) (x1 : Vec F S2000x128 .bf16) (x2 : Vec F S2000x12 .f32) (x3 : Vec F S128x128 .bf16) (x4 : Vec F S128x128 .bf16) (x5 : Vec F S6x128 .bf16) (x6 : Vec F S1x128 .f32) (x7 : Vec F S128x128 .bf16) (x8 : Vec F S1x128 .f32) : Vec F S2000x128 .f32 :=
  View.canon [⟨rA, k0_pay6 (View.ld x0 rA) (View.ld x1 rA) (View.ld x2 rB) (View.ld x3 rC) (View.ld x4 rC) (View.ld x5 rD) (View.ld x6 rE) (View.ld x7 rC) (View.ld x8 rE)⟩]

/-- Output window 13 (the 2000 × 6 block of coordinate updates): two stores, columns 3–5 written last and listed
    first, columns 0–2 before them; each is the matching half of the coordinate differences scaled by one column
    of the per-edge channel weights. -/
def out0_13 (x0 : Vec F S2000x128 .bf16) (x1 : Vec F S2000x128 .bf16) (x2 : Vec F S2000x12 .f32) (x3 : Vec F S128x128 .bf16) (x4 : Vec F S128x128 .bf16) (x5 : Vec F S6x128 .bf16) (x6 : Vec F S1x128 .f32) (x7 : Vec F S128x128 .bf16) (x8 : Vec F S1x128 .f32) (x9 : Vec F S128x128 .bf16) (x10 : Vec F S1x128 .f32) (x11 : Vec F S128x2 .bf16) : Vec F S2000x6 .f32 :=
  View.canon [⟨rR, k0_pay3 (k0_pay5 (View.ld x2 rB)) (k0_pay6 (View.ld x0 rA) (View.ld x1 rA) (View.ld x2 rB) (View.ld x3 rC) (View.ld x4 rC) (View.ld x5 rD) (View.ld x6 rE) (View.ld x7 rC) (View.ld x8 rE)) (View.ld x9 rC) (View.ld x10 rE) (View.ld x11 rF)⟩,
    ⟨rL, k0_pay2 (k0_pay5 (View.ld x2 rB)) (k0_pay6 (View.ld x0 rA) (View.ld x1 rA) (View.ld x2 rB) (View.ld x3 rC) (View.ld x4 rC) (View.ld x5 rD) (View.ld x6 rE) (View.ld x7 rC) (View.ld x8 rE)) (View.ld x9 rC) (View.ld x10 rE) (View.ld x11 rF)⟩]

/-- The one store of window 12 covers its buffer. -/
theorem cover0_12 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The two stores of window 13 tile its buffer in two blocks of three columns. -/
theorem cover0_13 (p0 p1 : Vec F S2000x3 .f32) (y : S2000x6.Idx) :
    ∃ pc ∈ ([⟨rR, p0⟩, ⟨rL, p1⟩] : List (View.Piece (Elt F) S2000x6 .f32)), y ∈ pc.1.set :=
  View.cover_of_tiled [⟨rR, p0⟩, ⟨rL, p1⟩] S2000x3.size (by rfl) y

/-! ## The proof data -/

/-- Region 0's proof data on core `c`: the arrays as the region finds them; after the body at point `t` each
    input's buffer still at its block and each output's at `out0_W` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! # Region 1: the node kernel (grid of 25 points, 7 input windows, 1 output window) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Output window 7 (the 2000 × 128 block of updated node features): one store over the whole buffer, of the
    node features plus the update computed from the seven input blocks. -/
def out1_7 (x0 : Vec F S2000x128 .f32) (x1 : Vec F S2000x128 .f32) (x2 : Vec F S128x128 .bf16) (x3 : Vec F S128x128 .bf16) (x4 : Vec F S1x128 .f32) (x5 : Vec F S128x128 .bf16) (x6 : Vec F S1x128 .f32) : Vec F S2000x128 .f32 :=
  View.canon [⟨rA, k1_pay1 (View.ld x0 rA) (View.ld x1 rA) (View.ld x2 rC) (View.ld x3 rC) (View.ld x4 rE) (View.ld x5 rC) (View.ld x6 rE)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Regions

end Cert.Kernel.Reg

end
-- ==== Proof.KernelBody.lean ====
import proofs.«102740_j91328184582715_1_alg».proof.Proof.KernelDat

/-!
# The two kernel bodies as triples, and the body obligations

Each body, run on whole staging buffers — the inputs' holding given contents, the outputs' holding anything —
ends with the inputs' buffers unchanged and each output's buffer holding the closed function of the inputs that
the proof data name. The body's loads of an output buffer before its first store there read values nothing uses.
At a grid point the inputs' staging buffers hold the windows' blocks, so the triple gives the obligation the
pipeline's launch asks of the body at every point.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # Region 0: the edge kernel -/

set_option maxHeartbeats 4000000 in
/-- The edge kernel's body on whole staging buffers. -/
theorem sound_kernel0 (c : Dev nD) (E : Set ℕ) (i : grid0.Coords) (arg1 : Memref sig .tc .vmem S2000x128 .bf16) (harg1 : arg1.IsWhole) (arg2 : Memref sig .tc .vmem S2000x128 .bf16) (harg2 : arg2.IsWhole) (arg3 : Memref sig .tc .vmem S2000x12 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S6x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S128x2 .bf16) (harg12 : arg12.IsWhole) (arg13 : Memref sig .tc .vmem S2000x128 .f32) (harg13 : arg13.IsWhole) (arg14 : Memref sig .tc .vmem S2000x6 .f32) (harg14 : arg14.IsWhole)
    (x0 : Vec F S2000x128 .bf16) (x1 : Vec F S2000x128 .bf16) (x2 : Vec F S2000x12 .f32) (x3 : Vec F S128x128 .bf16) (x4 : Vec F S128x128 .bf16) (x5 : Vec F S6x128 .bf16) (x6 : Vec F S1x128 .f32) (x7 : Vec F S128x128 .bf16) (x8 : Vec F S1x128 .f32) (x9 : Vec F S128x128 .bf16) (x10 : Vec F S1x128 .f32) (x11 : Vec F S128x2 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8) ∗ owns (c : Thread nD τ) arg14 fullShare (out0_13 x0 x1 x2 x3 x4 x5 x6 x7 x8 x9 x10 x11)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _ _)

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' staging buffers hold their blocks, so the triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! # Region 1: the node kernel -/

/-- The one store of window 7 covers its buffer. -/
theorem cover1_7 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 4000000 in
/-- The node kernel's body on whole staging buffers. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S2000x128 .f32) (x2 : Vec F S128x128 .bf16) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Reg

end
-- ==== Proof.KernelRegions.lean ====
import proofs.«102740_j91328184582715_1_alg».proof.Proof.KernelBody
import proofs.«102740_j91328184582715_1_alg».proof.Proof.Gen.Kernel.Regions

/-!
# The run of the whole program, every buffer named at the end

The program is seven stretches of host operations, the edge kernel's region, three more stretches, and the node
kernel's region. Between two of these the core holds every unscoped buffer at a known valuation: the launch
contents, then each stretch's operations applied in turn, and after a region the same valuation with the
region's output arrays replaced by what its write-backs leave. Here the regions' unknown results are named —
each output array is what the pipeline's proof data fold from the blocks written back, point by point — and the
run is stated with the final contents of every unscoped buffer; the frame claim (the arguments end as launched)
follows because no stretch and no region writes an argument.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffers when the edge kernel's region is entered, read at the TensorCore's references. -/
abbrev Vat7 : (c : Dev nD) → (b : Ref sig .tc) → Buf (Elt F) ((c : Thread nD τ).loc b) := fun c b => Gen.V7 m c b

/-- The buffers after the edge kernel's region: as entered, but the two output arrays at what the write-backs of
    all 400 points leave. -/
def outs8 (c : Dev nD) : (r : Ref sig .tc) → Buf (Elt F) ((c : Thread nD τ).loc r) :=
  Function.update (Function.update (Vat7 m c) main_v86_0 ((dat0 (Vat7 m) c).arrAt 12 cfg0.N)) main_v86_1 ((dat0 (Vat7 m) c).arrAt 13 cfg0.N)

/-- The regions' results as far as the edge kernel's: what every later valuation up to the node kernel's entry reads. -/
def outsA : Gen.Outs (F := F) := fun _ r c => outs8 m c r

/-- The buffers when the node kernel's region is entered (over the edge kernel's results only). -/
abbrev Vat11A : (c : Dev nD) → (b : Ref sig .tc) → Buf (Elt F) ((c : Thread nD τ).loc b) := fun c b => Gen.V11 m (outsA m) c b

/-- After the node kernel's region: its output array at what the write-backs of all 25 points leave. -/
def outs12 : (r : Ref sig .tc) → (c : Dev nD) → Buf (Elt F) ((c : Thread nD τ).loc r) :=
  fun r c => Function.update (outs8 m c) main_v110 ((dat1 (Vat11A m) c).arrAt 7 cfg1.N) r

/-- What the two regions leave in the buffers they may change. -/
def outs : Gen.Outs (F := F) := fun J => if J = 12 then outs12 m else outsA m J

theorem outs_at8 : outs m 8 = outsA m 8 := if_neg (by decide)
theorem outs_at12 : outs m 12 = outs12 m := if_pos rfl

/-- The valuation after the edge kernel's region reads the results at step 8 only. -/
theorem V8_outs (c : Dev nD) : Gen.V8 m (outs m) c = Gen.V8 m (outsA m) c := by
  unfold Gen.V8; rw [outs_at8]

/-- So does the valuation the node kernel's region is entered from: three host stretches applied to the former. -/
theorem V11_outs (c : Dev nD) : Gen.V11 m (outs m) c = Gen.V11 m (outsA m) c :=
  congrArg (fun v => StableHlo.after hostOps1_2 (StableHlo.after hostOps1_1 (StableHlo.after hostOps1 v))) (V8_outs m c)

/-- The buffers after the edge kernel's region, and when the node kernel's region is entered and left, read at the
    TensorCore's references. -/
abbrev Vat8 : (c : Dev nD) → (b : Ref sig .tc) → Buf (Elt F) ((c : Thread nD τ).loc b) := fun c b => Gen.V8 m (outs m) c b
abbrev Vat11 : (c : Dev nD) → (b : Ref sig .tc) → Buf (Elt F) ((c : Thread nD τ).loc b) := fun c b => Gen.V11 m (outs m) c b
abbrev Vat12 : (c : Dev nD) → (b : Ref sig .tc) → Buf (Elt F) ((c : Thread nD τ).loc b) := fun c b => Gen.V12 m (outs m) c b

theorem Vat11_eq : Vat11 m = Vat11A m :=
  funext fun c => funext fun b => congrFun (V11_outs m c) (Proc.devRef .tc b)

/-- The edge kernel's first result: the fold of the 400 blocks written back through window 12. -/
theorem outs_8_0 (c : Dev nD) : outs m 8 main_v86_0 c = (dat0 (Vat7 m) c).arrAt 12 cfg0.N := by
  rw [outs_at8]; unfold outsA outs8
  rw [Function.update_of_ne (by decide : main_v86_0 ≠ main_v86_1), Function.update_self]

/-- Its second result: the fold of the 400 blocks written back through window 13. -/
theorem outs_8_1 (c : Dev nD) : outs m 8 main_v86_1 c = (dat0 (Vat7 m) c).arrAt 13 cfg0.N := by
  rw [outs_at8]; unfold outsA outs8
  rw [Function.update_self]

/-- The node kernel's result: the fold of the 25 blocks written back through window 7, the region entered from the
    valuation that already holds the edge kernel's results. -/
theorem outs_12 (c : Dev nD) : outs m 12 main_v110 c = (dat1 (Vat11 m) c).arrAt 7 cfg1.N := by
  rw [Vat11_eq, outs_at12]; unfold outs12
  rw [Function.update_self]

/-! ## The exit valuations at the regions' arrays -/

theorem V8_at0 (c : Dev nD) : Gen.V8 m (outs m) c main_v86_0 = outs m 8 main_v86_0 c := by
  simp only [Gen.V8, Function.update_of_ne (StableHlo.devRef_ne_of_ne (by decide : main_v86_0 ≠ main_v86_1) : (Proc.devRef .tc main_v86_0 : DevRef τ sig) ≠ Proc.devRef .tc main_v86_1), Function.update_self]
theorem V8_at1 (c : Dev nD) : Gen.V8 m (outs m) c main_v86_1 = outs m 8 main_v86_1 c := by
  simp only [Gen.V8, Function.update_self]
theorem V12_at (c : Dev nD) : Gen.V12 m (outs m) c main_v110 = outs m 12 main_v110 c := by
  simp only [Gen.V12, Function.update_self]

set_option maxHeartbeats 2000000 in
/-- At the edge kernel's exit each of its arrays holds what the pipeline leaves: an input as entered, an output its
    folded write-backs. -/
theorem hF0 (c : Dev nD) (w : Fin cfg0.W) : (dat0 (Vat7 m) c).arrAt w cfg0.N = Vat8 m c (Pipeline.arrRef spec0 w) :=
  match w with
  | ⟨0, _⟩ => ((dat0 (Vat7 m) c).arrAt_in 0 rfl _).trans ((A_eq0 (Vat7 m) c 0).trans (Gen.V8_of m (outs m) c (Pipeline.arrRef spec0 0) (by decide)).symm)
  | ⟨1, _⟩ => ((dat0 (Vat7 m) c).arrAt_in 1 rfl _).trans ((A_eq0 (Vat7 m) c 1).trans (Gen.V8_of m (outs m) c (Pipeline.arrRef spec0 1) (by decide)).symm)
  | ⟨2, _⟩ => ((dat0 (Vat7 m) c).arrAt_in 2 rfl _).trans ((A_eq0 (Vat7 m) c 2).trans (Gen.V8_of m (outs m) c (Pipeline.arrRef spec0 2) (by decide)).symm)
  | ⟨3, _⟩ => ((dat0 (Vat7 m) c).arrAt_in 3 rfl _).trans ((A_eq0 (Vat7 m) c 3).trans (Gen.V8_of m (outs m) c (Pipeline.arrRef spec0 3) (by decide)).symm)
  | ⟨4, _⟩ => ((dat0 (Vat7 m) c).arrAt_in 4 rfl _).trans ((A_eq0 (Vat7 m) c 4).trans (Gen.V8_of m (outs m) c (Pipeline.arrRef spec0 4) (by decide)).symm)
  | ⟨5, _⟩ => ((dat0 (Vat7 m) c).arrAt_in 5 rfl _).trans ((A_eq0 (Vat7 m) c 5).trans (Gen.V8_of m (outs m) c (Pipeline.arrRef spec0 5) (by decide)).symm)
  | ⟨6, _⟩ => ((dat0 (Vat7 m) c).arrAt_in 6 rfl _).trans ((A_eq0 (Vat7 m) c 6).trans (Gen.V8_of m (outs m) c (Pipeline.arrRef spec0 6) (by decide)).symm)
  | ⟨7, _⟩ => ((dat0 (Vat7 m) c).arrAt_in 7 rfl _).trans ((A_eq0 (Vat7 m) c 7).trans (Gen.V8_of m (outs m) c (Pipeline.arrRef spec0 7) (by decide)).symm)
  | ⟨8, _⟩ => ((dat0 (Vat7 m) c).arrAt_in 8 rfl _).trans ((A_eq0 (Vat7 m) c 8).trans (Gen.V8_of m (outs m) c (Pipeline.arrRef spec0 8) (by decide)).symm)
  | ⟨9, _⟩ => ((dat0 (Vat7 m) c).arrAt_in 9 rfl _).trans ((A_eq0 (Vat7 m) c 9).trans (Gen.V8_of m (outs m) c (Pipeline.arrRef spec0 9) (by decide)).symm)
  | ⟨10, _⟩ => ((dat0 (Vat7 m) c).arrAt_in 10 rfl _).trans ((A_eq0 (Vat7 m) c 10).trans (Gen.V8_of m (outs m) c (Pipeline.arrRef spec0 10) (by decide)).symm)
  | ⟨11, _⟩ => ((dat0 (Vat7 m) c).arrAt_in 11 rfl _).trans ((A_eq0 (Vat7 m) c 11).trans (Gen.V8_of m (outs m) c (Pipeline.arrRef spec0 11) (by decide)).symm)
  | ⟨12, _⟩ => ((V8_at0 m c).trans (outs_8_0 m c)).symm
  | ⟨13, _⟩ => ((V8_at1 m c).trans (outs_8_1 m c)).symm

/-- Every other buffer is as entered. -/
theorem hrest0 (c : Dev nD) : ∀ b, b ∉ Finset.univ.image (Pipeline.arrRef spec0) → Vat8 m c b = Vat7 m c b :=
  fun b hb => Gen.V8_of m (outs m) c b fun hmem => by
    rcases List.mem_cons.mp hmem with rfl | hmem
    · exact hb (Finset.mem_image.mpr ⟨12, Finset.mem_univ _, rfl⟩)
    · rcases List.mem_cons.mp hmem with rfl | hmem
      · exact hb (Finset.mem_image.mpr ⟨13, Finset.mem_univ _, rfl⟩)
      · exact absurd hmem List.not_mem_nil

set_option maxHeartbeats 2000000 in
/-- The same at the node kernel's exit. -/
theorem hF1 (c : Dev nD) (w : Fin cfg1.W) : (dat1 (Vat11 m) c).arrAt w cfg1.N = Vat12 m c (Pipeline.arrRef spec1 w) :=
  match w with
  | ⟨0, _⟩ => ((dat1 (Vat11 m) c).arrAt_in 0 rfl _).trans ((A_eq1 (Vat11 m) c 0).trans (Gen.V12_of m (outs m) c (Pipeline.arrRef spec1 0) (by decide)).symm)
  | ⟨1, _⟩ => ((dat1 (Vat11 m) c).arrAt_in 1 rfl _).trans ((A_eq1 (Vat11 m) c 1).trans (Gen.V12_of m (outs m) c (Pipeline.arrRef spec1 1) (by decide)).symm)
  | ⟨2, _⟩ => ((dat1 (Vat11 m) c).arrAt_in 2 rfl _).trans ((A_eq1 (Vat11 m) c 2).trans (Gen.V12_of m (outs m) c (Pipeline.arrRef spec1 2) (by decide)).symm)
  | ⟨3, _⟩ => ((dat1 (Vat11 m) c).arrAt_in 3 rfl _).trans ((A_eq1 (Vat11 m) c 3).trans (Gen.V12_of m (outs m) c (Pipeline.arrRef spec1 3) (by decide)).symm)
  | ⟨4, _⟩ => ((dat1 (Vat11 m) c).arrAt_in 4 rfl _).trans ((A_eq1 (Vat11 m) c 4).trans (Gen.V12_of m (outs m) c (Pipeline.arrRef spec1 4) (by decide)).symm)
  | ⟨5, _⟩ => ((dat1 (Vat11 m) c).arrAt_in 5 rfl _).trans ((A_eq1 (Vat11 m) c 5).trans (Gen.V12_of m (outs m) c (Pipeline.arrRef spec1 5) (by decide)).symm)
  | ⟨6, _⟩ => ((dat1 (Vat11 m) c).arrAt_in 6 rfl _).trans ((A_eq1 (Vat11 m) c 6).trans (Gen.V12_of m (outs m) c (Pipeline.arrRef spec1 6) (by decide)).symm)
  | ⟨7, _⟩ => ((V12_at m c).trans (outs_12 m c)).symm

theorem hrest1 (c : Dev nD) : ∀ b, b ∉ Finset.univ.image (Pipeline.arrRef spec1) → Vat12 m c b = Vat11 m c b :=
  fun b hb => Gen.V12_of m (outs m) c b fun hmem => by
    rcases List.mem_cons.mp hmem with rfl | hmem
    · exact hb (Finset.mem_image.mpr ⟨7, Finset.mem_univ _, rfl⟩)
    · exact absurd hmem List.not_mem_nil

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (Vat7 m) c
  | ⟨1, _⟩ => fun c => dat1 (Vat11 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and the
    core owing nothing. -/
abbrev Rst (c : Dev nD) : sProp 𝕄 := iprop((∃ r, prngReg c r) ∗ ∃ W, owes (c : Thread nD τ) (0 : CellTallies nD τ sig Unit) W)
/-- It ends owing nothing. -/
theorem Rst_owes (c : Dev nD) : (Rst (F := F) c) ⊢ (iprop(∃ W, owes (c : Thread nD τ) (0 : CellTallies nD τ sig Unit) W) : sProp 𝕄) := by
  iintro ⟨-, HO⟩; iexact HO
/-- The same between any two segments. -/
abbrev Est : Fin 3 → Dev nD → sProp 𝕄 := fun _ c => Rst c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- Region 0 as a segment of the run: entered with every unscoped buffer at the contents before it, left with
    them at the contents after it; its windows' arrays are split out of the unscoped buffers at the entry and put
    back, the outputs' at what the write-backs leave, at the exit; the generator register goes into the
    pipeline's invariant and comes back; nothing is owed. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vat7 m) c).loose
  hwaits := Pipeline.hwaits_of_owed_zero _ _ _ _ L lv 0 fun _ _ => rfl
  pre c := iprop(StableHlo.held (c : Thread nD τ) (Pipeline.ucRefs τ sig) (Gen.V7 m c) ∗ Rst c)
  post c := iprop(StableHlo.held (c : Thread nD τ) (Pipeline.ucRefs τ sig) (Gen.V8 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vat7 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vat7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vat7 m c) (Vat8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 as a segment of the run: entered with every unscoped buffer at the contents before it, left with
    them at the contents after it; its windows' arrays are split out of the unscoped buffers at the entry and put
    back, the outputs' at what the write-backs leave, at the exit; the generator register goes into the
    pipeline's invariant and comes back; nothing is owed. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vat11 m) c).loose
  hwaits := Pipeline.hwaits_of_owed_zero _ _ _ _ L lv 1 fun _ _ => rfl
  pre c := iprop(StableHlo.held (c : Thread nD τ) (Pipeline.ucRefs τ sig) (Gen.V11 m (outs m) c) ∗ Rst c)
  post c := iprop(StableHlo.held (c : Thread nD τ) (Pipeline.ucRefs τ sig) (Gen.V12 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vat11 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vat11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vat11 m c) (Vat12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding plain
-- definitions in a metavariable's type
set_option backward.isDefEq.respectTransparency.types false in
set_option maxHeartbeats 2000000 in
/-- Every weakly fair execution of the program from memory `m` with zero counters terminates, nothing faulting, and
    in every final state each unscoped buffer of each core holds the last valuation: the launch contents through
    every host stretch, the regions' arrays at the folds of their write-backs. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V12 m (outs m) c b) := by
  refine Pipeline.θ_run_regions_kit_dev (pcfgs (F := F)) Gen.adm (pdats m) () cellOf_inj emb₁ defs₀ 𝒱₀ L lv m ρ main
    (Gen.segs m (outs m) 𝒱₀ L lv Est () (pdats m) (reg0 m) (reg1 m))
    (fun c Q => by
      rewrite [main_chain c, Seg.run_eq_chain,
        show (Gen.segs m (outs m) 𝒱₀ L lv Est () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V12 m (outs m) c))
    (hch := fun c => ⟨.rfl, .rfl, .rfl, .rfl, .rfl, .rfl, .rfl, .rfl, .rfl, .rfl, .rfl, .rfl, sep_mono .rfl (Rst_owes c)⟩)
    (hinit := ?_)
    (QY := fun c s => ∀ b ∈ Pipeline.ucRefs τ sig, s.mem (((c : Thread nD τ)).1, b) = Gen.V12 m (outs m) c b)
    (hfin := fun c s' => ?_) (hQ := fun _ h => h)
  · -- the launch: each core's unscoped buffers are held at the launch contents; the generator register and the
    -- core owing nothing ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V12 m (outs m) c) s')
    isplitl [Hh] <;> iassumption

/-- The frame claim at any `F`: every argument array ends holding its launch contents, since no host stretch and
    no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c),
      (h c _ (mem_uc main_arg8 (by decide))).trans (Gen.V12_main_arg8 m (outs m) c),
      (h c _ (mem_uc main_arg9 (by decide))).trans (Gen.V12_main_arg9 m (outs m) c),
      (h c _ (mem_uc main_arg10 (by decide))).trans (Gen.V12_main_arg10 m (outs m) c),
      (h c _ (mem_uc main_arg11 (by decide))).trans (Gen.V12_main_arg11 m (outs m) c),
      (h c _ (mem_uc main_arg12 (by decide))).trans (Gen.V12_main_arg12 m (outs m) c),
      (h c _ (mem_uc main_arg13 (by decide))).trans (Gen.V12_main_arg13 m (outs m) c)⟩)
    (run_all m ρ)

end Cert.Kernel.Reg

end
-- ==== Proof.KernelIdealDat.lean ====
import proofs.«102740_j91328184582715_1_alg».proof.Proof.Gen.KernelIdeal.Launch
import proofs.«102740_j91328184582715_1_alg».proof.Proof.Gen.KernelIdeal.Skeleton
import proofs.«102740_j91328184582715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two kernel regions' proof data, at a parameter

Both pallas regions of the program are of the plainest kind: at each grid point the body reads every input
window's staging buffer whole, computes, and overwrites every output window's staging buffer. So what the body
leaves in an output buffer is a closed function of the input windows' blocks at that point, and an input buffer
holds that window's block whether or not the block was moved there at that very point (a block whose index does
not change from one point to the next is moved once and found again).

Everything is stated at a parameter `V`: what the core's buffers hold when the region is entered. The run
instantiates it once per region.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The rectangles the two bodies load and store through -/

/-- The whole of a 2000 × 128 buffer. -/
abbrev rA : Rect S2000x128 := Rect.unit (s := S2000x128) ![0, 0] S2000x128.size inb_S2000x128_S2000x128_0_0
/-- The whole of a 2000 × 12 buffer. -/
abbrev rB : Rect S2000x12 := Rect.unit (s := S2000x12) ![0, 0] S2000x12.size inb_S2000x12_S2000x12_0_0
/-- The whole of a 128 × 128 buffer. -/
abbrev rC : Rect S128x128 := Rect.unit (s := S128x128) ![0, 0] S128x128.size inb_S128x128_S128x128_0_0
/-- The whole of a 6 × 128 buffer. -/
abbrev rD : Rect S6x128 := Rect.unit (s := S6x128) ![0, 0] S6x128.size inb_S6x128_S6x128_0_0
/-- The whole of a 1 × 128 buffer. -/
abbrev rE : Rect S1x128 := Rect.unit (s := S1x128) ![0, 0] S1x128.size inb_S1x128_S1x128_0_0
/-- The whole of a 128 × 2 buffer. -/
abbrev rF : Rect S128x2 := Rect.unit (s := S128x2) ![0, 0] S128x2.size inb_S128x2_S128x2_0_0
/-- Columns 0, 1, 2 of a 2000 × 6 buffer. -/
abbrev rL : Rect S2000x6 := Rect.unit (s := S2000x6) ![0, 0] S2000x3.size inb_S2000x6_S2000x3_0_0
/-- Columns 3, 4, 5 of a 2000 × 6 buffer. -/
abbrev rR : Rect S2000x6 := Rect.unit (s := S2000x6) ![0, 3] S2000x3.size inb_S2000x6_S2000x3_0_3

/-! # Region 0: the edge kernel (grid of 400 points, 12 input windows, 2 output windows) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point

for any proof data whose array is `V`'s and whose body leaves the block in place: moved there at this point, or
found again because the block index has not changed since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's staging buffer -/

/-- Output window 12 (the 2000 × 128 block of edge messages): one store over the whole buffer, of the second
    hidden layer's activation computed from the nine input blocks it depends on. -/
def out0_12 (x0 : Vec F S2000x128 .bf16) (x1 : Vec F S2000x128 .bf16) (x2 : Vec F S2000x12 .f32) (x3 : Vec F S128x128 .bf16) (x4 : Vec F S128x128 .bf16) (x5 : Vec F S6x128 .bf16) (x6 : Vec F S1x128 .f32) (x7 : Vec F S128x128 .bf16) (x8 : Vec F S1x128 .f32) : Vec F S2000x128 .f32 :=
  View.canon [⟨rA, k0_pay6 (View.ld x0 rA) (View.ld x1 rA) (View.ld x2 rB) (View.ld x3 rC) (View.ld x4 rC) (View.ld x5 rD) (View.ld x6 rE) (View.ld x7 rC) (View.ld x8 rE)⟩]

/-- Output window 13 (the 2000 × 6 block of coordinate updates): two stores, columns 3–5 written last and listed
    first, columns 0–2 before them; each is the matching half of the coordinate differences scaled by one column
    of the per-edge channel weights. -/
def out0_13 (x0 : Vec F S2000x128 .bf16) (x1 : Vec F S2000x128 .bf16) (x2 : Vec F S2000x12 .f32) (x3 : Vec F S128x128 .bf16) (x4 : Vec F S128x128 .bf16) (x5 : Vec F S6x128 .bf16) (x6 : Vec F S1x128 .f32) (x7 : Vec F S128x128 .bf16) (x8 : Vec F S1x128 .f32) (x9 : Vec F S128x128 .bf16) (x10 : Vec F S1x128 .f32) (x11 : Vec F S128x2 .bf16) : Vec F S2000x6 .f32 :=
  View.canon [⟨rR, k0_pay3 (k0_pay5 (View.ld x2 rB)) (k0_pay6 (View.ld x0 rA) (View.ld x1 rA) (View.ld x2 rB) (View.ld x3 rC) (View.ld x4 rC) (View.ld x5 rD) (View.ld x6 rE) (View.ld x7 rC) (View.ld x8 rE)) (View.ld x9 rC) (View.ld x10 rE) (View.ld x11 rF)⟩,
    ⟨rL, k0_pay2 (k0_pay5 (View.ld x2 rB)) (k0_pay6 (View.ld x0 rA) (View.ld x1 rA) (View.ld x2 rB) (View.ld x3 rC) (View.ld x4 rC) (View.ld x5 rD) (View.ld x6 rE) (View.ld x7 rC) (View.ld x8 rE)) (View.ld x9 rC) (View.ld x10 rE) (View.ld x11 rF)⟩]

/-- The one store of window 12 covers its buffer. -/
theorem cover0_12 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The two stores of window 13 tile its buffer in two blocks of three columns. -/
theorem cover0_13 (p0 p1 : Vec F S2000x3 .f32) (y : S2000x6.Idx) :
    ∃ pc ∈ ([⟨rR, p0⟩, ⟨rL, p1⟩] : List (View.Piece (Elt F) S2000x6 .f32)), y ∈ pc.1.set :=
  View.cover_of_tiled [⟨rR, p0⟩, ⟨rL, p1⟩] S2000x3.size (by rfl) y

/-! ## The proof data -/

/-- Region 0's proof data on core `c`: the arrays as the region finds them; after the body at point `t` each
    input's buffer still at its block and each output's at `out0_W` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! # Region 1: the node kernel (grid of 25 points, 7 input windows, 1 output window) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Output window 7 (the 2000 × 128 block of updated node features): one store over the whole buffer, of the
    node features plus the update computed from the seven input blocks. -/
def out1_7 (x0 : Vec F S2000x128 .f32) (x1 : Vec F S2000x128 .f32) (x2 : Vec F S128x128 .bf16) (x3 : Vec F S128x128 .bf16) (x4 : Vec F S1x128 .f32) (x5 : Vec F S128x128 .bf16) (x6 : Vec F S1x128 .f32) : Vec F S2000x128 .f32 :=
  View.canon [⟨rA, k1_pay1 (View.ld x0 rA) (View.ld x1 rA) (View.ld x2 rC) (View.ld x3 rC) (View.ld x4 rE) (View.ld x5 rC) (View.ld x6 rE)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Regions

end Cert.KernelIdeal.Reg

end
-- ==== Proof.KernelIdealBody.lean ====
import proofs.«102740_j91328184582715_1_alg».proof.Proof.KernelIdealDat

/-!
# The two kernel bodies as triples, and the body obligations

Each body, run on whole staging buffers — the inputs' holding given contents, the outputs' holding anything —
ends with the inputs' buffers unchanged and each output's buffer holding the closed function of the inputs that
the proof data name. The body's loads of an output buffer before its first store there read values nothing uses.
At a grid point the inputs' staging buffers hold the windows' blocks, so the triple gives the obligation the
pipeline's launch asks of the body at every point.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # Region 0: the edge kernel -/

set_option maxHeartbeats 4000000 in
/-- The edge kernel's body on whole staging buffers. -/
theorem sound_kernel0 (c : Dev nD) (E : Set ℕ) (i : grid0.Coords) (arg1 : Memref sig .tc .vmem S2000x128 .bf16) (harg1 : arg1.IsWhole) (arg2 : Memref sig .tc .vmem S2000x128 .bf16) (harg2 : arg2.IsWhole) (arg3 : Memref sig .tc .vmem S2000x12 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S6x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S128x2 .bf16) (harg12 : arg12.IsWhole) (arg13 : Memref sig .tc .vmem S2000x128 .f32) (harg13 : arg13.IsWhole) (arg14 : Memref sig .tc .vmem S2000x6 .f32) (harg14 : arg14.IsWhole)
    (x0 : Vec F S2000x128 .bf16) (x1 : Vec F S2000x128 .bf16) (x2 : Vec F S2000x12 .f32) (x3 : Vec F S128x128 .bf16) (x4 : Vec F S128x128 .bf16) (x5 : Vec F S6x128 .bf16) (x6 : Vec F S1x128 .f32) (x7 : Vec F S128x128 .bf16) (x8 : Vec F S1x128 .f32) (x9 : Vec F S128x128 .bf16) (x10 : Vec F S1x128 .f32) (x11 : Vec F S128x2 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8) ∗ owns (c : Thread nD τ) arg14 fullShare (out0_13 x0 x1 x2 x3 x4 x5 x6 x7 x8 x9 x10 x11)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _ _)

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' staging buffers hold their blocks, so the triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! # Region 1: the node kernel -/

/-- The one store of window 7 covers its buffer. -/
theorem cover1_7 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 4000000 in
/-- The node kernel's body on whole staging buffers. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S2000x128 .f32) (x2 : Vec F S128x128 .bf16) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Reg

end
-- ==== Proof.KernelIdealRegions.lean ====
import proofs.«102740_j91328184582715_1_alg».proof.Proof.KernelIdealBody
import proofs.«102740_j91328184582715_1_alg».proof.Proof.Gen.KernelIdeal.Regions

/-!
# The run of the whole program, every buffer named at the end

The program is seven stretches of host operations, the edge kernel's region, three more stretches, and the node
kernel's region. Between two of these the core holds every unscoped buffer at a known valuation: the launch
contents, then each stretch's operations applied in turn, and after a region the same valuation with the
region's output arrays replaced by what its write-backs leave. Here the regions' unknown results are named —
each output array is what the pipeline's proof data fold from the blocks written back, point by point — and the
run is stated with the final contents of every unscoped buffer; the frame claim (the arguments end as launched)
follows because no stretch and no region writes an argument.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffers when the edge kernel's region is entered, read at the TensorCore's references. -/
abbrev Vat7 : (c : Dev nD) → (b : Ref sig .tc) → Buf (Elt F) ((c : Thread nD τ).loc b) := fun c b => Gen.V7 m c b

/-- The buffers after the edge kernel's region: as entered, but the two output arrays at what the write-backs of
    all 400 points leave. -/
def outs8 (c : Dev nD) : (r : Ref sig .tc) → Buf (Elt F) ((c : Thread nD τ).loc r) :=
  Function.update (Function.update (Vat7 m c) main_v86_0 ((dat0 (Vat7 m) c).arrAt 12 cfg0.N)) main_v86_1 ((dat0 (Vat7 m) c).arrAt 13 cfg0.N)

/-- The regions' results as far as the edge kernel's: what every later valuation up to the node kernel's entry reads. -/
def outsA : Gen.Outs (F := F) := fun _ r c => outs8 m c r

/-- The buffers when the node kernel's region is entered (over the edge kernel's results only). -/
abbrev Vat11A : (c : Dev nD) → (b : Ref sig .tc) → Buf (Elt F) ((c : Thread nD τ).loc b) := fun c b => Gen.V11 m (outsA m) c b

/-- After the node kernel's region: its output array at what the write-backs of all 25 points leave. -/
def outs12 : (r : Ref sig .tc) → (c : Dev nD) → Buf (Elt F) ((c : Thread nD τ).loc r) :=
  fun r c => Function.update (outs8 m c) main_v110 ((dat1 (Vat11A m) c).arrAt 7 cfg1.N) r

/-- What the two regions leave in the buffers they may change. -/
def outs : Gen.Outs (F := F) := fun J => if J = 12 then outs12 m else outsA m J

theorem outs_at8 : outs m 8 = outsA m 8 := if_neg (by decide)
theorem outs_at12 : outs m 12 = outs12 m := if_pos rfl

/-- The valuation after the edge kernel's region reads the results at step 8 only. -/
theorem V8_outs (c : Dev nD) : Gen.V8 m (outs m) c = Gen.V8 m (outsA m) c := by
  unfold Gen.V8; rw [outs_at8]

/-- So does the valuation the node kernel's region is entered from: three host stretches applied to the former. -/
theorem V11_outs (c : Dev nD) : Gen.V11 m (outs m) c = Gen.V11 m (outsA m) c :=
  congrArg (fun v => StableHlo.after hostOps1_2 (StableHlo.after hostOps1_1 (StableHlo.after hostOps1 v))) (V8_outs m c)

/-- The buffers after the edge kernel's region, and when the node kernel's region is entered and left, read at the
    TensorCore's references. -/
abbrev Vat8 : (c : Dev nD) → (b : Ref sig .tc) → Buf (Elt F) ((c : Thread nD τ).loc b) := fun c b => Gen.V8 m (outs m) c b
abbrev Vat11 : (c : Dev nD) → (b : Ref sig .tc) → Buf (Elt F) ((c : Thread nD τ).loc b) := fun c b => Gen.V11 m (outs m) c b
abbrev Vat12 : (c : Dev nD) → (b : Ref sig .tc) → Buf (Elt F) ((c : Thread nD τ).loc b) := fun c b => Gen.V12 m (outs m) c b

theorem Vat11_eq : Vat11 m = Vat11A m :=
  funext fun c => funext fun b => congrFun (V11_outs m c) (Proc.devRef .tc b)

/-- The edge kernel's first result: the fold of the 400 blocks written back through window 12. -/
theorem outs_8_0 (c : Dev nD) : outs m 8 main_v86_0 c = (dat0 (Vat7 m) c).arrAt 12 cfg0.N := by
  rw [outs_at8]; unfold outsA outs8
  rw [Function.update_of_ne (by decide : main_v86_0 ≠ main_v86_1), Function.update_self]

/-- Its second result: the fold of the 400 blocks written back through window 13. -/
theorem outs_8_1 (c : Dev nD) : outs m 8 main_v86_1 c = (dat0 (Vat7 m) c).arrAt 13 cfg0.N := by
  rw [outs_at8]; unfold outsA outs8
  rw [Function.update_self]

/-- The node kernel's result: the fold of the 25 blocks written back through window 7, the region entered from the
    valuation that already holds the edge kernel's results. -/
theorem outs_12 (c : Dev nD) : outs m 12 main_v110 c = (dat1 (Vat11 m) c).arrAt 7 cfg1.N := by
  rw [Vat11_eq, outs_at12]; unfold outs12
  rw [Function.update_self]

/-! ## The exit valuations at the regions' arrays -/

theorem V8_at0 (c : Dev nD) : Gen.V8 m (outs m) c main_v86_0 = outs m 8 main_v86_0 c := by
  simp only [Gen.V8, Function.update_of_ne (StableHlo.devRef_ne_of_ne (by decide : main_v86_0 ≠ main_v86_1) : (Proc.devRef .tc main_v86_0 : DevRef τ sig) ≠ Proc.devRef .tc main_v86_1), Function.update_self]
theorem V8_at1 (c : Dev nD) : Gen.V8 m (outs m) c main_v86_1 = outs m 8 main_v86_1 c := by
  simp only [Gen.V8, Function.update_self]
theorem V12_at (c : Dev nD) : Gen.V12 m (outs m) c main_v110 = outs m 12 main_v110 c := by
  simp only [Gen.V12, Function.update_self]

set_option maxHeartbeats 2000000 in
/-- At the edge kernel's exit each of its arrays holds what the pipeline leaves: an input as entered, an output its
    folded write-backs. -/
theorem hF0 (c : Dev nD) (w : Fin cfg0.W) : (dat0 (Vat7 m) c).arrAt w cfg0.N = Vat8 m c (Pipeline.arrRef spec0 w) :=
  match w with
  | ⟨0, _⟩ => ((dat0 (Vat7 m) c).arrAt_in 0 rfl _).trans ((A_eq0 (Vat7 m) c 0).trans (Gen.V8_of m (outs m) c (Pipeline.arrRef spec0 0) (by decide)).symm)
  | ⟨1, _⟩ => ((dat0 (Vat7 m) c).arrAt_in 1 rfl _).trans ((A_eq0 (Vat7 m) c 1).trans (Gen.V8_of m (outs m) c (Pipeline.arrRef spec0 1) (by decide)).symm)
  | ⟨2, _⟩ => ((dat0 (Vat7 m) c).arrAt_in 2 rfl _).trans ((A_eq0 (Vat7 m) c 2).trans (Gen.V8_of m (outs m) c (Pipeline.arrRef spec0 2) (by decide)).symm)
  | ⟨3, _⟩ => ((dat0 (Vat7 m) c).arrAt_in 3 rfl _).trans ((A_eq0 (Vat7 m) c 3).trans (Gen.V8_of m (outs m) c (Pipeline.arrRef spec0 3) (by decide)).symm)
  | ⟨4, _⟩ => ((dat0 (Vat7 m) c).arrAt_in 4 rfl _).trans ((A_eq0 (Vat7 m) c 4).trans (Gen.V8_of m (outs m) c (Pipeline.arrRef spec0 4) (by decide)).symm)
  | ⟨5, _⟩ => ((dat0 (Vat7 m) c).arrAt_in 5 rfl _).trans ((A_eq0 (Vat7 m) c 5).trans (Gen.V8_of m (outs m) c (Pipeline.arrRef spec0 5) (by decide)).symm)
  | ⟨6, _⟩ => ((dat0 (Vat7 m) c).arrAt_in 6 rfl _).trans ((A_eq0 (Vat7 m) c 6).trans (Gen.V8_of m (outs m) c (Pipeline.arrRef spec0 6) (by decide)).symm)
  | ⟨7, _⟩ => ((dat0 (Vat7 m) c).arrAt_in 7 rfl _).trans ((A_eq0 (Vat7 m) c 7).trans (Gen.V8_of m (outs m) c (Pipeline.arrRef spec0 7) (by decide)).symm)
  | ⟨8, _⟩ => ((dat0 (Vat7 m) c).arrAt_in 8 rfl _).trans ((A_eq0 (Vat7 m) c 8).trans (Gen.V8_of m (outs m) c (Pipeline.arrRef spec0 8) (by decide)).symm)
  | ⟨9, _⟩ => ((dat0 (Vat7 m) c).arrAt_in 9 rfl _).trans ((A_eq0 (Vat7 m) c 9).trans (Gen.V8_of m (outs m) c (Pipeline.arrRef spec0 9) (by decide)).symm)
  | ⟨10, _⟩ => ((dat0 (Vat7 m) c).arrAt_in 10 rfl _).trans ((A_eq0 (Vat7 m) c 10).trans (Gen.V8_of m (outs m) c (Pipeline.arrRef spec0 10) (by decide)).symm)
  | ⟨11, _⟩ => ((dat0 (Vat7 m) c).arrAt_in 11 rfl _).trans ((A_eq0 (Vat7 m) c 11).trans (Gen.V8_of m (outs m) c (Pipeline.arrRef spec0 11) (by decide)).symm)
  | ⟨12, _⟩ => ((V8_at0 m c).trans (outs_8_0 m c)).symm
  | ⟨13, _⟩ => ((V8_at1 m c).trans (outs_8_1 m c)).symm

/-- Every other buffer is as entered. -/
theorem hrest0 (c : Dev nD) : ∀ b, b ∉ Finset.univ.image (Pipeline.arrRef spec0) → Vat8 m c b = Vat7 m c b :=
  fun b hb => Gen.V8_of m (outs m) c b fun hmem => by
    rcases List.mem_cons.mp hmem with rfl | hmem
    · exact hb (Finset.mem_image.mpr ⟨12, Finset.mem_univ _, rfl⟩)
    · rcases List.mem_cons.mp hmem with rfl | hmem
      · exact hb (Finset.mem_image.mpr ⟨13, Finset.mem_univ _, rfl⟩)
      · exact absurd hmem List.not_mem_nil

set_option maxHeartbeats 2000000 in
/-- The same at the node kernel's exit. -/
theorem hF1 (c : Dev nD) (w : Fin cfg1.W) : (dat1 (Vat11 m) c).arrAt w cfg1.N = Vat12 m c (Pipeline.arrRef spec1 w) :=
  match w with
  | ⟨0, _⟩ => ((dat1 (Vat11 m) c).arrAt_in 0 rfl _).trans ((A_eq1 (Vat11 m) c 0).trans (Gen.V12_of m (outs m) c (Pipeline.arrRef spec1 0) (by decide)).symm)
  | ⟨1, _⟩ => ((dat1 (Vat11 m) c).arrAt_in 1 rfl _).trans ((A_eq1 (Vat11 m) c 1).trans (Gen.V12_of m (outs m) c (Pipeline.arrRef spec1 1) (by decide)).symm)
  | ⟨2, _⟩ => ((dat1 (Vat11 m) c).arrAt_in 2 rfl _).trans ((A_eq1 (Vat11 m) c 2).trans (Gen.V12_of m (outs m) c (Pipeline.arrRef spec1 2) (by decide)).symm)
  | ⟨3, _⟩ => ((dat1 (Vat11 m) c).arrAt_in 3 rfl _).trans ((A_eq1 (Vat11 m) c 3).trans (Gen.V12_of m (outs m) c (Pipeline.arrRef spec1 3) (by decide)).symm)
  | ⟨4, _⟩ => ((dat1 (Vat11 m) c).arrAt_in 4 rfl _).trans ((A_eq1 (Vat11 m) c 4).trans (Gen.V12_of m (outs m) c (Pipeline.arrRef spec1 4) (by decide)).symm)
  | ⟨5, _⟩ => ((dat1 (Vat11 m) c).arrAt_in 5 rfl _).trans ((A_eq1 (Vat11 m) c 5).trans (Gen.V12_of m (outs m) c (Pipeline.arrRef spec1 5) (by decide)).symm)
  | ⟨6, _⟩ => ((dat1 (Vat11 m) c).arrAt_in 6 rfl _).trans ((A_eq1 (Vat11 m) c 6).trans (Gen.V12_of m (outs m) c (Pipeline.arrRef spec1 6) (by decide)).symm)
  | ⟨7, _⟩ => ((V12_at m c).trans (outs_12 m c)).symm

theorem hrest1 (c : Dev nD) : ∀ b, b ∉ Finset.univ.image (Pipeline.arrRef spec1) → Vat12 m c b = Vat11 m c b :=
  fun b hb => Gen.V12_of m (outs m) c b fun hmem => by
    rcases List.mem_cons.mp hmem with rfl | hmem
    · exact hb (Finset.mem_image.mpr ⟨7, Finset.mem_univ _, rfl⟩)
    · exact absurd hmem List.not_mem_nil

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (Vat7 m) c
  | ⟨1, _⟩ => fun c => dat1 (Vat11 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and the
    core owing nothing. -/
abbrev Rst (c : Dev nD) : sProp 𝕄 := iprop((∃ r, prngReg c r) ∗ ∃ W, owes (c : Thread nD τ) (0 : CellTallies nD τ sig Unit) W)
/-- It ends owing nothing. -/
theorem Rst_owes (c : Dev nD) : (Rst (F := F) c) ⊢ (iprop(∃ W, owes (c : Thread nD τ) (0 : CellTallies nD τ sig Unit) W) : sProp 𝕄) := by
  iintro ⟨-, HO⟩; iexact HO
/-- The same between any two segments. -/
abbrev Est : Fin 3 → Dev nD → sProp 𝕄 := fun _ c => Rst c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- Region 0 as a segment of the run: entered with every unscoped buffer at the contents before it, left with
    them at the contents after it; its windows' arrays are split out of the unscoped buffers at the entry and put
    back, the outputs' at what the write-backs leave, at the exit; the generator register goes into the
    pipeline's invariant and comes back; nothing is owed. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vat7 m) c).loose
  hwaits := Pipeline.hwaits_of_owed_zero _ _ _ _ L lv 0 fun _ _ => rfl
  pre c := iprop(StableHlo.held (c : Thread nD τ) (Pipeline.ucRefs τ sig) (Gen.V7 m c) ∗ Rst c)
  post c := iprop(StableHlo.held (c : Thread nD τ) (Pipeline.ucRefs τ sig) (Gen.V8 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vat7 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vat7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vat7 m c) (Vat8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 as a segment of the run: entered with every unscoped buffer at the contents before it, left with
    them at the contents after it; its windows' arrays are split out of the unscoped buffers at the entry and put
    back, the outputs' at what the write-backs leave, at the exit; the generator register goes into the
    pipeline's invariant and comes back; nothing is owed. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vat11 m) c).loose
  hwaits := Pipeline.hwaits_of_owed_zero _ _ _ _ L lv 1 fun _ _ => rfl
  pre c := iprop(StableHlo.held (c : Thread nD τ) (Pipeline.ucRefs τ sig) (Gen.V11 m (outs m) c) ∗ Rst c)
  post c := iprop(StableHlo.held (c : Thread nD τ) (Pipeline.ucRefs τ sig) (Gen.V12 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vat11 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vat11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vat11 m c) (Vat12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding plain
-- definitions in a metavariable's type
set_option backward.isDefEq.respectTransparency.types false in
set_option maxHeartbeats 2000000 in
/-- Every weakly fair execution of the program from memory `m` with zero counters terminates, nothing faulting, and
    in every final state each unscoped buffer of each core holds the last valuation: the launch contents through
    every host stretch, the regions' arrays at the folds of their write-backs. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V12 m (outs m) c b) := by
  refine Pipeline.θ_run_regions_kit_dev (pcfgs (F := F)) Gen.adm (pdats m) () cellOf_inj emb₁ defs₀ 𝒱₀ L lv m ρ main
    (Gen.segs m (outs m) 𝒱₀ L lv Est () (pdats m) (reg0 m) (reg1 m))
    (fun c Q => by
      rewrite [main_chain c, Seg.run_eq_chain,
        show (Gen.segs m (outs m) 𝒱₀ L lv Est () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V12 m (outs m) c))
    (hch := fun c => ⟨.rfl, .rfl, .rfl, .rfl, .rfl, .rfl, .rfl, .rfl, .rfl, .rfl, .rfl, .rfl, sep_mono .rfl (Rst_owes c)⟩)
    (hinit := ?_)
    (QY := fun c s => ∀ b ∈ Pipeline.ucRefs τ sig, s.mem (((c : Thread nD τ)).1, b) = Gen.V12 m (outs m) c b)
    (hfin := fun c s' => ?_) (hQ := fun _ h => h)
  · -- the launch: each core's unscoped buffers are held at the launch contents; the generator register and the
    -- core owing nothing ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V12 m (outs m) c) s')
    isplitl [Hh] <;> iassumption

/-- The frame claim at any `F`: every argument array ends holding its launch contents, since no host stretch and
    no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c),
      (h c _ (mem_uc main_arg8 (by decide))).trans (Gen.V12_main_arg8 m (outs m) c),
      (h c _ (mem_uc main_arg9 (by decide))).trans (Gen.V12_main_arg9 m (outs m) c),
      (h c _ (mem_uc main_arg10 (by decide))).trans (Gen.V12_main_arg10 m (outs m) c),
      (h c _ (mem_uc main_arg11 (by decide))).trans (Gen.V12_main_arg11 m (outs m) c),
      (h c _ (mem_uc main_arg12 (by decide))).trans (Gen.V12_main_arg12 m (outs m) c),
      (h c _ (mem_uc main_arg13 (by decide))).trans (Gen.V12_main_arg13 m (outs m) c)⟩)
    (run_all m ρ)

end Cert.KernelIdeal.Reg

end
-- ==== Proof.LibSumSplit.lean ====
/-
  A finite sum over `Fin n`, where `n` is a sum of five extents, taken extent by extent: the terms at positions
  `0 ≤ d < n0`, then `n0 ≤ · < n0 + n1`, and so on, added left to right. This is what contracting over an axis made by
  laying five pieces end to end amounts to. It holds in any additive commutative monoid (only associativity of the sum
  is used), so on the extended reals it asks nothing of the terms: infinities are allowed.
-/
import Mathlib.Algebra.BigOperators.Fin

open scoped BigOperators

namespace Cert.SumSplit

variable {M : Type*} [AddCommMonoid M]

/-- Two extents: the sum over `Fin n`, `n = a + b`, is the sum of the first `a` terms plus the sum of the last `b`. -/
theorem sum_two {n : ℕ} (a b : ℕ) (h : a + b = n) (g : Fin n → M) :
    ∑ d, g d = (∑ d : Fin a, g ⟨d.val, by have := d.isLt; omega⟩) + ∑ d : Fin b, g ⟨a + d.val, by have := d.isLt; omega⟩ := by
  subst h
  rw [Fin.sum_univ_add]
  rfl

/-- Five extents, the partial sums added left to right. -/
theorem sum_five {n : ℕ} (n0 n1 n2 n3 n4 : ℕ) (h : n0 + n1 + n2 + n3 + n4 = n) (g : Fin n → M) :
    ∑ d, g d =
      (∑ d : Fin n0, g ⟨d.val, by have := d.isLt; omega⟩)
      + (∑ d : Fin n1, g ⟨n0 + d.val, by have := d.isLt; omega⟩)
      + (∑ d : Fin n2, g ⟨n0 + n1 + d.val, by have := d.isLt; omega⟩)
      + (∑ d : Fin n3, g ⟨n0 + n1 + n2 + d.val, by have := d.isLt; omega⟩)
      + (∑ d : Fin n4, g ⟨n0 + n1 + n2 + n3 + d.val, by have := d.isLt; omega⟩) := by
  rw [sum_two (n0 + n1 + n2 + n3) n4 h g,
    sum_two (n0 + n1 + n2) n3 rfl (fun d : Fin (n0 + n1 + n2 + n3) => g ⟨d.val, by have := d.isLt; omega⟩),
    sum_two (n0 + n1) n2 rfl (fun d : Fin (n0 + n1 + n2) => g ⟨d.val, by have := d.isLt; omega⟩),
    sum_two n0 n1 rfl (fun d : Fin (n0 + n1) => g ⟨d.val, by have := d.isLt; omega⟩)]

end Cert.SumSplit
-- ==== Proof.LayerSpec.lean ====
/-
  The layer's arithmetic on the extended reals, one ROW at a time.

  Every matrix product of the layer acts on rows: row `e` of a product depends on row `e` of the left operand and on
  the whole weight matrix. So the edge message, the coordinate weights and the node update are each a function of one
  row of their inputs. Written here over plain index types:

  * `silu x = x · σ(x)`, with `σ` the logistic function of the extended reals;
  * `pre3`: the first edge layer's pre-activation as the SUM OF THREE PRODUCTS (source features, target features,
    radial features, each against its own slab of the weight matrix), and `stack3`, the three rows laid end to end;
    `pre3_eq` says the three products add up to the one product of the stacked row with the whole column — a finite
    sum taken slab by slab, which only uses that addition is associative and commutative, so it holds with infinite
    entries too;
  * `pre2` / `stack2` / `pre2_eq`: the same for the node layer's two slabs.
-/
import Mathlib.Algebra.BigOperators.Fin
import Idealize.ShloMosaic.PureOps.Ideal
import proofs.«102740_j91328184582715_1_alg».proof.Proof.LibSumSplit

noncomputable section

open scoped BigOperators

namespace Cert.Layer

open Idealize.ShloMosaic

/-- `x · σ(x)`. -/
def silu (x : EReal) : EReal := x * Ideal.logistic x

/-- A row against a matrix column, plus a bias. -/
def lin {K : ℕ} (x : Fin K → EReal) (w : Fin K → EReal) (b : EReal) : EReal := (∑ k, x k * w k) + b

/-- Three rows laid end to end: 128 + 128 + 6 entries. -/
def stack3 (a b : Fin 128 → EReal) (r : Fin 6 → EReal) (k : Fin 262) : EReal :=
  if h : k.val < 128 then a ⟨k.val, h⟩
  else if h2 : k.val < 256 then b ⟨k.val - 128, by omega⟩
  else r ⟨k.val - 256, by have := k.isLt; omega⟩

/-- The first edge layer's pre-activation, as three products added in turn (each row against its own slab of the
    weight column), then the bias. -/
def pre3 (a b : Fin 128 → EReal) (r : Fin 6 → EReal) (wa wb : Fin 128 → EReal) (wc : Fin 6 → EReal) (bias : EReal) : EReal :=
  (((∑ k : Fin 128, a k * wa k) + ∑ k : Fin 128, b k * wb k) + ∑ k : Fin 6, r k * wc k) + bias

/-- The three products add up to the product of the stacked row with the whole column, when the three slabs are the
    column's entries 0…127, 128…255 and 256…261. -/
theorem pre3_eq (a b : Fin 128 → EReal) (r : Fin 6 → EReal) (wa wb : Fin 128 → EReal) (wc : Fin 6 → EReal)
    (w : Fin 262 → EReal) (bias : EReal)
    (ha : ∀ k : Fin 128, wa k = w ⟨k.val, by have := k.isLt; omega⟩)
    (hb : ∀ k : Fin 128, wb k = w ⟨128 + k.val, by have := k.isLt; omega⟩)
    (hc : ∀ k : Fin 6, wc k = w ⟨256 + k.val, by have := k.isLt; omega⟩) :
    pre3 a b r wa wb wc bias = lin (stack3 a b r) w bias := by
  unfold pre3 lin
  refine congrArg (· + bias) ?_
  rw [Cert.SumSplit.sum_two 256 6 rfl (fun k : Fin 262 => stack3 a b r k * w k),
    Cert.SumSplit.sum_two 128 128 rfl (fun d : Fin 256 => stack3 a b r ⟨d.val, by have := d.isLt; omega⟩ * w ⟨d.val, by have := d.isLt; omega⟩)]
  refine congrArg₂ (· + ·) (congrArg₂ (· + ·) ?_ ?_) ?_
  · refine Finset.sum_congr rfl fun k _ => ?_
    have hk : k.val < 128 := k.isLt
    rw [ha k]
    simp only [stack3, dif_pos hk]
  · refine Finset.sum_congr rfl fun k _ => ?_
    have hk : k.val < 128 := k.isLt
    have h1 : ¬ (128 + k.val < 128) := by omega
    have h2 : 128 + k.val < 256 := by omega
    rw [hb k]
    simp only [stack3, dif_neg h1, dif_pos h2]
    refine congrArg (· * _) (congrArg b (Fin.ext ?_))
    show k.val = 128 + k.val - 128
    omega
  · refine Finset.sum_congr rfl fun k _ => ?_
    have hk : k.val < 6 := k.isLt
    have h1 : ¬ (256 + k.val < 128) := by omega
    have h2 : ¬ (256 + k.val < 256) := by omega
    rw [hc k]
    simp only [stack3, dif_neg h1, dif_neg h2]
    refine congrArg (· * _) (congrArg r (Fin.ext ?_))
    show k.val = 256 + k.val - 256
    omega

/-- Two rows laid end to end: 128 + 128 entries. -/
def stack2 (a b : Fin 128 → EReal) (k : Fin 256) : EReal :=
  if h : k.val < 128 then a ⟨k.val, h⟩ else b ⟨k.val - 128, by have := k.isLt; omega⟩

/-- The node layer's pre-activation, as two products added (each row against its own slab), then the bias. -/
def pre2 (a b : Fin 128 → EReal) (wa wb : Fin 128 → EReal) (bias : EReal) : EReal :=
  ((∑ k : Fin 128, a k * wa k) + ∑ k : Fin 128, b k * wb k) + bias

/-- The two products add up to the product of the stacked row with the whole column, when the two slabs are the
    column's entries 0…127 and 128…255. -/
theorem pre2_eq (a b : Fin 128 → EReal) (wa wb : Fin 128 → EReal) (w : Fin 256 → EReal) (bias : EReal)
    (ha : ∀ k : Fin 128, wa k = w ⟨k.val, by have := k.isLt; omega⟩)
    (hb : ∀ k : Fin 128, wb k = w ⟨128 + k.val, by have := k.isLt; omega⟩) :
    pre2 a b wa wb bias = lin (stack2 a b) w bias := by
  unfold pre2 lin
  refine congrArg (· + bias) ?_
  rw [Cert.SumSplit.sum_two 128 128 rfl (fun k : Fin 256 => stack2 a b k * w k)]
  refine congrArg₂ (· + ·) ?_ ?_
  · refine Finset.sum_congr rfl fun k _ => ?_
    have hk : k.val < 128 := k.isLt
    rw [ha k]
    simp only [stack2, dif_pos hk]
  · refine Finset.sum_congr rfl fun k _ => ?_
    have hk : k.val < 128 := k.isLt
    have h1 : ¬ (128 + k.val < 128) := by omega
    rw [hb k]
    simp only [stack2, dif_neg h1]
    refine congrArg (· * _) (congrArg b (Fin.ext ?_))
    show k.val = 128 + k.val - 128
    omega

/-! ## The three row functions of the layer -/

/-- THE EDGE MESSAGE of one edge, entry `j`: two layers, each followed by `silu`; the first layer in its
    three-product spelling. -/
def msgRow (a b : Fin 128 → EReal) (r : Fin 6 → EReal) (Wa Wb : Fin 128 → Fin 128 → EReal) (Wc : Fin 6 → Fin 128 → EReal)
    (b1 : Fin 128 → EReal) (W2 : Fin 128 → Fin 128 → EReal) (b2 : Fin 128 → EReal) (j : Fin 128) : EReal :=
  silu (lin (fun k => silu (pre3 a b r (fun k' => Wa k' k) (fun k' => Wb k' k) (fun k' => Wc k' k) (b1 k))) (fun k => W2 k j) (b2 j))

/-- The same message with the first layer as ONE product of the stacked row with the whole weight matrix. -/
def msgRowStacked (x : Fin 262 → EReal) (W1 : Fin 262 → Fin 128 → EReal) (b1 : Fin 128 → EReal)
    (W2 : Fin 128 → Fin 128 → EReal) (b2 : Fin 128 → EReal) (j : Fin 128) : EReal :=
  silu (lin (fun k => silu (lin x (fun k' => W1 k' k) (b1 k))) (fun k => W2 k j) (b2 j))

/-- The two spellings of the message agree when the three slabs are the rows 0…127, 128…255, 256…261 of the matrix. -/
theorem msgRow_eq (a b : Fin 128 → EReal) (r : Fin 6 → EReal) (Wa Wb : Fin 128 → Fin 128 → EReal) (Wc : Fin 6 → Fin 128 → EReal)
    (W1 : Fin 262 → Fin 128 → EReal) (b1 : Fin 128 → EReal) (W2 : Fin 128 → Fin 128 → EReal) (b2 : Fin 128 → EReal) (j : Fin 128)
    (ha : ∀ (k' : Fin 128) (k : Fin 128), Wa k' k = W1 ⟨k'.val, by have := k'.isLt; omega⟩ k)
    (hb : ∀ (k' : Fin 128) (k : Fin 128), Wb k' k = W1 ⟨128 + k'.val, by have := k'.isLt; omega⟩ k)
    (hc : ∀ (k' : Fin 6) (k : Fin 128), Wc k' k = W1 ⟨256 + k'.val, by have := k'.isLt; omega⟩ k) :
    msgRow a b r Wa Wb Wc b1 W2 b2 j = msgRowStacked (stack3 a b r) W1 b1 W2 b2 j := by
  unfold msgRow msgRowStacked
  refine congrArg silu (congrArg (fun f => lin f (fun k => W2 k j) (b2 j)) (funext fun k => congrArg silu ?_))
  exact pre3_eq a b r _ _ _ (fun k' => W1 k' k) (b1 k) (fun k' => ha k' k) (fun k' => hb k' k) (fun k' => hc k' k)

/-- THE COORDINATE WEIGHT of one edge for channel `c`, from its message row: one layer with `silu`, then a product
    with a two-column matrix, no bias. -/
def cwRow (m : Fin 128 → EReal) (Wc1 : Fin 128 → Fin 128 → EReal) (bc1 : Fin 128 → EReal) (Wc2 : Fin 128 → Fin 2 → EReal)
    (c : Fin 2) : EReal :=
  ∑ k, silu (lin m (fun k' => Wc1 k' k) (bc1 k)) * Wc2 k c

/-- THE NODE UPDATE of one node, entry `j`: the node's own row plus a two-layer map of (own row, aggregated
    messages), the first layer in its two-product spelling. -/
def nodeRow (h agg : Fin 128 → EReal) (Wa Wb : Fin 128 → Fin 128 → EReal) (b1 : Fin 128 → EReal)
    (W2 : Fin 128 → Fin 128 → EReal) (b2 : Fin 128 → EReal) (j : Fin 128) : EReal :=
  h j + lin (fun k => silu (pre2 h agg (fun k' => Wa k' k) (fun k' => Wb k' k) (b1 k))) (fun k => W2 k j) (b2 j)

/-- The same update with the first layer as one product of the stacked row with the whole matrix. -/
def nodeRowStacked (h : Fin 128 → EReal) (x : Fin 256 → EReal) (W1 : Fin 256 → Fin 128 → EReal) (b1 : Fin 128 → EReal)
    (W2 : Fin 128 → Fin 128 → EReal) (b2 : Fin 128 → EReal) (j : Fin 128) : EReal :=
  h j + lin (fun k => silu (lin x (fun k' => W1 k' k) (b1 k))) (fun k => W2 k j) (b2 j)

theorem nodeRow_eq (h agg : Fin 128 → EReal) (Wa Wb : Fin 128 → Fin 128 → EReal) (W1 : Fin 256 → Fin 128 → EReal)
    (b1 : Fin 128 → EReal) (W2 : Fin 128 → Fin 128 → EReal) (b2 : Fin 128 → EReal) (j : Fin 128)
    (ha : ∀ (k' : Fin 128) (k : Fin 128), Wa k' k = W1 ⟨k'.val, by have := k'.isLt; omega⟩ k)
    (hb : ∀ (k' : Fin 128) (k : Fin 128), Wb k' k = W1 ⟨128 + k'.val, by have := k'.isLt; omega⟩ k) :
    nodeRow h agg Wa Wb b1 W2 b2 j = nodeRowStacked h (stack2 h agg) W1 b1 W2 b2 j := by
  unfold nodeRow nodeRowStacked
  refine congrArg (h j + ·) (congrArg (fun f => lin f (fun k => W2 k j) (b2 j)) (funext fun k => congrArg silu ?_))
  exact pre2_eq h agg _ _ (fun k' => W1 k' k) (b1 k) (fun k' => ha k' k) (fun k' => hb k' k)

end Cert.Layer

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.EdgePayload.lean ====
/-
  The kernels' block arithmetic read at an entry.

  Each kernel body computes, from the blocks it loads, a block of results by matrix products, a row broadcast of a
  bias, the logistic function and pointwise products. Read at row `r` and column `j` of the block, each result is the
  row function of `LayerSpec` applied to row `r` of the loaded blocks: a change of float format is the identity on the
  extended reals, a matrix product into a zero accumulator is the plain sum over the contracted index, a row broadcast
  reads the row.
-/
import proofs.«102740_j91328184582715_1_alg».proof.Proof.Gen.KernelIdeal.Skeleton
import proofs.«102740_j91328184582715_1_alg».proof.Proof.LayerSpec
import proofs.«102740_j91328184582715_1_alg».proof.Proof.LibMatProd
import proofs.«102740_j91328184582715_1_alg».proof.Proof.LibBroadcastTo
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.Layer

/-- The logistic function, lane by lane. -/
theorem logistic_apply {s : Shape} {φ : FTy} (x : FVec Ideal s φ) (i : s.Idx) : logistic x i = Ideal.logistic (x i) := rfl

/-- A 2000×128 block against a 128×128 matrix, into a zero accumulator. -/
theorem mm128 {φ ψ : FTy} (X : FVec Ideal S2000x128 φ) (W : FVec Ideal S128x128 ψ) (r : Fin 2000) (j : Fin 128) :
    matmul dot_S2000x128_S128x128_S2000x128_1_0_0_1_n_n none X W (constant S2000x128 .f32 0x00000000#32) (ix2 r j)
      = ∑ k : Fin 128, X (ix2 r k) * W (ix2 k j) :=
  Cert.MatProd.matmul_plain_zero_apply (M := 2000) (K := 128) (N := 128) none X W r j

/-- A 2000×6 block against a 6×128 matrix. -/
theorem mm6 {φ ψ : FTy} (X : FVec Ideal S2000x6 φ) (W : FVec Ideal S6x128 ψ) (r : Fin 2000) (j : Fin 128) :
    matmul dot_S2000x6_S6x128_S2000x128_1_0_0_1_n_n none X W (constant S2000x128 .f32 0x00000000#32) (ix2 r j)
      = ∑ k : Fin 6, X (ix2 r k) * W (ix2 k j) :=
  Cert.MatProd.matmul_plain_zero_apply (M := 2000) (K := 6) (N := 128) none X W r j

/-- A 2000×128 block against a 128×2 matrix. -/
theorem mm2 {φ ψ : FTy} (X : FVec Ideal S2000x128 φ) (W : FVec Ideal S128x2 ψ) (r : Fin 2000) (c : Fin 2) :
    matmul dot_S2000x128_S128x2_S2000x2_1_0_0_1_n_n none X W (constant S2000x2 .f32 0x00000000#32) (ix2 r c)
      = ∑ k : Fin 128, X (ix2 r k) * W (ix2 k c) :=
  Cert.MatProd.matmul_plain_zero_apply (M := 2000) (K := 128) (N := 2) none X W r c

/-- The radial features are the first six columns of the per-edge block … -/
theorem radial_apply (v : FVec Ideal S2000x12 .f32) (r : Fin 2000) (k : Fin 6) :
    extractStridedSlice S2000x6 ![0, 0] v slices_S2000x12_o0_0_S2000x6 (ix2 r k)
      = v (ix2 r ⟨k.val, by have := k.isLt; omega⟩) :=
  slice2_axis1_apply 0 v slices_S2000x12_o0_0_S2000x6 r k _ (Nat.zero_add _).symm

/-- … and the coordinate differences its last six. -/
theorem diff_apply (v : FVec Ideal S2000x12 .f32) (r : Fin 2000) (k : Fin 6) :
    extractStridedSlice S2000x6 ![0, 6] v slices_S2000x12_o0_6_S2000x6 (ix2 r k)
      = v (ix2 r ⟨6 + k.val, by have := k.isLt; omega⟩) :=
  slice2_axis1_apply 6 v slices_S2000x12_o0_6_S2000x6 r k _ rfl

/-- A bias row broadcast down the block reads the row. -/
theorem bias_apply (v : FVec Ideal S1x128 .f32) (r : Fin 2000) (j : Fin 128) :
    broadcastTo S2000x128 v broadcasts_S1x128_S2000x128 (ix2 r j) = v (ix2 (0 : Fin 1) j) :=
  broadcastTo_1b_ab_apply v broadcasts_S1x128_S2000x128 r j

/-- THE MESSAGE BLOCK at `(r, j)` is the message row function of row `r` of the loaded blocks. -/
theorem msg_apply (v0 v2 : Vec Ideal S2000x128 .bf16) (v4 : Vec Ideal S2000x12 .f32) (v8 v10 : Vec Ideal S128x128 .bf16)
    (v12 : Vec Ideal S6x128 .bf16) (v14 : Vec Ideal S1x128 .f32) (v26 : Vec Ideal S128x128 .bf16) (v28 : Vec Ideal S1x128 .f32)
    (r : Fin 2000) (j : Fin 128) :
    k0_pay6 v0 v2 v4 v8 v10 v12 v14 v26 v28 (ix2 r j)
      = msgRow (fun k => v0 (ix2 r k)) (fun k => v2 (ix2 r k)) (fun k => v4 (ix2 r ⟨k.val, by have := k.isLt; omega⟩))
          (fun k' k => v8 (ix2 k' k)) (fun k' k => v10 (ix2 k' k)) (fun k' k => v12 (ix2 k' k)) (fun k => v14 (ix2 (0 : Fin 1) k))
          (fun k' k => v26 (ix2 k' k)) (fun k => v28 (ix2 (0 : Fin 1) k)) j := by
  unfold k0_pay6 k0_pay4
  simp only [mulf_apply, addf_apply, logistic_apply, truncf_apply, mm128, mm6, bias_apply, radial_apply,
    Idealize.ShloMosaic.shapeCast_self]
  rfl

/-- THE COORDINATE WEIGHTS at `(r, c)`: the coordinate-weight row function of row `r` of the message block. -/
theorem cw_apply (v35 : FVec Ideal S2000x128 .f32) (v37 : Vec Ideal S128x128 .bf16) (v39 : Vec Ideal S1x128 .f32)
    (v47 : Vec Ideal S128x2 .bf16) (r : Fin 2000) (c : Fin 2) :
    k0_pay1 v35 v37 v39 v47 (ix2 r c)
      = cwRow (fun k => v35 (ix2 r k)) (fun k' k => v37 (ix2 k' k)) (fun k => v39 (ix2 (0 : Fin 1) k))
          (fun k c => v47 (ix2 k c)) c := by
  unfold k0_pay1
  simp only [mulf_apply, addf_apply, logistic_apply, truncf_apply, mm128, mm2, bias_apply,
    Idealize.ShloMosaic.shapeCast_self]
  rfl

/-- The coordinate differences, as the kernel hands them on: the last six columns of the per-edge block. -/
theorem diff6_apply (v4 : Vec Ideal S2000x12 .f32) (r : Fin 2000) (q : Fin 6) :
    k0_pay5 v4 (ix2 r q) = v4 (ix2 r ⟨6 + q.val, by have := q.isLt; omega⟩) := by
  unfold k0_pay5 k0_pay4
  simp only [Idealize.ShloMosaic.shapeCast_self]
  exact diff_apply v4 r q

/-- THE FIRST CHANNEL'S TRANSLATION at `(r, d)`: the difference's column `d` times the first coordinate weight. -/
theorem trans0_apply (v7 : FVec Ideal S2000x6 .f32) (v35 : FVec Ideal S2000x128 .f32) (v37 : Vec Ideal S128x128 .bf16)
    (v39 : Vec Ideal S1x128 .f32) (v47 : Vec Ideal S128x2 .bf16) (r : Fin 2000) (d : Fin 3) :
    k0_pay2 v7 v35 v37 v39 v47 (ix2 r d)
      = v7 (ix2 r ⟨d.val, by have := d.isLt; omega⟩) * k0_pay1 v35 v37 v39 v47 (ix2 r (0 : Fin 2)) := by
  unfold k0_pay2
  generalize k0_pay1 v35 v37 v39 v47 = cw
  simp only [mulf_apply]
  refine congrArg₂ (· * ·) ?_ ?_
  · exact slice2_axis1_apply 0 v7 slices_S2000x6_o0_0_S2000x3 r d _ (Nat.zero_add _).symm
  · refine (Cert.BroadcastTo.col_apply (m := 2000) (n := 3) _ broadcasts_S2000x1_S2000x3 r d).trans ?_
    exact slice2_axis1_apply 0 cw slices_S2000x2_o0_0_S2000x1 r (0 : Fin 1) (0 : Fin 2) rfl

/-- THE SECOND CHANNEL'S TRANSLATION at `(r, d)`: the difference's column `3 + d` times the second coordinate weight. -/
theorem trans1_apply (v7 : FVec Ideal S2000x6 .f32) (v35 : FVec Ideal S2000x128 .f32) (v37 : Vec Ideal S128x128 .bf16)
    (v39 : Vec Ideal S1x128 .f32) (v47 : Vec Ideal S128x2 .bf16) (r : Fin 2000) (d : Fin 3) :
    k0_pay3 v7 v35 v37 v39 v47 (ix2 r d)
      = v7 (ix2 r ⟨3 + d.val, by have := d.isLt; omega⟩) * k0_pay1 v35 v37 v39 v47 (ix2 r (1 : Fin 2)) := by
  unfold k0_pay3
  generalize k0_pay1 v35 v37 v39 v47 = cw
  simp only [mulf_apply]
  refine congrArg₂ (· * ·) ?_ ?_
  · exact slice2_axis1_apply 3 v7 slices_S2000x6_o0_3_S2000x3 r d _ rfl
  · refine (Cert.BroadcastTo.col_apply (m := 2000) (n := 3) _ broadcasts_S2000x1_S2000x3 r d).trans ?_
    exact slice2_axis1_apply 1 cw slices_S2000x2_o0_1_S2000x1 r (0 : Fin 1) (1 : Fin 2) rfl

/-- THE NODE BLOCK at `(r, j)` is the node row function of row `r` of the two loaded blocks. -/
theorem node_apply (v0 v1 : Vec Ideal S2000x128 .f32) (v5 v7 : Vec Ideal S128x128 .bf16) (v9 : Vec Ideal S1x128 .f32)
    (v18 : Vec Ideal S128x128 .bf16) (v20 : Vec Ideal S1x128 .f32) (r : Fin 2000) (j : Fin 128) :
    k1_pay1 v0 v1 v5 v7 v9 v18 v20 (ix2 r j)
      = nodeRow (fun k => v0 (ix2 r k)) (fun k => v1 (ix2 r k)) (fun k' k => v5 (ix2 k' k)) (fun k' k => v7 (ix2 k' k))
          (fun k => v9 (ix2 (0 : Fin 1) k)) (fun k' k => v18 (ix2 k' k)) (fun k => v20 (ix2 (0 : Fin 1) k)) j := by
  unfold k1_pay1
  simp only [mulf_apply, addf_apply, logistic_apply, truncf_apply, mm128, bias_apply,
    Idealize.ShloMosaic.shapeCast_self]
  rfl

end Cert.KernelIdeal.Pay

end
-- ==== Proof.RegionArrays.lean ====
/-
  The two regions' output arrays as whole-array functions of the arrays the regions read (the extended reals).

  Region 0 runs over 400 blocks of 2000 edges, region 1 over 25 blocks of 2000 nodes. At each point the body turns the
  point's rows of the row inputs and the whole weight arrays into the point's rows of the outputs, by the row functions
  of `LayerSpec`. Here: what each window's block at a point is, as rows of its array (`iblkK_W_apply`); the three output
  arrays as functions (`msgArr`, `transArr`, `nodeArr`); that each point writes back the point's block of that function
  (`flushedW_eq`); that the blocks tile the arrays (`coverW`); so the arrays end holding the functions (`finalW`).
-/
import proofs.«102740_j91328184582715_1_alg».proof.Proof.KernelIdealDat
import proofs.«102740_j91328184582715_1_alg».proof.Proof.EdgePayload
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Cert.KernelIdeal.Reg Cert.KernelIdeal.Pay Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The regions' outputs as whole arrays

Each region's output array, after the region, is ONE function of the arrays the region reads: every grid point writes
rows `2000 t … 2000 t + 1999` of the output from the same rows of the row inputs and the whole weight arrays, by a
row function (`LayerSpec`), and the points' row blocks tile the array. -/

theorem hz2 : (![0, 0] : Fin 2 → Nat) = fun _ => 0 := funext fun a => by fin_cases a <;> rfl

/-- The index maps of region 0, decided over its grid: a row window's block index is the grid point on the row axis
    and zero on the column axis; a weight or bias window's block is always the whole array. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- Window 0 of region 0 at point `t` holds rows `2000 t … 2000 t + 1999` of its array. -/
theorem iblk0_0_apply (c : Dev nD) (t : Fin cfg0.N) (r : Fin 2000) (k : Fin 128) :
    (iblk0 V c 0 t : Vec Ideal S2000x128 .bf16) (ix2 r k)
      = (V c main_v72 : S800000x128.Idx → EReal) (ix2 ⟨2000 * t.val + r.val, by have := t.isLt; have h : cfg0.N = 400 := N_0; have := r.isLt; omega⟩ k) := by
  have h0 := (idx0 t).1
  have h1 := (idx0 t).2.1
  unfold iblk0
  rw [View.read_apply]
  show (V c main_v72 : S800000x128.Idx → EReal) _ = (V c main_v72 : S800000x128.Idx → EReal) _
  congr 1
  funext a
  apply Fin.ext
  match a with
  | ⟨0, _⟩ => show win0_0.index t (0 : Fin 2) * 2000 + 1 * r.val = 2000 * t.val + r.val; rw [h0]; omega
  | ⟨1, _⟩ => show win0_0.index t (1 : Fin 2) * 128 + 1 * k.val = k.val; rw [h1]; omega

/-- Window 1 of region 0 at point `t` holds rows `2000 t … 2000 t + 1999` of its array. -/
theorem iblk0_1_apply (c : Dev nD) (t : Fin cfg0.N) (r : Fin 2000) (k : Fin 128) :
    (iblk0 V c 1 t : Vec Ideal S2000x128 .bf16) (ix2 r k)
      = (V c main_v73 : S800000x128.Idx → EReal) (ix2 ⟨2000 * t.val + r.val, by have := t.isLt; have h : cfg0.N = 400 := N_0; have := r.isLt; omega⟩ k) := by
  have h0 := (idx0 t).2.2.1
  have h1 := (idx0 t).2.2.2.1
  unfold iblk0
  rw [View.read_apply]
  show (V c main_v73 : S800000x128.Idx → EReal) _ = (V c main_v73 : S800000x128.Idx → EReal) _
  congr 1
  funext a
  apply Fin.ext
  match a with
  | ⟨0, _⟩ => show win0_1.index t (0 : Fin 2) * 2000 + 1 * r.val = 2000 * t.val + r.val; rw [h0]; omega
  | ⟨1, _⟩ => show win0_1.index t (1 : Fin 2) * 128 + 1 * k.val = k.val; rw [h1]; omega

/-- Window 2 of region 0 at point `t` holds rows `2000 t … 2000 t + 1999` of its array. -/
theorem iblk0_2_apply (c : Dev nD) (t : Fin cfg0.N) (r : Fin 2000) (k : Fin 12) :
    (iblk0 V c 2 t : Vec Ideal S2000x12 .f32) (ix2 r k)
      = (V c main_v71 : S800000x12.Idx → EReal) (ix2 ⟨2000 * t.val + r.val, by have := t.isLt; have h : cfg0.N = 400 := N_0; have := r.isLt; omega⟩ k) := by
  have h0 := (idx0 t).2.2.2.2.1
  have h1 := (idx0 t).2.2.2.2.2.1
  unfold iblk0
  rw [View.read_apply]
  show (V c main_v71 : S800000x12.Idx → EReal) _ = (V c main_v71 : S800000x12.Idx → EReal) _
  congr 1
  funext a
  apply Fin.ext
  match a with
  | ⟨0, _⟩ => show win0_2.index t (0 : Fin 2) * 2000 + 1 * r.val = 2000 * t.val + r.val; rw [h0]; omega
  | ⟨1, _⟩ => show win0_2.index t (1 : Fin 2) * 12 + 1 * k.val = k.val; rw [h1]; omega

/-- Window 3 of region 0 holds its whole array at every point. -/
theorem iblk0_3_apply (c : Dev nD) (t : Fin cfg0.N) (r : Fin 128) (k : Fin 128) :
    (iblk0 V c 3 t : Vec Ideal S128x128 .bf16) (ix2 r k) = (V c main_v75 : S128x128.Idx → EReal) (ix2 r k) := by
  have h0 := (idx0 t).2.2.2.2.2.2.1
  have h1 := (idx0 t).2.2.2.2.2.2.2.1
  unfold iblk0
  rw [View.read_apply]
  show (V c main_v75 : S128x128.Idx → EReal) _ = (V c main_v75 : S128x128.Idx → EReal) _
  congr 1
  funext a
  apply Fin.ext
  match a with
  | ⟨0, _⟩ => show win0_3.index t (0 : Fin 2) * 128 + 1 * r.val = r.val; rw [h0]; omega
  | ⟨1, _⟩ => show win0_3.index t (1 : Fin 2) * 128 + 1 * k.val = k.val; rw [h1]; omega

/-- Window 4 of region 0 holds its whole array at every point. -/
theorem iblk0_4_apply (c : Dev nD) (t : Fin cfg0.N) (r : Fin 128) (k : Fin 128) :
    (iblk0 V c 4 t : Vec Ideal S128x128 .bf16) (ix2 r k) = (V c main_v77 : S128x128.Idx → EReal) (ix2 r k) := by
  have h0 := (idx0 t).2.2.2.2.2.2.2.2.1
  have h1 := (idx0 t).2.2.2.2.2.2.2.2.2.1
  unfold iblk0
  rw [View.read_apply]
  show (V c main_v77 : S128x128.Idx → EReal) _ = (V c main_v77 : S128x128.Idx → EReal) _
  congr 1
  funext a
  apply Fin.ext
  match a with
  | ⟨0, _⟩ => show win0_4.index t (0 : Fin 2) * 128 + 1 * r.val = r.val; rw [h0]; omega
  | ⟨1, _⟩ => show win0_4.index t (1 : Fin 2) * 128 + 1 * k.val = k.val; rw [h1]; omega

/-- Window 5 of region 0 holds its whole array at every point. -/
theorem iblk0_5_apply (c : Dev nD) (t : Fin cfg0.N) (r : Fin 6) (k : Fin 128) :
    (iblk0 V c 5 t : Vec Ideal S6x128 .bf16) (ix2 r k) = (V c main_v79 : S6x128.Idx → EReal) (ix2 r k) := by
  have h0 := (idx0 t).2.2.2.2.2.2.2.2.2.2.1
  have h1 := (idx0 t).2.2.2.2.2.2.2.2.2.2.2.1
  unfold iblk0
  rw [View.read_apply]
  show (V c main_v79 : S6x128.Idx → EReal) _ = (V c main_v79 : S6x128.Idx → EReal) _
  congr 1
  funext a
  apply Fin.ext
  match a with
  | ⟨0, _⟩ => show win0_5.index t (0 : Fin 2) * 6 + 1 * r.val = r.val; rw [h0]; omega
  | ⟨1, _⟩ => show win0_5.index t (1 : Fin 2) * 128 + 1 * k.val = k.val; rw [h1]; omega

/-- Window 6 of region 0 holds its whole array at every point. -/
theorem iblk0_6_apply (c : Dev nD) (t : Fin cfg0.N) (r : Fin 1) (k : Fin 128) :
    (iblk0 V c 6 t : Vec Ideal S1x128 .f32) (ix2 r k) = (V c main_v80 : S1x128.Idx → EReal) (ix2 r k) := by
  have h0 := (idx0 t).2.2.2.2.2.2.2.2.2.2.2.2.1
  have h1 := (idx0 t).2.2.2.2.2.2.2.2.2.2.2.2.2.1
  unfold iblk0
  rw [View.read_apply]
  show (V c main_v80 : S1x128.Idx → EReal) _ = (V c main_v80 : S1x128.Idx → EReal) _
  congr 1
  funext a
  apply Fin.ext
  match a with
  | ⟨0, _⟩ => show win0_6.index t (0 : Fin 2) * 1 + 1 * r.val = r.val; rw [h0]; omega
  | ⟨1, _⟩ => show win0_6.index t (1 : Fin 2) * 128 + 1 * k.val = k.val; rw [h1]; omega

/-- Window 7 of region 0 holds its whole array at every point. -/
theorem iblk0_7_apply (c : Dev nD) (t : Fin cfg0.N) (r : Fin 128) (k : Fin 128) :
    (iblk0 V c 7 t : Vec Ideal S128x128 .bf16) (ix2 r k) = (V c main_v81 : S128x128.Idx → EReal) (ix2 r k) := by
  have h0 := (idx0 t).2.2.2.2.2.2.2.2.2.2.2.2.2.2.1
  have h1 := (idx0 t).2.2.2.2.2.2.2.2.2.2.2.2.2.2.2.1
  unfold iblk0
  rw [View.read_apply]
  show (V c main_v81 : S128x128.Idx → EReal) _ = (V c main_v81 : S128x128.Idx → EReal) _
  congr 1
  funext a
  apply Fin.ext
  match a with
  | ⟨0, _⟩ => show win0_7.index t (0 : Fin 2) * 128 + 1 * r.val = r.val; rw [h0]; omega
  | ⟨1, _⟩ => show win0_7.index t (1 : Fin 2) * 128 + 1 * k.val = k.val; rw [h1]; omega

/-- Window 8 of region 0 holds its whole array at every point. -/
theorem iblk0_8_apply (c : Dev nD) (t : Fin cfg0.N) (r : Fin 1) (k : Fin 128) :
    (iblk0 V c 8 t : Vec Ideal S1x128 .f32) (ix2 r k) = (V c main_v82 : S1x128.Idx → EReal) (ix2 r k) := by
  have h0 := (idx0 t).2.2.2.2.2.2.2.2.2.2.2.2.2.2.2.2.1
  have h1 := (idx0 t).2.2.2.2.2.2.2.2.2.2.2.2.2.2.2.2.2.1
  unfold iblk0
  rw [View.read_apply]
  show (V c main_v82 : S1x128.Idx → EReal) _ = (V c main_v82 : S1x128.Idx → EReal) _
  congr 1
  funext a
  apply Fin.ext
  match a with
  | ⟨0, _⟩ => show win0_8.index t (0 : Fin 2) * 1 + 1 * r.val = r.val; rw [h0]; omega
  | ⟨1, _⟩ => show win0_8.index t (1 : Fin 2) * 128 + 1 * k.val = k.val; rw [h1]; omega

/-- Window 9 of region 0 holds its whole array at every point. -/
theorem iblk0_9_apply (c : Dev nD) (t : Fin cfg0.N) (r : Fin 128) (k : Fin 128) :
    (iblk0 V c 9 t : Vec Ideal S128x128 .bf16) (ix2 r k) = (V c main_v83 : S128x128.Idx → EReal) (ix2 r k) := by
  have h0 := (idx0 t).2.2.2.2.2.2.2.2.2.2.2.2.2.2.2.2.2.2.1
  have h1 := (idx0 t).2.2.2.2.2.2.2.2.2.2.2.2.2.2.2.2.2.2.2.1
  unfold iblk0
  rw [View.read_apply]
  show (V c main_v83 : S128x128.Idx → EReal) _ = (V c main_v83 : S128x128.Idx → EReal) _
  congr 1
  funext a
  apply Fin.ext
  match a with
  | ⟨0, _⟩ => show win0_9.index t (0 : Fin 2) * 128 + 1 * r.val = r.val; rw [h0]; omega
  | ⟨1, _⟩ => show win0_9.index t (1 : Fin 2) * 128 + 1 * k.val = k.val; rw [h1]; omega

/-- Window 10 of region 0 holds its whole array at every point. -/
theorem iblk0_10_apply (c : Dev nD) (t : Fin cfg0.N) (r : Fin 1) (k : Fin 128) :
    (iblk0 V c 10 t : Vec Ideal S1x128 .f32) (ix2 r k) = (V c main_v84 : S1x128.Idx → EReal) (ix2 r k) := by
  have h0 := (idx0 t).2.2.2.2.2.2.2.2.2.2.2.2.2.2.2.2.2.2.2.2.1
  have h1 := (idx0 t).2.2.2.2.2.2.2.2.2.2.2.2.2.2.2.2.2.2.2.2.2.1
  unfold iblk0
  rw [View.read_apply]
  show (V c main_v84 : S1x128.Idx → EReal) _ = (V c main_v84 : S1x128.Idx → EReal) _
  congr 1
  funext a
  apply Fin.ext
  match a with
  | ⟨0, _⟩ => show win0_10.index t (0 : Fin 2) * 1 + 1 * r.val = r.val; rw [h0]; omega
  | ⟨1, _⟩ => show win0_10.index t (1 : Fin 2) * 128 + 1 * k.val = k.val; rw [h1]; omega

/-- Window 11 of region 0 holds its whole array at every point. -/
theorem iblk0_11_apply (c : Dev nD) (t : Fin cfg0.N) (r : Fin 128) (k : Fin 2) :
    (iblk0 V c 11 t : Vec Ideal S128x2 .bf16) (ix2 r k) = (V c main_v85 : S128x2.Idx → EReal) (ix2 r k) := by
  have h0 := (idx0 t).2.2.2.2.2.2.2.2.2.2.2.2.2.2.2.2.2.2.2.2.2.2.1
  have h1 := (idx0 t).2.2.2.2.2.2.2.2.2.2.2.2.2.2.2.2.2.2.2.2.2.2.2.1
  unfold iblk0
  rw [View.read_apply]
  show (V c main_v85 : S128x2.Idx → EReal) _ = (V c main_v85 : S128x2.Idx → EReal) _
  congr 1
  funext a
  apply Fin.ext
  match a with
  | ⟨0, _⟩ => show win0_11.index t (0 : Fin 2) * 128 + 1 * r.val = r.val; rw [h0]; omega
  | ⟨1, _⟩ => show win0_11.index t (1 : Fin 2) * 2 + 1 * k.val = k.val; rw [h1]; omega

/-- The index maps of region 1, decided over its grid: a row window's block index is the grid point on the row axis
    and zero on the column axis; a weight or bias window's block is always the whole array. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Window 0 of region 1 at point `t` holds rows `2000 t … 2000 t + 1999` of its array. -/
theorem iblk1_0_apply (c : Dev nD) (t : Fin cfg1.N) (r : Fin 2000) (k : Fin 128) :
    (iblk1 V c 0 t : Vec Ideal S2000x128 .f32) (ix2 r k)
      = (V c main_arg0 : S50000x128.Idx → EReal) (ix2 ⟨2000 * t.val + r.val, by have := t.isLt; have h : cfg1.N = 25 := N_1; have := r.isLt; omega⟩ k) := by
  have h0 := (idx1 t).1
  have h1 := (idx1 t).2.1
  unfold iblk1
  rw [View.read_apply]
  show (V c main_arg0 : S50000x128.Idx → EReal) _ = (V c main_arg0 : S50000x128.Idx → EReal) _
  congr 1
  funext a
  apply Fin.ext
  match a with
  | ⟨0, _⟩ => show win1_0.index t (0 : Fin 2) * 2000 + 1 * r.val = 2000 * t.val + r.val; rw [h0]; omega
  | ⟨1, _⟩ => show win1_0.index t (1 : Fin 2) * 128 + 1 * k.val = k.val; rw [h1]; omega

/-- Window 1 of region 1 at point `t` holds rows `2000 t … 2000 t + 1999` of its array. -/
theorem iblk1_1_apply (c : Dev nD) (t : Fin cfg1.N) (r : Fin 2000) (k : Fin 128) :
    (iblk1 V c 1 t : Vec Ideal S2000x128 .f32) (ix2 r k)
      = (V c main_v89 : S50000x128.Idx → EReal) (ix2 ⟨2000 * t.val + r.val, by have := t.isLt; have h : cfg1.N = 25 := N_1; have := r.isLt; omega⟩ k) := by
  have h0 := (idx1 t).2.2.1
  have h1 := (idx1 t).2.2.2.1
  unfold iblk1
  rw [View.read_apply]
  show (V c main_v89 : S50000x128.Idx → EReal) _ = (V c main_v89 : S50000x128.Idx → EReal) _
  congr 1
  funext a
  apply Fin.ext
  match a with
  | ⟨0, _⟩ => show win1_1.index t (0 : Fin 2) * 2000 + 1 * r.val = 2000 * t.val + r.val; rw [h0]; omega
  | ⟨1, _⟩ => show win1_1.index t (1 : Fin 2) * 128 + 1 * k.val = k.val; rw [h1]; omega

/-- Window 2 of region 1 holds its whole array at every point. -/
theorem iblk1_2_apply (c : Dev nD) (t : Fin cfg1.N) (r : Fin 128) (k : Fin 128) :
    (iblk1 V c 2 t : Vec Ideal S128x128 .bf16) (ix2 r k) = (V c main_v104 : S128x128.Idx → EReal) (ix2 r k) := by
  have h0 := (idx1 t).2.2.2.2.1
  have h1 := (idx1 t).2.2.2.2.2.1
  unfold iblk1
  rw [View.read_apply]
  show (V c main_v104 : S128x128.Idx → EReal) _ = (V c main_v104 : S128x128.Idx → EReal) _
  congr 1
  funext a
  apply Fin.ext
  match a with
  | ⟨0, _⟩ => show win1_2.index t (0 : Fin 2) * 128 + 1 * r.val = r.val; rw [h0]; omega
  | ⟨1, _⟩ => show win1_2.index t (1 : Fin 2) * 128 + 1 * k.val = k.val; rw [h1]; omega

/-- Window 3 of region 1 holds its whole array at every point. -/
theorem iblk1_3_apply (c : Dev nD) (t : Fin cfg1.N) (r : Fin 128) (k : Fin 128) :
    (iblk1 V c 3 t : Vec Ideal S128x128 .bf16) (ix2 r k) = (V c main_v106 : S128x128.Idx → EReal) (ix2 r k) := by
  have h0 := (idx1 t).2.2.2.2.2.2.1
  have h1 := (idx1 t).2.2.2.2.2.2.2.1
  unfold iblk1
  rw [View.read_apply]
  show (V c main_v106 : S128x128.Idx → EReal) _ = (V c main_v106 : S128x128.Idx → EReal) _
  congr 1
  funext a
  apply Fin.ext
  match a with
  | ⟨0, _⟩ => show win1_3.index t (0 : Fin 2) * 128 + 1 * r.val = r.val; rw [h0]; omega
  | ⟨1, _⟩ => show win1_3.index t (1 : Fin 2) * 128 + 1 * k.val = k.val; rw [h1]; omega

/-- Window 4 of region 1 holds its whole array at every point. -/
theorem iblk1_4_apply (c : Dev nD) (t : Fin cfg1.N) (r : Fin 1) (k : Fin 128) :
    (iblk1 V c 4 t : Vec Ideal S1x128 .f32) (ix2 r k) = (V c main_v107 : S1x128.Idx → EReal) (ix2 r k) := by
  have h0 := (idx1 t).2.2.2.2.2.2.2.2.1
  have h1 := (idx1 t).2.2.2.2.2.2.2.2.2.1
  unfold iblk1
  rw [View.read_apply]
  show (V c main_v107 : S1x128.Idx → EReal) _ = (V c main_v107 : S1x128.Idx → EReal) _
  congr 1
  funext a
  apply Fin.ext
  match a with
  | ⟨0, _⟩ => show win1_4.index t (0 : Fin 2) * 1 + 1 * r.val = r.val; rw [h0]; omega
  | ⟨1, _⟩ => show win1_4.index t (1 : Fin 2) * 128 + 1 * k.val = k.val; rw [h1]; omega

/-- Window 5 of region 1 holds its whole array at every point. -/
theorem iblk1_5_apply (c : Dev nD) (t : Fin cfg1.N) (r : Fin 128) (k : Fin 128) :
    (iblk1 V c 5 t : Vec Ideal S128x128 .bf16) (ix2 r k) = (V c main_v108 : S128x128.Idx → EReal) (ix2 r k) := by
  have h0 := (idx1 t).2.2.2.2.2.2.2.2.2.2.1
  have h1 := (idx1 t).2.2.2.2.2.2.2.2.2.2.2.1
  unfold iblk1
  rw [View.read_apply]
  show (V c main_v108 : S128x128.Idx → EReal) _ = (V c main_v108 : S128x128.Idx → EReal) _
  congr 1
  funext a
  apply Fin.ext
  match a with
  | ⟨0, _⟩ => show win1_5.index t (0 : Fin 2) * 128 + 1 * r.val = r.val; rw [h0]; omega
  | ⟨1, _⟩ => show win1_5.index t (1 : Fin 2) * 128 + 1 * k.val = k.val; rw [h1]; omega

/-- Window 6 of region 1 holds its whole array at every point. -/
theorem iblk1_6_apply (c : Dev nD) (t : Fin cfg1.N) (r : Fin 1) (k : Fin 128) :
    (iblk1 V c 6 t : Vec Ideal S1x128 .f32) (ix2 r k) = (V c main_v109 : S1x128.Idx → EReal) (ix2 r k) := by
  have h0 := (idx1 t).2.2.2.2.2.2.2.2.2.2.2.2.1
  have h1 := (idx1 t).2.2.2.2.2.2.2.2.2.2.2.2.2.1
  unfold iblk1
  rw [View.read_apply]
  show (V c main_v109 : S1x128.Idx → EReal) _ = (V c main_v109 : S1x128.Idx → EReal) _
  congr 1
  funext a
  apply Fin.ext
  match a with
  | ⟨0, _⟩ => show win1_6.index t (0 : Fin 2) * 1 + 1 * r.val = r.val; rw [h0]; omega
  | ⟨1, _⟩ => show win1_6.index t (1 : Fin 2) * 128 + 1 * k.val = k.val; rw [h1]; omega

/-! ## The output arrays as functions of the arrays the regions read -/

/-- The message of edge `e`, entry `j`: the message row function of row `e` of the three per-edge arrays. -/
def msgAt (HR HC : S800000x128.Idx → EReal) (EX : S800000x12.Idx → EReal) (Wa Wb : S128x128.Idx → EReal)
    (Wc : S6x128.Idx → EReal) (B1 : S1x128.Idx → EReal) (W2 : S128x128.Idx → EReal) (B2 : S1x128.Idx → EReal) (e : Fin 800000) (j : Fin 128) : EReal :=
  msgRow (fun k => HR (ix2 e k)) (fun k => HC (ix2 e k)) (fun k => EX (ix2 e ⟨k.val, by have := k.isLt; omega⟩))
    (fun k' k => Wa (ix2 k' k)) (fun k' k => Wb (ix2 k' k)) (fun k' k => Wc (ix2 k' k)) (fun k => B1 (ix2 (0 : Fin 1) k))
    (fun k' k => W2 (ix2 k' k)) (fun k => B2 (ix2 (0 : Fin 1) k)) j

/-- THE MESSAGE ARRAY. -/
def msgArr (HR HC : S800000x128.Idx → EReal) (EX : S800000x12.Idx → EReal) (Wa Wb : S128x128.Idx → EReal)
    (Wc : S6x128.Idx → EReal) (B1 : S1x128.Idx → EReal) (W2 : S128x128.Idx → EReal) (B2 : S1x128.Idx → EReal) : S800000x128.Idx → EReal :=
  fun i => msgAt HR HC EX Wa Wb Wc B1 W2 B2 (i 0) (i 1)

/-- The translation of edge `e`, flat coordinate `q = 3·channel + axis`: the coordinate difference at `q` times the
    channel's coordinate weight, itself a function of the edge's message row. -/
def transAt (HR HC : S800000x128.Idx → EReal) (EX : S800000x12.Idx → EReal) (Wa Wb : S128x128.Idx → EReal)
    (Wc : S6x128.Idx → EReal) (B1 : S1x128.Idx → EReal) (W2 : S128x128.Idx → EReal) (B2 : S1x128.Idx → EReal)
    (Wc1 : S128x128.Idx → EReal) (Bc1 : S1x128.Idx → EReal) (Wc2 : S128x2.Idx → EReal) (e : Fin 800000) (q : Fin 6) : EReal :=
  EX (ix2 e ⟨6 + q.val, by have := q.isLt; omega⟩)
    * cwRow (fun k => msgAt HR HC EX Wa Wb Wc B1 W2 B2 e k) (fun k' k => Wc1 (ix2 k' k)) (fun k => Bc1 (ix2 (0 : Fin 1) k))
        (fun k c => Wc2 (ix2 k c)) ⟨q.val / 3, by have := q.isLt; omega⟩

/-- THE TRANSLATION ARRAY. -/
def transArr (HR HC : S800000x128.Idx → EReal) (EX : S800000x12.Idx → EReal) (Wa Wb : S128x128.Idx → EReal)
    (Wc : S6x128.Idx → EReal) (B1 : S1x128.Idx → EReal) (W2 : S128x128.Idx → EReal) (B2 : S1x128.Idx → EReal)
    (Wc1 : S128x128.Idx → EReal) (Bc1 : S1x128.Idx → EReal) (Wc2 : S128x2.Idx → EReal) : S800000x6.Idx → EReal :=
  fun i => transAt HR HC EX Wa Wb Wc B1 W2 B2 Wc1 Bc1 Wc2 (i 0) (i 1)

/-- The update of node `n`, entry `j`: the node row function of row `n` of the features and of the aggregated messages. -/
def nodeAt (H AGG : S50000x128.Idx → EReal) (Wa Wb : S128x128.Idx → EReal) (B1 : S1x128.Idx → EReal)
    (W2 : S128x128.Idx → EReal) (B2 : S1x128.Idx → EReal) (n : Fin 50000) (j : Fin 128) : EReal :=
  nodeRow (fun k => H (ix2 n k)) (fun k => AGG (ix2 n k)) (fun k' k => Wa (ix2 k' k)) (fun k' k => Wb (ix2 k' k))
    (fun k => B1 (ix2 (0 : Fin 1) k)) (fun k' k => W2 (ix2 k' k)) (fun k => B2 (ix2 (0 : Fin 1) k)) j

/-- THE NODE ARRAY. -/
def nodeArr (H AGG : S50000x128.Idx → EReal) (Wa Wb : S128x128.Idx → EReal) (B1 : S1x128.Idx → EReal)
    (W2 : S128x128.Idx → EReal) (B2 : S1x128.Idx → EReal) : S50000x128.Idx → EReal :=
  fun i => nodeAt H AGG Wa Wb B1 W2 B2 (i 0) (i 1)

/-! ## Region 0, the message window -/

/-- Where an element of the message block at point `t` sits in the array. -/
theorem emb12 (t : Fin cfg0.N) (r : Fin 2000) (q : Fin 128) :
    ((cfg0.win 12).blk t).view.emb (ix2 r q)
      = (ix2 ⟨2000 * t.val + r.val, by have := t.isLt; have h : cfg0.N = 400 := N_0; have := r.isLt; omega⟩ q : S800000x128.Idx) := by
  have h0 := (idx0 t).2.2.2.2.2.2.2.2.2.2.2.2.2.2.2.2.2.2.2.2.2.2.2.2.1
  have h1 := (idx0 t).2.2.2.2.2.2.2.2.2.2.2.2.2.2.2.2.2.2.2.2.2.2.2.2.2.1
  funext a
  apply Fin.ext
  match a with
  | ⟨0, _⟩ => show win0_12.index t (0 : Fin 2) * 2000 + 1 * r.val = 2000 * t.val + r.val; rw [h0]; omega
  | ⟨1, _⟩ => show win0_12.index t (1 : Fin 2) * 128 + 1 * q.val = q.val; rw [h1]; omega

/-- The message block at point `t`, read at `(r, q)`, is the message of edge `2000 t + r`, entry `q`. -/
theorem msgBlk_eq (c : Dev nD) (t : Fin cfg0.N) (r : Fin 2000) (q : Fin 128) :
    k0_pay6 (iblk0 V c 0 t) (iblk0 V c 1 t) (iblk0 V c 2 t) (iblk0 V c 3 t) (iblk0 V c 4 t) (iblk0 V c 5 t) (iblk0 V c 6 t) (iblk0 V c 7 t) (iblk0 V c 8 t) (ix2 r q)
      = msgAt (V c main_v72) (V c main_v73) (V c main_v71) (V c main_v75) (V c main_v77) (V c main_v79) (V c main_v80) (V c main_v81) (V c main_v82)
          ⟨2000 * t.val + r.val, by have := t.isLt; have h : cfg0.N = 400 := N_0; have := r.isLt; omega⟩ q := by
  refine (msg_apply _ _ _ _ _ _ _ _ _ r q).trans ?_
  unfold msgAt
  simp only [iblk0_0_apply V c t, iblk0_1_apply V c t, iblk0_2_apply V c t, iblk0_3_apply V c t, iblk0_4_apply V c t,
    iblk0_5_apply V c t, iblk0_6_apply V c t, iblk0_7_apply V c t, iblk0_8_apply V c t]

/-- WHAT POINT `t` WRITES BACK to the message array is block `t` of the message array function. -/
theorem flushed12_eq (c : Dev nD) (t : Fin cfg0.N) :
    (dat0 V c).flushed 12 t = ((cfg0.win 12).blk t).view.read (Elt Ideal) (msgArr (V c main_v72) (V c main_v73) (V c main_v71) (V c main_v75) (V c main_v77) (V c main_v79) (V c main_v80) (V c main_v81) (V c main_v82)) := by
  show (cfg0.win 12).cut (grid0.coords t) ((dat0 V c).after 12 t) = _
  rw [after0_12]
  unfold out0_12
  rw [View.canon_unit_zero hz2]
  simp only [View.ld_unit_zero (S := S2000x128) hz2, View.ld_unit_zero (S := S2000x12) hz2, View.ld_unit_zero (S := S128x128) hz2,
    View.ld_unit_zero (S := S6x128) hz2, View.ld_unit_zero (S := S1x128) hz2, View.ld_unit_zero (S := S128x2) hz2]
  funext j
  obtain ⟨r, q, rfl⟩ : ∃ (r : Fin 2000) (q : Fin 128), j = ix2 r q := ⟨j 0, j 1, eq_ix2 j⟩
  show k0_pay6 (iblk0 V c 0 t) (iblk0 V c 1 t) (iblk0 V c 2 t) (iblk0 V c 3 t) (iblk0 V c 4 t) (iblk0 V c 5 t) (iblk0 V c 6 t) (iblk0 V c 7 t) (iblk0 V c 8 t) (ix2 r q) = msgArr (V c main_v72) (V c main_v73) (V c main_v71) (V c main_v75) (V c main_v77) (V c main_v79) (V c main_v80) (V c main_v81) (V c main_v82) (((cfg0.win 12).blk t).view.emb (ix2 r q))
  rw [emb12 t r q]
  exact msgBlk_eq V c t r q

/-- An index of the message array is in point `t`'s block iff its row is among the block's rows. -/
theorem mem_blk12 (t : Fin cfg0.N) (i : S800000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v86_0).slice (win0_12.rect t)).set ↔ _
  rw [View.set_slice_whole, Rect.mem_set_unit]
  exact Iff.rfl

/-- The points' blocks cover the message array: row `e` is in block `e / 2000`. -/
theorem cover12 (i : S800000x128.Idx) :
    ∃ t : Fin cfg0.N, (cfg0.win 12).flush t = true ∧ i ∈ ((cfg0.win 12).blk t).view.set := by
  have hi0 : (i 0).val < 800000 := (i 0).isLt
  have hi1 : (i 1).val < 128 := (i 1).isLt
  have hN : cfg0.N = 400 := N_0
  refine ⟨⟨(i 0).val / 2000, by omega⟩, flush0_12 _, ?_⟩
  have h0 := (idx0 ⟨(i 0).val / 2000, by omega⟩).2.2.2.2.2.2.2.2.2.2.2.2.2.2.2.2.2.2.2.2.2.2.2.2.1
  have h1 := (idx0 ⟨(i 0).val / 2000, by omega⟩).2.2.2.2.2.2.2.2.2.2.2.2.2.2.2.2.2.2.2.2.2.2.2.2.2.1
  rw [mem_blk12]
  intro a
  match a with
  | ⟨0, _⟩ => show win0_12.index _ (0 : Fin 2) * 2000 ≤ (i 0).val ∧ (i 0).val < win0_12.index _ (0 : Fin 2) * 2000 + 2000; rw [h0]; show (i 0).val / 2000 * 2000 ≤ (i 0).val ∧ (i 0).val < (i 0).val / 2000 * 2000 + 2000; omega
  | ⟨1, _⟩ => show win0_12.index _ (1 : Fin 2) * 128 ≤ (i 1).val ∧ (i 1).val < win0_12.index _ (1 : Fin 2) * 128 + 128; rw [h1]; omega

/-- THE MESSAGE ARRAY after region 0. -/
theorem final12 (c : Dev nD) : (dat0 V c).arrAt 12 cfg0.N = msgArr (V c main_v72) (V c main_v73) (V c main_v71) (V c main_v75) (V c main_v77) (V c main_v79) (V c main_v80) (V c main_v81) (V c main_v82) :=
  (dat0 V c).arrAt_eq_of_cover 12 _ (fun t _ => flushed12_eq V c t) cover12

/-! ## Region 0, the translation window -/

/-- Where an element of the translation block at point `t` sits in the array. -/
theorem emb13 (t : Fin cfg0.N) (r : Fin 2000) (q : Fin 6) :
    ((cfg0.win 13).blk t).view.emb (ix2 r q)
      = (ix2 ⟨2000 * t.val + r.val, by have := t.isLt; have h : cfg0.N = 400 := N_0; have := r.isLt; omega⟩ q : S800000x6.Idx) := by
  have h0 := (idx0 t).2.2.2.2.2.2.2.2.2.2.2.2.2.2.2.2.2.2.2.2.2.2.2.2.2.2.1
  have h1 := (idx0 t).2.2.2.2.2.2.2.2.2.2.2.2.2.2.2.2.2.2.2.2.2.2.2.2.2.2.2
  funext a
  apply Fin.ext
  match a with
  | ⟨0, _⟩ => show win0_13.index t (0 : Fin 2) * 2000 + 1 * r.val = 2000 * t.val + r.val; rw [h0]; omega
  | ⟨1, _⟩ => show win0_13.index t (1 : Fin 2) * 6 + 1 * q.val = q.val; rw [h1]; omega

/-- The body's first store fills columns 0…2 of the buffer … -/
theorem embL (r : Fin 2000) (d : Fin 3) :
    rL.emb (ix2 r d) = (ix2 r ⟨d.val, by have := d.isLt; omega⟩ : S2000x6.Idx) := by
  funext a
  apply Fin.ext
  match a with
  | ⟨0, _⟩ => show 0 + 1 * r.val = r.val; omega
  | ⟨1, _⟩ => show 0 + 1 * d.val = d.val; omega

/-- … and its second columns 3…5. -/
theorem embR (r : Fin 2000) (d : Fin 3) :
    rR.emb (ix2 r d) = (ix2 r ⟨3 + d.val, by have := d.isLt; omega⟩ : S2000x6.Idx) := by
  funext a
  apply Fin.ext
  match a with
  | ⟨0, _⟩ => show 0 + 1 * r.val = r.val; omega
  | ⟨1, _⟩ => show 3 + 1 * d.val = 3 + d.val; omega

/-- The translation block as one function of the buffer's index: the difference there times the weight of the
    index's channel (columns 0…2 the first channel, 3…5 the second). -/
def transBlk (v7 : FVec Ideal S2000x6 .f32) (cw : FVec Ideal S2000x2 .f32) (r : Fin 2000) (q : Fin 6) : EReal :=
  v7 (ix2 r q) * cw (ix2 r ⟨q.val / 3, by have := q.isLt; omega⟩)

/-- The two column stores together leave that function in the buffer. -/
theorem trans_pieces (v7 : FVec Ideal S2000x6 .f32) (v35 : FVec Ideal S2000x128 .f32) (v37 : Vec Ideal S128x128 .bf16)
    (v39 : Vec Ideal S1x128 .f32) (v47 : Vec Ideal S128x2 .bf16) (r : Fin 2000) (q : Fin 6) :
    View.canon (Val := Elt Ideal) (s := S2000x6) (e := .f32) [⟨rR, k0_pay3 v7 v35 v37 v39 v47⟩, ⟨rL, k0_pay2 v7 v35 v37 v39 v47⟩] (ix2 r q)
      = transBlk v7 (k0_pay1 v35 v37 v39 v47) r q := by
  refine View.canon_apply_of_pieces (Val := Elt Ideal) (S := S2000x6) (e := EltTy.f32)
    (fun y : S2000x6.Idx => transBlk v7 (k0_pay1 v35 v37 v39 v47) (y 0) (y 1)) _ ?_
    (ix2 r q) (cover0_13 _ _ (ix2 r q))
  intro p hp x
  simp only [List.mem_cons, List.mem_singleton, List.not_mem_nil, or_false] at hp
  rcases hp with rfl | rfl
  · obtain ⟨r', d, rfl⟩ : ∃ (r' : Fin 2000) (d : Fin 3), x = ix2 r' d := ⟨x 0, x 1, eq_ix2 x⟩
    show k0_pay3 v7 v35 v37 v39 v47 (ix2 r' d) = (fun y : S2000x6.Idx => transBlk v7 (k0_pay1 v35 v37 v39 v47) (y 0) (y 1)) (rR.emb (ix2 r' d))
    rw [embR r' d, trans1_apply]
    show _ = v7 (ix2 r' ⟨3 + d.val, _⟩) * k0_pay1 v35 v37 v39 v47 (ix2 r' ⟨(3 + d.val) / 3, _⟩)
    refine congrArg (fun z => v7 (ix2 r' ⟨3 + d.val, _⟩) * k0_pay1 v35 v37 v39 v47 (ix2 r' z)) (Fin.ext ?_)
    show 1 = (3 + d.val) / 3
    have := d.isLt
    omega
  · obtain ⟨r', d, rfl⟩ : ∃ (r' : Fin 2000) (d : Fin 3), x = ix2 r' d := ⟨x 0, x 1, eq_ix2 x⟩
    show k0_pay2 v7 v35 v37 v39 v47 (ix2 r' d) = (fun y : S2000x6.Idx => transBlk v7 (k0_pay1 v35 v37 v39 v47) (y 0) (y 1)) (rL.emb (ix2 r' d))
    rw [embL r' d, trans0_apply]
    show _ = v7 (ix2 r' ⟨d.val, _⟩) * k0_pay1 v35 v37 v39 v47 (ix2 r' ⟨d.val / 3, _⟩)
    refine congrArg (fun z => v7 (ix2 r' ⟨d.val, _⟩) * k0_pay1 v35 v37 v39 v47 (ix2 r' z)) (Fin.ext ?_)
    show 0 = d.val / 3
    have := d.isLt
    omega

/-- WHAT POINT `t` WRITES BACK to the translation array is block `t` of the translation array function. -/
theorem flushed13_eq (c : Dev nD) (t : Fin cfg0.N) :
    (dat0 V c).flushed 13 t = ((cfg0.win 13).blk t).view.read (Elt Ideal) (transArr (V c main_v72) (V c main_v73) (V c main_v71) (V c main_v75) (V c main_v77) (V c main_v79) (V c main_v80) (V c main_v81) (V c main_v82) (V c main_v83) (V c main_v84) (V c main_v85)) := by
  show (cfg0.win 13).cut (grid0.coords t) ((dat0 V c).after 13 t) = _
  rw [after0_13]
  unfold out0_13
  simp only [View.ld_unit_zero (S := S2000x128) hz2, View.ld_unit_zero (S := S2000x12) hz2, View.ld_unit_zero (S := S128x128) hz2,
    View.ld_unit_zero (S := S6x128) hz2, View.ld_unit_zero (S := S1x128) hz2, View.ld_unit_zero (S := S128x2) hz2]
  funext j
  obtain ⟨r, q, rfl⟩ : ∃ (r : Fin 2000) (q : Fin 6), j = ix2 r q := ⟨j 0, j 1, eq_ix2 j⟩
  show View.canon (Val := Elt Ideal) (s := S2000x6) (e := .f32) [⟨rR, k0_pay3 (k0_pay5 (iblk0 V c 2 t)) (k0_pay6 (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (iblk0 V c 11 t)⟩,
      ⟨rL, k0_pay2 (k0_pay5 (iblk0 V c 2 t)) (k0_pay6 (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (iblk0 V c 11 t)⟩] (ix2 r q)
    = transArr (V c main_v72) (V c main_v73) (V c main_v71) (V c main_v75) (V c main_v77) (V c main_v79) (V c main_v80) (V c main_v81) (V c main_v82) (V c main_v83) (V c main_v84) (V c main_v85) (((cfg0.win 13).blk t).view.emb (ix2 r q))
  rw [emb13 t r q]
  refine (trans_pieces _ _ _ _ _ r q).trans ?_
  show k0_pay5 (iblk0 V c 2 t) (ix2 r q) * k0_pay1 (k0_pay6 (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (iblk0 V c 11 t) (ix2 r ⟨q.val / 3, _⟩)
    = transAt (V c main_v72) (V c main_v73) (V c main_v71) (V c main_v75) (V c main_v77) (V c main_v79) (V c main_v80) (V c main_v81) (V c main_v82) (V c main_v83) (V c main_v84) (V c main_v85) _ q
  unfold transAt
  refine congrArg₂ (· * ·) ?_ ?_
  · exact (diff6_apply _ r q).trans (iblk0_2_apply V c t r _)
  · refine (cw_apply _ _ _ _ r _).trans ?_
    simp only [iblk0_9_apply V c t, iblk0_10_apply V c t, iblk0_11_apply V c t]
    refine congrArg (fun f => cwRow f _ _ _ _) (funext fun k => ?_)
    exact msgBlk_eq V c t r k

theorem mem_blk13 (t : Fin cfg0.N) (i : S800000x6.Idx) :
    i ∈ ((cfg0.win 13).blk t).view.set ↔ ∀ a : Fin 2, win0_13.index t a * S2000x6.size a ≤ (i a).val ∧ (i a).val < win0_13.index t a * S2000x6.size a + S2000x6.size a := by
  show i ∈ ((View.whole main_v86_1).slice (win0_13.rect t)).set ↔ _
  rw [View.set_slice_whole, Rect.mem_set_unit]
  exact Iff.rfl

theorem cover13 (i : S800000x6.Idx) :
    ∃ t : Fin cfg0.N, (cfg0.win 13).flush t = true ∧ i ∈ ((cfg0.win 13).blk t).view.set := by
  have hi0 : (i 0).val < 800000 := (i 0).isLt
  have hi1 : (i 1).val < 6 := (i 1).isLt
  have hN : cfg0.N = 400 := N_0
  refine ⟨⟨(i 0).val / 2000, by omega⟩, flush0_13 _, ?_⟩
  have h0 := (idx0 ⟨(i 0).val / 2000, by omega⟩).2.2.2.2.2.2.2.2.2.2.2.2.2.2.2.2.2.2.2.2.2.2.2.2.2.2.1
  have h1 := (idx0 ⟨(i 0).val / 2000, by omega⟩).2.2.2.2.2.2.2.2.2.2.2.2.2.2.2.2.2.2.2.2.2.2.2.2.2.2.2
  rw [mem_blk13]
  intro a
  match a with
  | ⟨0, _⟩ => show win0_13.index _ (0 : Fin 2) * 2000 ≤ (i 0).val ∧ (i 0).val < win0_13.index _ (0 : Fin 2) * 2000 + 2000; rw [h0]; show (i 0).val / 2000 * 2000 ≤ (i 0).val ∧ (i 0).val < (i 0).val / 2000 * 2000 + 2000; omega
  | ⟨1, _⟩ => show win0_13.index _ (1 : Fin 2) * 6 ≤ (i 1).val ∧ (i 1).val < win0_13.index _ (1 : Fin 2) * 6 + 6; rw [h1]; omega

/-- THE TRANSLATION ARRAY after region 0. -/
theorem final13 (c : Dev nD) : (dat0 V c).arrAt 13 cfg0.N = transArr (V c main_v72) (V c main_v73) (V c main_v71) (V c main_v75) (V c main_v77) (V c main_v79) (V c main_v80) (V c main_v81) (V c main_v82) (V c main_v83) (V c main_v84) (V c main_v85) :=
  (dat0 V c).arrAt_eq_of_cover 13 _ (fun t _ => flushed13_eq V c t) cover13

/-! ## Region 1, the node window -/

theorem emb7 (t : Fin cfg1.N) (r : Fin 2000) (q : Fin 128) :
    ((cfg1.win 7).blk t).view.emb (ix2 r q)
      = (ix2 ⟨2000 * t.val + r.val, by have := t.isLt; have h : cfg1.N = 25 := N_1; have := r.isLt; omega⟩ q : S50000x128.Idx) := by
  have h0 := (idx1 t).2.2.2.2.2.2.2.2.2.2.2.2.2.2.1
  have h1 := (idx1 t).2.2.2.2.2.2.2.2.2.2.2.2.2.2.2
  funext a
  apply Fin.ext
  match a with
  | ⟨0, _⟩ => show win1_7.index t (0 : Fin 2) * 2000 + 1 * r.val = 2000 * t.val + r.val; rw [h0]; omega
  | ⟨1, _⟩ => show win1_7.index t (1 : Fin 2) * 128 + 1 * q.val = q.val; rw [h1]; omega

/-- WHAT POINT `t` WRITES BACK to the node array is block `t` of the node array function. -/
theorem flushed7_eq (c : Dev nD) (t : Fin cfg1.N) :
    (dat1 V c).flushed 7 t = ((cfg1.win 7).blk t).view.read (Elt Ideal) (nodeArr (V c main_arg0) (V c main_v89) (V c main_v104) (V c main_v106) (V c main_v107) (V c main_v108) (V c main_v109)) := by
  show (cfg1.win 7).cut (grid1.coords t) ((dat1 V c).after 7 t) = _
  rw [after1_7]
  unfold out1_7
  rw [View.canon_unit_zero hz2]
  simp only [View.ld_unit_zero (S := S2000x128) hz2, View.ld_unit_zero (S := S2000x12) hz2, View.ld_unit_zero (S := S128x128) hz2,
    View.ld_unit_zero (S := S6x128) hz2, View.ld_unit_zero (S := S1x128) hz2, View.ld_unit_zero (S := S128x2) hz2]
  funext j
  obtain ⟨r, q, rfl⟩ : ∃ (r : Fin 2000) (q : Fin 128), j = ix2 r q := ⟨j 0, j 1, eq_ix2 j⟩
  show k1_pay1 (iblk1 V c 0 t) (iblk1 V c 1 t) (iblk1 V c 2 t) (iblk1 V c 3 t) (iblk1 V c 4 t) (iblk1 V c 5 t) (iblk1 V c 6 t) (ix2 r q) = nodeArr (V c main_arg0) (V c main_v89) (V c main_v104) (V c main_v106) (V c main_v107) (V c main_v108) (V c main_v109) (((cfg1.win 7).blk t).view.emb (ix2 r q))
  rw [emb7 t r q]
  refine (node_apply _ _ _ _ _ _ _ r q).trans ?_
  show _ = nodeAt (V c main_arg0) (V c main_v89) (V c main_v104) (V c main_v106) (V c main_v107) (V c main_v108) (V c main_v109) _ q
  unfold nodeAt
  simp only [iblk1_0_apply V c t, iblk1_1_apply V c t, iblk1_2_apply V c t, iblk1_3_apply V c t, iblk1_4_apply V c t,
    iblk1_5_apply V c t, iblk1_6_apply V c t]

theorem mem_blk7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v110).slice (win1_7.rect t)).set ↔ _
  rw [View.set_slice_whole, Rect.mem_set_unit]
  exact Iff.rfl

theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  refine ⟨⟨(i 0).val / 2000, by omega⟩, flush1_7 _, ?_⟩
  have h0 := (idx1 ⟨(i 0).val / 2000, by omega⟩).2.2.2.2.2.2.2.2.2.2.2.2.2.2.1
  have h1 := (idx1 ⟨(i 0).val / 2000, by omega⟩).2.2.2.2.2.2.2.2.2.2.2.2.2.2.2
  rw [mem_blk7]
  intro a
  match a with
  | ⟨0, _⟩ => show win1_7.index _ (0 : Fin 2) * 2000 ≤ (i 0).val ∧ (i 0).val < win1_7.index _ (0 : Fin 2) * 2000 + 2000; rw [h0]; show (i 0).val / 2000 * 2000 ≤ (i 0).val ∧ (i 0).val < (i 0).val / 2000 * 2000 + 2000; omega
  | ⟨1, _⟩ => show win1_7.index _ (1 : Fin 2) * 128 ≤ (i 1).val ∧ (i 1).val < win1_7.index _ (1 : Fin 2) * 128 + 128; rw [h1]; omega

/-- THE NODE ARRAY after region 1. -/
theorem final7 (c : Dev nD) : (dat1 V c).arrAt 7 cfg1.N = nodeArr (V c main_arg0) (V c main_v89) (V c main_v104) (V c main_v106) (V c main_v107) (V c main_v108) (V c main_v109) :=
  (dat1 V c).arrAt_eq_of_cover 7 _ (fun t _ => flushed7_eq V c t) cover7

end Cert.KernelIdeal.Arr

end
-- ==== Proof.RowBridge.lean ====
/-
  The two spellings of the layer agree, array by array.

  The kernel's arrays are functions of: the gathered source and target features, the per-edge array of radial
  features and coordinate differences, and the weight slabs (`RegionArrays`). The reference's are functions of the
  stacked inputs and the whole weight matrices. Given how the slabs sit inside the matrices, how the stacked inputs
  read, and how a bias row reads, each kernel entry IS the reference's entry: the only arithmetic is the slab-by-slab
  sum of `LayerSpec`, which needs no finiteness.
-/
import proofs.«102740_j91328184582715_1_alg».proof.Proof.RegionArrays

noncomputable section

open scoped BigOperators

namespace Cert.KernelIdeal.Bridge

open Cert.KernelIdeal Cert.KernelIdeal.Arr Cert.Layer
open Idealize.ShloMosaic Idealize.ShloMosaic.ValueIdx

/-- THE MESSAGE: the kernel's three-product entry is the stacked-product entry. -/
theorem msg_eq (HR HC : S800000x128.Idx → EReal) (EX : S800000x12.Idx → EReal) (Wa Wb : S128x128.Idx → EReal)
    (Wc : S6x128.Idx → EReal) (B1 : S1x128.Idx → EReal) (W2 : S128x128.Idx → EReal) (B2 : S1x128.Idx → EReal)
    (X : (⟨2, ![800000, 262]⟩ : Shape).Idx → EReal) (W1 : S262x128.Idx → EReal) (b1 : S128.Idx → EReal) (W2' : S128x128.Idx → EReal)
    (b2 : S128.Idx → EReal)
    (hX : ∀ (e : Fin 800000) (k' : Fin 262), X (ix2 e k')
      = stack3 (fun k => HR (ix2 e k)) (fun k => HC (ix2 e k)) (fun k => EX (ix2 e ⟨k.val, by have := k.isLt; omega⟩)) k')
    (hWa : ∀ (k' k : Fin 128), Wa (ix2 k' k) = W1 (ix2 ⟨k'.val, by have := k'.isLt; omega⟩ k))
    (hWb : ∀ (k' k : Fin 128), Wb (ix2 k' k) = W1 (ix2 ⟨128 + k'.val, by have := k'.isLt; omega⟩ k))
    (hWc : ∀ (k' : Fin 6) (k : Fin 128), Wc (ix2 k' k) = W1 (ix2 ⟨256 + k'.val, by have := k'.isLt; omega⟩ k))
    (hB1 : ∀ k : Fin 128, B1 (ix2 (0 : Fin 1) k) = b1 (ix1 k))
    (hW2 : ∀ (k' k : Fin 128), W2 (ix2 k' k) = W2' (ix2 k' k))
    (hB2 : ∀ k : Fin 128, B2 (ix2 (0 : Fin 1) k) = b2 (ix1 k))
    (e : Fin 800000) (j : Fin 128) :
    msgAt HR HC EX Wa Wb Wc B1 W2 B2 e j
      = msgRowStacked (fun k' => X (ix2 e k')) (fun k' k => W1 (ix2 k' k)) (fun k => b1 (ix1 k))
          (fun k' k => W2' (ix2 k' k)) (fun k => b2 (ix1 k)) j := by
  unfold msgAt
  rw [msgRow_eq _ _ _ _ _ _ (fun k' k => W1 (ix2 k' k)) _ _ _ j (fun k' k => hWa k' k) (fun k' k => hWb k' k) (fun k' k => hWc k' k)]
  simp only [hX, hB1, hW2, hB2]

/-- THE TRANSLATION: the flat entry `q = 3c + d` is the coordinate difference at `(c, d)` times the weight of channel `c`. -/
theorem trans_eq (HR HC : S800000x128.Idx → EReal) (EX : S800000x12.Idx → EReal) (Wa Wb : S128x128.Idx → EReal)
    (Wc : S6x128.Idx → EReal) (B1 : S1x128.Idx → EReal) (W2 : S128x128.Idx → EReal) (B2 : S1x128.Idx → EReal)
    (Wc1 : S128x128.Idx → EReal) (Bc1 : S1x128.Idx → EReal) (Wc2 : S128x2.Idx → EReal)
    (M : S800000x128.Idx → EReal) (D3 : S800000x2x3.Idx → EReal) (Wc1' : S128x128.Idx → EReal) (bc1 : S128.Idx → EReal)
    (Wc2' : S128x2.Idx → EReal)
    (hM : ∀ (e : Fin 800000) (k : Fin 128), msgAt HR HC EX Wa Wb Wc B1 W2 B2 e k = M (ix2 e k))
    (hD : ∀ (e : Fin 800000) (c : Fin 2) (d : Fin 3),
      EX (ix2 e ⟨6 + (3 * c.val + d.val), by have := c.isLt; have := d.isLt; omega⟩) = D3 (ix3 e c d))
    (hWc1 : ∀ (k' k : Fin 128), Wc1 (ix2 k' k) = Wc1' (ix2 k' k))
    (hBc1 : ∀ k : Fin 128, Bc1 (ix2 (0 : Fin 1) k) = bc1 (ix1 k))
    (hWc2 : ∀ (k : Fin 128) (c : Fin 2), Wc2 (ix2 k c) = Wc2' (ix2 k c))
    (e : Fin 800000) (c : Fin 2) (d : Fin 3) :
    transAt HR HC EX Wa Wb Wc B1 W2 B2 Wc1 Bc1 Wc2 e ⟨3 * c.val + d.val, by have := c.isLt; have := d.isLt; omega⟩
      = D3 (ix3 e c d) * cwRow (fun k => M (ix2 e k)) (fun k' k => Wc1' (ix2 k' k)) (fun k => bc1 (ix1 k))
          (fun k c => Wc2' (ix2 k c)) c := by
  unfold transAt
  refine congrArg₂ (· * ·) (hD e c d) ?_
  simp only [hM, hWc1, hBc1, hWc2]
  refine congrArg (cwRow _ _ _ _) (Fin.ext ?_)
  show (3 * c.val + d.val) / 3 = c.val
  have := d.isLt
  omega

/-- THE NODE UPDATE: the kernel's two-product entry is the stacked-product entry. -/
theorem node_eq (H AGG : S50000x128.Idx → EReal) (Wa Wb : S128x128.Idx → EReal) (B1 : S1x128.Idx → EReal)
    (W2 : S128x128.Idx → EReal) (B2 : S1x128.Idx → EReal)
    (X : (⟨2, ![50000, 256]⟩ : Shape).Idx → EReal) (W1 : S256x128.Idx → EReal) (b1 : S128.Idx → EReal) (W2' : S128x128.Idx → EReal)
    (b2 : S128.Idx → EReal)
    (hX : ∀ (n : Fin 50000) (k' : Fin 256), X (ix2 n k') = stack2 (fun k => H (ix2 n k)) (fun k => AGG (ix2 n k)) k')
    (hWa : ∀ (k' k : Fin 128), Wa (ix2 k' k) = W1 (ix2 ⟨k'.val, by have := k'.isLt; omega⟩ k))
    (hWb : ∀ (k' k : Fin 128), Wb (ix2 k' k) = W1 (ix2 ⟨128 + k'.val, by have := k'.isLt; omega⟩ k))
    (hB1 : ∀ k : Fin 128, B1 (ix2 (0 : Fin 1) k) = b1 (ix1 k))
    (hW2 : ∀ (k' k : Fin 128), W2 (ix2 k' k) = W2' (ix2 k' k))
    (hB2 : ∀ k : Fin 128, B2 (ix2 (0 : Fin 1) k) = b2 (ix1 k))
    (n : Fin 50000) (j : Fin 128) :
    nodeAt H AGG Wa Wb B1 W2 B2 n j
      = nodeRowStacked (fun k => H (ix2 n k)) (fun k' => X (ix2 n k')) (fun k' k => W1 (ix2 k' k)) (fun k => b1 (ix1 k))
          (fun k' k => W2' (ix2 k' k)) (fun k => b2 (ix1 k)) j := by
  unfold nodeAt
  rw [nodeRow_eq _ _ _ _ (fun k' k => W1 (ix2 k' k)) _ _ _ j (fun k' k => hWa k' k) (fun k' k => hWb k' k)]
  simp only [hX, hB1, hW2, hB2]

end Cert.KernelIdeal.Bridge

end
-- ==== Proof.KernelHostDefs.lean ====
/-
  The arrays the host operations of the kernel's program build from its arguments, named piece by piece:
  the row and column index vectors of the edge list, their wrapped forms (a negative index counts from the
  end), the gathered node features and coordinates, the six radial features of an edge (three lengths and
  three cosines), the coordinate differences, and the degree count that divides the aggregated translations.
  Each is a function of the argument arrays it depends on, stated for any float values (the extended reals among them).
-/
import proofs.«102740_j91328184582715_1_alg».proof.Proof.Gen.KernelIdeal

noncomputable section

namespace Cert.KernelIdeal.HostVal

open Cert.KernelIdeal Cert.KernelIdeal.Gen Idealize.ShloMosaic Idealize.ShloMosaic.StableHlo

variable {F : FTy → Type} [FloatOps F]

/-- Row 0 of the edge list: the receiving node of each edge. -/
def rowV (x1 : IVec S2x800000 32) : IVec S800000 32 :=
  shapeCast _ (extractStridedSlice S1x800000 ![0, 0] x1 slices_S2x800000_S1x800000_0_0) shapeCasts_S1x800000_S800000

/-- Row 1 of the edge list: the sending node of each edge. -/
def colV (x1 : IVec S2x800000 32) : IVec S800000 32 :=
  shapeCast _ (extractStridedSlice S1x800000 ![1, 0] x1 slices_S2x800000_S1x800000_1_0) shapeCasts_S1x800000_S800000

/-- A node index with a negative value counted from the end: v + 50000 where v < 0, else v. -/
def wrapIdx (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The wrapped indices as a column, the form a gather takes them in. -/
def gIdx (v : IVec S800000 32) : IVec S800000x1 32 :=
  broadcastInDim S800000x1 ![0] bcast_S800000_S800000x1_0 (wrapIdx v)

/-- The node features gathered at each edge's receiving node. -/
def HR (x0 : FVec F S50000x128 .f32) (x1 : IVec S2x800000 32) : FVec F S800000x128 .f32 :=
  Host.gather gather_S50000x128_S800000x1_S800000x128_1_0_n_n_0_1_1128 x0 (gIdx (rowV x1))

/-- The node features gathered at each edge's sending node. -/
def HC (x0 : FVec F S50000x128 .f32) (x1 : IVec S2x800000 32) : FVec F S800000x128 .f32 :=
  Host.gather gather_S50000x128_S800000x1_S800000x128_1_0_n_n_0_1_1128 x0 (gIdx (colV x1))

/-- The coordinates gathered at each edge's receiving node. -/
def CR (x1 : IVec S2x800000 32) (x2 : FVec F S50000x2x3 .f32) : FVec F S800000x2x3 .f32 :=
  Host.gather gather_S50000x2x3_S800000x1_S800000x2x3_12_0_n_n_0_1_123 x2 (gIdx (rowV x1))

/-- The coordinates gathered at each edge's sending node. -/
def CC (x1 : IVec S2x800000 32) (x2 : FVec F S50000x2x3 .f32) : FVec F S800000x2x3 .f32 :=
  Host.gather gather_S50000x2x3_S800000x1_S800000x2x3_12_0_n_n_0_1_123 x2 (gIdx (colV x1))

/-- Channel 0 of a gathered coordinate array: one point of space per edge. -/
def chan0 (v : FVec F S800000x2x3 .f32) : FVec F S800000x3 .f32 :=
  shapeCast _ (extractStridedSlice S800000x1x3 ![0, 0, 0] v slices_S800000x2x3_S800000x1x3_0_0_0) shapeCasts_S800000x1x3_S800000x3

/-- Channel 1 of a gathered coordinate array. -/
def chan1 (v : FVec F S800000x2x3 .f32) : FVec F S800000x3 .f32 :=
  shapeCast _ (extractStridedSlice S800000x1x3 ![0, 1, 0] v slices_S800000x2x3_S800000x1x3_0_1_0) shapeCasts_S800000x1x3_S800000x3

/-- The inner product of two vectors of space, edge by edge. -/
def dotV (u v : FVec F S800000x3 .f32) : FVec F S800000 .f32 :=
  Host.reduceAdd (F := F) (mulf u v) (constant S_ .f32 0x00000000#32) reducesTo_S800000x3_S800000_d1 h_S_

/-- The length of a vector of space, edge by edge. -/
def normV (v : FVec F S800000x3 .f32) : FVec F S800000 .f32 :=
  Host.sqrt (F := F) (dotV v v)

/-- A node's channel-1 point relative to its channel-0 point, edge by edge. -/
def sideV (v : FVec F S800000x2x3 .f32) : FVec F S800000x3 .f32 :=
  subf (chan1 v) (chan0 v)

/-- The cosine between two vectors of space whose lengths are given: inner product over the product of the lengths. -/
def cosV (u v : FVec F S800000x3 .f32) (nu nv : FVec F S800000 .f32) : FVec F S800000 .f32 :=
  Host.divf (F := F) (dotV u v) (mulf nu nv)

/-- The vector between the two ends' channel-0 points. -/
def dAtom (x1 : IVec S2x800000 32) (x2 : FVec F S50000x2x3 .f32) : FVec F S800000x3 .f32 :=
  subf (chan0 (CR x1 x2)) (chan0 (CC x1 x2))

/-- Its length. -/
def dist (x1 : IVec S2x800000 32) (x2 : FVec F S50000x2x3 .f32) : FVec F S800000 .f32 :=
  normV (dAtom x1 x2)

/-- The receiving node's channel-1 point relative to its channel-0 point. -/
def s0 (x1 : IVec S2x800000 32) (x2 : FVec F S50000x2x3 .f32) : FVec F S800000x3 .f32 :=
  sideV (CR x1 x2)

/-- Its length. -/
def ds0 (x1 : IVec S2x800000 32) (x2 : FVec F S50000x2x3 .f32) : FVec F S800000 .f32 :=
  normV (s0 x1 x2)

/-- The cosine between the receiving node's side vector and the edge vector. -/
def a0 (x1 : IVec S2x800000 32) (x2 : FVec F S50000x2x3 .f32) : FVec F S800000 .f32 :=
  cosV (s0 x1 x2) (dAtom x1 x2) (dist x1 x2) (ds0 x1 x2)

/-- The sending node's channel-1 point relative to its channel-0 point. -/
def s1 (x1 : IVec S2x800000 32) (x2 : FVec F S50000x2x3 .f32) : FVec F S800000x3 .f32 :=
  sideV (CC x1 x2)

/-- Its length. -/
def ds1 (x1 : IVec S2x800000 32) (x2 : FVec F S50000x2x3 .f32) : FVec F S800000 .f32 :=
  normV (s1 x1 x2)

/-- The cosine between the sending node's side vector and the edge vector. -/
def a1 (x1 : IVec S2x800000 32) (x2 : FVec F S50000x2x3 .f32) : FVec F S800000 .f32 :=
  cosV (s1 x1 x2) (dAtom x1 x2) (dist x1 x2) (ds1 x1 x2)

/-- The cosine between the two side vectors. -/
def a01 (x1 : IVec S2x800000 32) (x2 : FVec F S50000x2x3 .f32) : FVec F S800000 .f32 :=
  cosV (s0 x1 x2) (s1 x1 x2) (ds0 x1 x2) (ds1 x1 x2)

/-- A per-edge scalar as a one-column matrix. -/
def colOf (v : FVec F S800000 .f32) : FVec F S800000x1 .f32 :=
  broadcastInDim S800000x1 ![0] bcast_S800000_S800000x1_0 v

/-- Six per-edge scalars side by side as the columns of one matrix. -/
def radOf (d n0 n1 c0 c1 c01 : FVec F S800000 .f32) : FVec F S800000x6 .f32 :=
  concatenate S800000x6 1
    [⟨S800000x1, colOf d⟩, ⟨S800000x1, colOf n0⟩, ⟨S800000x1, colOf n1⟩,
     ⟨S800000x1, colOf c0⟩, ⟨S800000x1, colOf c1⟩, ⟨S800000x1, colOf c01⟩]
    concatenates_S800000x1_S800000x1_S800000x1_S800000x1_S800000x1_S800000x1_S800000x6_d1

/-- The six radial features of an edge side by side: three lengths, then three cosines. -/
def RAD (x1 : IVec S2x800000 32) (x2 : FVec F S50000x2x3 .f32) : FVec F S800000x6 .f32 :=
  radOf (dist x1 x2) (ds0 x1 x2) (ds1 x1 x2) (a0 x1 x2) (a1 x1 x2) (a01 x1 x2)

/-- The coordinate differences between an edge's two ends, both channels. -/
def DIFF3 (x1 : IVec S2x800000 32) (x2 : FVec F S50000x2x3 .f32) : FVec F S800000x2x3 .f32 :=
  subf (CR x1 x2) (CC x1 x2)

/-- Six columns followed by the six flattened entries of a per-edge 2 × 3 array: twelve columns per edge. -/
def extraOf (r : FVec F S800000x6 .f32) (d3 : FVec F S800000x2x3 .f32) : FVec F S800000x12 .f32 :=
  concatenate S800000x12 1
    [⟨S800000x6, r⟩, ⟨S800000x6, shapeCast _ d3 shapeCasts_S800000x2x3_S800000x6⟩]
    concatenates_S800000x6_S800000x6_S800000x12_d1

/-- The radial features followed by the six flattened coordinate differences: twelve columns per edge. -/
def EXTRA (x1 : IVec S2x800000 32) (x2 : FVec F S50000x2x3 .f32) : FVec F S800000x12 .f32 :=
  extraOf (RAD x1 x2) (DIFF3 x1 x2)

/-- The receiving nodes as a column, unwrapped: the form a scatter takes them in. -/
def sIdx (x1 : IVec S2x800000 32) : IVec S800000x1 32 :=
  broadcastInDim S800000x1 ![0] bcast_S800000_S800000x1_0 (rowV x1)

/-- How many entries of an index column name each node. -/
def cntOf (i : IVec S800000x1 32) : FVec F S50000 .f32 :=
  Host.scatterAdd (F := F) scatter_S50000_S800000x1_S800000_n_0_0_1
    (broadcastInDim S50000 ![] bcast_S_S50000 (constant (F := F) S_ .f32 0x00000000#32)) i
    (broadcastInDim S800000 ![] bcast_S_S800000 (constant (F := F) S_ .f32 0x3F800000#32))

/-- A count raised to at least one. -/
def clipOne (n : FVec F S50000 .f32) : FVec F S50000 .f32 :=
  maximumf (broadcastInDim S50000 ![] bcast_S_S50000 (constant (F := F) S_ .f32 0x3F800000#32)) n

/-- A per-node scalar spread over the node's two channels and three coordinates. -/
def spread23 (n : FVec F S50000 .f32) : FVec F S50000x2x3 .f32 :=
  broadcastInDim S50000x2x3 ![0, 1, 2] bcast_S50000x1x1_S50000x2x3_0_1_2
    (broadcastInDim S50000x1x1 ![0] bcast_S50000_S50000x1x1_0 n)

/-- The number of edges arriving at each node, at least one. -/
def cntClip (x1 : IVec S2x800000 32) : FVec F S50000 .f32 :=
  clipOne (cntOf (sIdx x1))

/-- That count spread over a node's two channels and three coordinates: the divisor of the aggregated translations. -/
def cntDiv (x1 : IVec S2x800000 32) : FVec F S50000x2x3 .f32 :=
  spread23 (cntClip x1)

end Cert.KernelIdeal.HostVal

end
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.KernelGlue.lean ====
/-
  The kernel program's host-built arrays read at an entry (the extended reals).

  * the per-edge array of twelve columns: columns 0…5 are the radial features, columns 6…11 the coordinate differences
    `(c, d)` laid flat at `6 + 3c + d`;
  * the weight slabs the regions read are rows of the weight matrices (a change of float format is the identity);
  * a bias vector laid out as a one-row matrix reads the vector;
  * the aggregated translations, scattered flat then laid back out as `2 × 3`: at `(n, c, d)` the sum over the edges
    arriving at `n` of the flat translation at `3c + d`.
-/
import proofs.«102740_j91328184582715_1_alg».proof.Proof.KernelHostDefs
import proofs.«102740_j91328184582715_1_alg».proof.Proof.LibScatterAddRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Glue

open Cert.KernelIdeal Cert.KernelIdeal.Gen Cert.KernelIdeal.HostVal
open Idealize.ShloMosaic Idealize.ShloMosaic.ValueIdx

/-- Columns 0…5 of the per-edge array are the radial features. -/
theorem extra_left (r : FVec Ideal S800000x6 .f32) (d3 : FVec Ideal S800000x2x3 .f32) (e : Fin 800000) (k : Fin 6) :
    extraOf (F := Ideal) r d3 (ix2 e (⟨k.val, by have := k.isLt; omega⟩ : Fin 12)) = r (ix2 e k) := by
  unfold extraOf
  exact concatenate_pair_apply_left (t := S800000x12) (s₁ := S800000x6) (s₂ := S800000x6) 1 r
    (shapeCast S800000x6 d3 shapeCasts_S800000x2x3_S800000x6) concatenates_S800000x6_S800000x6_S800000x12_d1 (ix2 e (⟨k.val, by have := k.isLt; omega⟩ : Fin 12)) rfl (ix2 e k)
    (fun b => by match b with | ⟨0, _⟩ => rfl | ⟨1, _⟩ => rfl)

/-- Column `6 + 3c + d` of the per-edge array is the coordinate difference at `(c, d)`. -/
theorem extra_right (r : FVec Ideal S800000x6 .f32) (d3 : FVec Ideal S800000x2x3 .f32) (e : Fin 800000) (c : Fin 2) (d : Fin 3) :
    extraOf (F := Ideal) r d3 (ix2 e (⟨6 + (3 * c.val + d.val), by have := c.isLt; have := d.isLt; omega⟩ : Fin 12)) = d3 (ix3 e c d) := by
  unfold extraOf
  refine (concatenate_pair_apply_right (t := S800000x12) (s₁ := S800000x6) (s₂ := S800000x6) 1 r
    (shapeCast S800000x6 d3 shapeCasts_S800000x2x3_S800000x6) concatenates_S800000x6_S800000x6_S800000x12_d1 (ix2 e (⟨6 + (3 * c.val + d.val), by have := c.isLt; have := d.isLt; omega⟩ : Fin 12)) rfl rfl
    (ix2 e (⟨3 * c.val + d.val, by have := c.isLt; have := d.isLt; omega⟩ : Fin 6))
    (fun b hb => by match b with | ⟨0, _⟩ => rfl | ⟨1, _⟩ => exact absurd rfl hb)
    (by show (3 * c.val + d.val) + 6 = 6 + (3 * c.val + d.val); omega)).trans ?_
  exact shapeCast_apply d3 shapeCasts_S800000x2x3_S800000x6 _ (ix3 e c d) (by
    rw [Shape.rowMajor_val_three, Shape.rowMajor_val_two]
    show (e.val * 2 + c.val) * 3 + d.val = e.val * 6 + (3 * c.val + d.val)
    omega)

/-- The first slab of the edge layer's weight matrix: its rows 0…127. -/
theorem we1a (W : FVec Ideal S262x128 .f32) (k' k : Fin 128) :
    (truncf .bf16 (extractStridedSlice S128x128 ![0, 0] W slices_S262x128_S128x128_0_0) bitsLt_bf16_f32 : FVec Ideal S128x128 .bf16) (ix2 k' k)
      = W (ix2 ⟨k'.val, by have := k'.isLt; omega⟩ k) :=
  slice2_axis0_apply 0 W slices_S262x128_S128x128_0_0 k' k _ (Nat.zero_add _).symm

/-- The second slab: rows 128…255. -/
theorem we1b (W : FVec Ideal S262x128 .f32) (k' k : Fin 128) :
    (truncf .bf16 (extractStridedSlice S128x128 ![128, 0] W slices_S262x128_S128x128_128_0) bitsLt_bf16_f32 : FVec Ideal S128x128 .bf16) (ix2 k' k)
      = W (ix2 ⟨128 + k'.val, by have := k'.isLt; omega⟩ k) :=
  slice2_axis0_apply 128 W slices_S262x128_S128x128_128_0 k' k _ rfl

/-- The third slab: rows 256…261. -/
theorem we1c (W : FVec Ideal S262x128 .f32) (k' : Fin 6) (k : Fin 128) :
    (truncf .bf16 (extractStridedSlice S6x128 ![256, 0] W slices_S262x128_S6x128_256_0) bitsLt_bf16_f32 : FVec Ideal S6x128 .bf16) (ix2 k' k)
      = W (ix2 ⟨256 + k'.val, by have := k'.isLt; omega⟩ k) :=
  slice2_axis0_apply 256 W slices_S262x128_S6x128_256_0 k' k _ rfl

/-- The node layer's two slabs: rows 0…127 and 128…255 of its weight matrix. -/
theorem wn1a (W : FVec Ideal S256x128 .f32) (k' k : Fin 128) :
    (truncf .bf16 (extractStridedSlice S128x128 ![0, 0] W slices_S256x128_S128x128_0_0) bitsLt_bf16_f32 : FVec Ideal S128x128 .bf16) (ix2 k' k)
      = W (ix2 ⟨k'.val, by have := k'.isLt; omega⟩ k) :=
  slice2_axis0_apply 0 W slices_S256x128_S128x128_0_0 k' k _ (Nat.zero_add _).symm

theorem wn1b (W : FVec Ideal S256x128 .f32) (k' k : Fin 128) :
    (truncf .bf16 (extractStridedSlice S128x128 ![128, 0] W slices_S256x128_S128x128_128_0) bitsLt_bf16_f32 : FVec Ideal S128x128 .bf16) (ix2 k' k)
      = W (ix2 ⟨128 + k'.val, by have := k'.isLt; omega⟩ k) :=
  slice2_axis0_apply 128 W slices_S256x128_S128x128_128_0 k' k _ rfl

/-- A bias vector laid out as a one-row matrix. -/
theorem bias_row (b : FVec Ideal S128 .f32) (k : Fin 128) :
    (shapeCast S1x128 b shapeCasts_S128_S1x128 : FVec Ideal S1x128 .f32) (ix2 (0 : Fin 1) k) = b (ix1 k) :=
  shapeCast_a_1a_apply b shapeCasts_S128_S1x128 0 k

/-- The flat aggregation laid back out: entry `(n, c, d)` is the flat entry `(n, 3c + d)`, the zero it starts from plus
    the flat translations at `3c + d` of the edges arriving at `n`. -/
theorem aggc_at (idx : IVec S800000x1 32) (T : FVec Ideal S800000x6 .f32) (n : Fin 50000) (c : Fin 2) (d : Fin 3) :
    (shapeCast S50000x2x3 (Host.scatterAdd (F := Ideal) scatter_S50000x6_S800000x1_S800000x6_1_0_0_1
        (broadcastInDim S50000x6 ![] bcast_S_S50000x6 (constant (F := Ideal) S_ .f32 0x00000000#32)) idx T)
        shapeCasts_S50000x6_S50000x2x3 : FVec Ideal S50000x2x3 .f32) (ix3 n c d)
      = Ideal.ofBits .f32 0x00000000#32 + ∑ e : Fin 800000,
          if (idx (ix2 e (0 : Fin 1))).toInt = (n.val : Int)
          then T (ix2 e (⟨3 * c.val + d.val, by have := c.isLt; have := d.isLt; omega⟩ : Fin 6)) else 0 := by
  refine (shapeCast_apply _ shapeCasts_S50000x6_S50000x2x3 (ix3 n c d)
    (ix2 n (⟨3 * c.val + d.val, by have := c.isLt; have := d.isLt; omega⟩ : Fin 6)) (by
      rw [Shape.rowMajor_val_two, Shape.rowMajor_val_three]
      show n.val * 6 + (3 * c.val + d.val) = (n.val * 2 + c.val) * 3 + d.val
      omega)).trans ?_
  refine (LibScatterAddRows.scatterAdd_rows (N := 50000) (E := 800000) (C := 6)
    scatter_S50000x6_S800000x1_S800000x6_1_0_0_1.wf _ idx T n _).trans ?_
  rfl

end Cert.KernelIdeal.Glue

end
-- ==== Proof.KernelHostStretch.lean ====
/-
  What each stretch of the kernel program's host operations leaves in the buffers that later stretches, the two
  kernel regions, or the result read — each as a term of what the stretch found in the buffers it reads, over
  ANY starting contents W. A stretch is a straight line of operations, each rewriting one buffer; the contents
  after the line are the fold of the operations' results, and reading that fold at one buffer composes the
  operations that lead to it.
-/
import proofs.«102740_j91328184582715_1_alg».proof.Proof.KernelHostDefs
import proofs.«102740_j91328184582715_1_alg».proof.Proof.Gen.KernelIdeal.Launch
import Idealize.ShloMosaic.Lib.StableHlo.Run

noncomputable section

namespace Cert.KernelIdeal.HostVal

open Cert.KernelIdeal Cert.KernelIdeal.Gen Idealize.ShloMosaic Idealize.ShloMosaic.StableHlo Idealize.ShloMosaic.TcCoe

variable {F : FTy → Type} [FloatOps F] (W : Valuation τ sig (Elt F))

/-! ## Stretch 0: the index vectors, the four gathers, the edge vector -/

theorem s0_v1 : (StableHlo.after (hostOps0 (F := F)) W main_v1 : IVec S800000 32) = rowV (W main_arg1) := by
  after_results
  rfl

theorem s0_v10 : (StableHlo.after (hostOps0 (F := F)) W main_v10 : FVec F S800000x128 .f32) = HR (W main_arg0) (W main_arg1) := by
  after_results
  rfl

set_option maxHeartbeats 4000000 in
theorem s0_v17 : (StableHlo.after (hostOps0 (F := F)) W main_v17 : FVec F S800000x128 .f32) = HC (W main_arg0) (W main_arg1) := by
  after_results_simp
  rfl

set_option maxHeartbeats 4000000 in
theorem s0_v24 : (StableHlo.after (hostOps0 (F := F)) W main_v24 : FVec F S800000x2x3 .f32) = CR (W main_arg1) (W main_arg2) := by
  after_results_simp
  rfl

set_option maxHeartbeats 4000000 in
theorem s0_v31 : (StableHlo.after (hostOps0 (F := F)) W main_v31 : FVec F S800000x2x3 .f32) = CC (W main_arg1) (W main_arg2) := by
  after_results_simp
  rfl

set_option maxHeartbeats 4000000 in
theorem s0_v36 : (StableHlo.after (hostOps0 (F := F)) W main_v36 : FVec F S800000x3 .f32) = dAtom (W main_arg1) (W main_arg2) := by
  after_results_simp
  rfl

/-! ## Stretches 1, 3, 5: a length -/

theorem s1_v37 : (StableHlo.after (hostOps0_1 (F := F)) W main_v37 : FVec F S800000 .f32) = normV (W main_v36) := by
  after_results
  rfl

theorem s3_v43 : (StableHlo.after (hostOps0_3 (F := F)) W main_v43 : FVec F S800000 .f32) = normV (W main_v42) := by
  after_results
  rfl

theorem s5_v53 : (StableHlo.after (hostOps0_5 (F := F)) W main_v53 : FVec F S800000 .f32) = normV (W main_v52) := by
  after_results
  rfl

/-! ## Stretches 2 and 4: the side vectors and the first cosine -/

theorem s2_v42 : (StableHlo.after (hostOps0_2 (F := F)) W main_v42 : FVec F S800000x3 .f32) = sideV (W main_v24) := by
  after_results
  rfl

theorem s4_v47 : (StableHlo.after (hostOps0_4 (F := F)) W main_v47 : FVec F S800000 .f32)
    = cosV (W main_v42) (W main_v36) (W main_v37) (W main_v43) := by
  after_results
  rfl

theorem s4_v52 : (StableHlo.after (hostOps0_4 (F := F)) W main_v52 : FVec F S800000x3 .f32) = sideV (W main_v31) := by
  after_results
  rfl

end Cert.KernelIdeal.HostVal

end
-- ==== Proof.KernelHostStretchB.lean ====
/-
  What the last stretch before the edge region, and the three stretches between the two regions, leave in the
  buffers the regions and the result read — each as a term of what the stretch found in the buffers it reads,
  over ANY starting contents W.
-/
import proofs.«102740_j91328184582715_1_alg».proof.Proof.KernelHostDefs
import proofs.«102740_j91328184582715_1_alg».proof.Proof.Gen.KernelIdeal.Launch
import Idealize.ShloMosaic.Lib.StableHlo.Run

noncomputable section

namespace Cert.KernelIdeal.HostVal

open Cert.KernelIdeal Cert.KernelIdeal.Gen Idealize.ShloMosaic Idealize.ShloMosaic.StableHlo Idealize.ShloMosaic.TcCoe

/-- An operation of six operands leaves, at its result buffer, its function of the six operands' contents, each
    read at its own buffer. -/
theorem nary6_result {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) := by
  rw [nary_result]; congr 1; funext k; fin_cases k <;> rfl

theorem nary6_result' {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) :=
  nary6_result f hxs hy V

/-- Reading a fold of operations at one buffer in one pass, with the six-operand form among the rewrites: each
    operation's result at its own buffer is its function's value, at any other buffer what was there. -/
macro "after_results6" : tactic =>
  `(tactic| (simp (disch := decide) only [after_cons, after_nil,
      nullary_result', unary_result', binary_result', ternary_result', reshape_result', nary6_result',
      nullary_result_ne', unary_result_ne', binary_result_ne', ternary_result_ne', reshape_result_ne', nary_result_ne']))

variable {F : FTy → Type} [FloatOps F] (W : Valuation τ sig (Elt F))

/-! ## Stretch 6: the last two cosines, the radial features, the twelve columns, the operands in bf16 -/

set_option maxHeartbeats 4000000 in
theorem s6_v57 : (StableHlo.after (hostOps0_6 (F := F)) W main_v57 : FVec F S800000 .f32)
    = cosV (W main_v52) (W main_v36) (W main_v37) (W main_v53) := by
  after_results6 <;> rfl

set_option maxHeartbeats 4000000 in
theorem s6_v61 : (StableHlo.after (hostOps0_6 (F := F)) W main_v61 : FVec F S800000 .f32)
    = cosV (W main_v42) (W main_v52) (W main_v43) (W main_v53) := by
  after_results6 <;> rfl

set_option maxHeartbeats 4000000 in
theorem s6_v68 : (StableHlo.after (hostOps0_6 (F := F)) W main_v68 : FVec F S800000x6 .f32)
    = radOf (W main_v37) (W main_v43) (W main_v53) (W main_v47)
        (cosV (W main_v52) (W main_v36) (W main_v37) (W main_v53)) (cosV (W main_v42) (W main_v52) (W main_v43) (W main_v53)) := by
  after_results6 <;> rfl

set_option maxHeartbeats 4000000 in
theorem s6_v71 : (StableHlo.after (hostOps0_6 (F := F)) W main_v71 : FVec F S800000x12 .f32)
    = extraOf (radOf (W main_v37) (W main_v43) (W main_v53) (W main_v47)
        (cosV (W main_v52) (W main_v36) (W main_v37) (W main_v53)) (cosV (W main_v42) (W main_v52) (W main_v43) (W main_v53)))
        (subf (W main_v24) (W main_v31)) := by
  after_results6 <;> rfl

set_option maxHeartbeats 4000000 in
theorem s6_v72 : (StableHlo.after (hostOps0_6 (F := F)) W main_v72 : FVec F S800000x128 .bf16)
    = truncf .bf16 (W main_v10 : FVec F S800000x128 .f32) bitsLt_bf16_f32 := by
  after_results6 <;> rfl

set_option maxHeartbeats 4000000 in
theorem s6_v73 : (StableHlo.after (hostOps0_6 (F := F)) W main_v73 : FVec F S800000x128 .bf16)
    = truncf .bf16 (W main_v17 : FVec F S800000x128 .f32) bitsLt_bf16_f32 := by
  after_results6 <;> rfl

set_option maxHeartbeats 4000000 in
theorem s6_v75 : (StableHlo.after (hostOps0_6 (F := F)) W main_v75 : FVec F S128x128 .bf16)
    = truncf .bf16 (extractStridedSlice S128x128 ![0, 0] (W main_arg3 : FVec F S262x128 .f32) slices_S262x128_S128x128_0_0) bitsLt_bf16_f32 := by
  after_results6 <;> rfl

set_option maxHeartbeats 4000000 in
theorem s6_v77 : (StableHlo.after (hostOps0_6 (F := F)) W main_v77 : FVec F S128x128 .bf16)
    = truncf .bf16 (extractStridedSlice S128x128 ![128, 0] (W main_arg3 : FVec F S262x128 .f32) slices_S262x128_S128x128_128_0) bitsLt_bf16_f32 := by
  after_results6 <;> rfl

set_option maxHeartbeats 4000000 in
theorem s6_v79 : (StableHlo.after (hostOps0_6 (F := F)) W main_v79 : FVec F S6x128 .bf16)
    = truncf .bf16 (extractStridedSlice S6x128 ![256, 0] (W main_arg3 : FVec F S262x128 .f32) slices_S262x128_S6x128_256_0) bitsLt_bf16_f32 := by
  after_results6 <;> rfl

set_option maxHeartbeats 4000000 in
theorem s6_v80 : (StableHlo.after (hostOps0_6 (F := F)) W main_v80 : FVec F S1x128 .f32)
    = shapeCast _ (W main_arg4 : FVec F S128 .f32) shapeCasts_S128_S1x128 := by
  after_results6 <;> rfl

set_option maxHeartbeats 4000000 in
theorem s6_v81 : (StableHlo.after (hostOps0_6 (F := F)) W main_v81 : FVec F S128x128 .bf16)
    = truncf .bf16 (W main_arg5 : FVec F S128x128 .f32) bitsLt_bf16_f32 := by
  after_results6 <;> rfl

set_option maxHeartbeats 4000000 in
theorem s6_v82 : (StableHlo.after (hostOps0_6 (F := F)) W main_v82 : FVec F S1x128 .f32)
    = shapeCast _ (W main_arg6 : FVec F S128 .f32) shapeCasts_S128_S1x128 := by
  after_results6 <;> rfl

set_option maxHeartbeats 4000000 in
theorem s6_v83 : (StableHlo.after (hostOps0_6 (F := F)) W main_v83 : FVec F S128x128 .bf16)
    = truncf .bf16 (W main_arg11 : FVec F S128x128 .f32) bitsLt_bf16_f32 := by
  after_results6 <;> rfl

set_option maxHeartbeats 4000000 in
theorem s6_v84 : (StableHlo.after (hostOps0_6 (F := F)) W main_v84 : FVec F S1x128 .f32)
    = shapeCast _ (W main_arg12 : FVec F S128 .f32) shapeCasts_S128_S1x128 := by
  after_results6 <;> rfl

set_option maxHeartbeats 4000000 in
theorem s6_v85 : (StableHlo.after (hostOps0_6 (F := F)) W main_v85 : FVec F S128x2 .bf16)
    = truncf .bf16 (W main_arg13 : FVec F S128x2 .f32) bitsLt_bf16_f32 := by
  after_results6 <;> rfl

/-! ## After the edge region: the three scatter-sums -/

set_option maxHeartbeats 4000000 in
theorem h1_v89 : (StableHlo.after (hostOps1 (F := F)) W main_v89 : FVec F S50000x128 .f32)
    = Host.scatterAdd (F := F) scatter_S50000x128_S800000x1_S800000x128_1_0_0_1
        (broadcastInDim S50000x128 ![] bcast_S_S50000x128 (constant (F := F) S_ .f32 0x00000000#32))
        (broadcastInDim S800000x1 ![0] bcast_S800000_S800000x1_0 (W main_v1 : IVec S800000 32))
        (W main_v86_0 : FVec F S800000x128 .f32) := by
  after_results6 <;> rfl

set_option maxHeartbeats 4000000 in
theorem h1_v97 : (StableHlo.after (hostOps1 (F := F)) W main_v97 : FVec F S50000x2x3 .f32)
    = shapeCast _ (Host.scatterAdd (F := F) scatter_S50000x6_S800000x1_S800000x6_1_0_0_1
        (broadcastInDim S50000x6 ![] bcast_S_S50000x6 (constant (F := F) S_ .f32 0x00000000#32))
        (broadcastInDim S800000x1 ![0] bcast_S800000_S800000x1_0 (W main_v1 : IVec S800000 32))
        (W main_v86_1 : FVec F S800000x6 .f32)) shapeCasts_S50000x6_S50000x2x3 := by
  after_results6 <;> rfl

set_option maxHeartbeats 4000000 in
theorem h1_v96 : (StableHlo.after (hostOps1 (F := F)) W main_v96 : FVec F S50000 .f32)
    = cntOf (broadcastInDim S800000x1 ![0] bcast_S800000_S800000x1_0 (W main_v1 : IVec S800000 32)) := by
  after_results6 <;> rfl

set_option maxHeartbeats 4000000 in
theorem h1_cst13 : (StableHlo.after (hostOps1 (F := F)) W main_cst_13 : FVec F S_ .f32)
    = constant (F := F) S_ .f32 0x3F800000#32 := by
  after_results6 <;> rfl

/-! ## The count raised to at least one -/

set_option maxHeartbeats 4000000 in
theorem h11_v98 : (StableHlo.after (hostOps1_1 (F := F)) W main_v98 : FVec F S50000 .f32)
    = maximumf (broadcastInDim S50000 ![] bcast_S_S50000 (W main_cst_13 : FVec F S_ .f32)) (W main_v96 : FVec F S50000 .f32) := by
  after_results6 <;> rfl

/-! ## The coordinate result and the node layer's operands -/

set_option maxHeartbeats 4000000 in
theorem h12_v102 : (StableHlo.after (hostOps1_2 (F := F)) W main_v102 : FVec F S50000x2x3 .f32)
    = addf (W main_arg2 : FVec F S50000x2x3 .f32)
        (Host.divf (F := F) (W main_v97 : FVec F S50000x2x3 .f32) (spread23 (W main_v98))) := by
  after_results6 <;> rfl

set_option maxHeartbeats 4000000 in
theorem h12_v104 : (StableHlo.after (hostOps1_2 (F := F)) W main_v104 : FVec F S128x128 .bf16)
    = truncf .bf16 (extractStridedSlice S128x128 ![0, 0] (W main_arg7 : FVec F S256x128 .f32) slices_S256x128_S128x128_0_0) bitsLt_bf16_f32 := by
  after_results6 <;> rfl

set_option maxHeartbeats 4000000 in
theorem h12_v106 : (StableHlo.after (hostOps1_2 (F := F)) W main_v106 : FVec F S128x128 .bf16)
    = truncf .bf16 (extractStridedSlice S128x128 ![128, 0] (W main_arg7 : FVec F S256x128 .f32) slices_S256x128_S128x128_128_0) bitsLt_bf16_f32 := by
  after_results6 <;> rfl

set_option maxHeartbeats 4000000 in
theorem h12_v107 : (StableHlo.after (hostOps1_2 (F := F)) W main_v107 : FVec F S1x128 .f32)
    = shapeCast _ (W main_arg8 : FVec F S128 .f32) shapeCasts_S128_S1x128 := by
  after_results6 <;> rfl

set_option maxHeartbeats 4000000 in
theorem h12_v108 : (StableHlo.after (hostOps1_2 (F := F)) W main_v108 : FVec F S128x128 .bf16)
    = truncf .bf16 (W main_arg9 : FVec F S128x128 .f32) bitsLt_bf16_f32 := by
  after_results6 <;> rfl

set_option maxHeartbeats 4000000 in
theorem h12_v109 : (StableHlo.after (hostOps1_2 (F := F)) W main_v109 : FVec F S1x128 .f32)
    = shapeCast _ (W main_arg10 : FVec F S128 .f32) shapeCasts_S128_S1x128 := by
  after_results6 <;> rfl

end Cert.KernelIdeal.HostVal

end
-- ==== Proof.KernelHostValues.lean ====
/-
  The contents of the buffers the two kernel regions read, and of the coordinate result, as terms of the program's
  argument arrays: the per-stretch readings chained along the program, each buffer followed from the stretch that
  writes it to the point where it is read (a stretch leaves every buffer it does not write as it found it).
-/
import proofs.«102740_j91328184582715_1_alg».proof.Proof.KernelHostStretch
import proofs.«102740_j91328184582715_1_alg».proof.Proof.KernelHostStretchB
import proofs.«102740_j91328184582715_1_alg».proof.Proof.Gen.KernelIdeal.Regions

noncomputable section

namespace Cert.KernelIdeal.HostVal

open Cert.KernelIdeal Cert.KernelIdeal.Gen Idealize.ShloMosaic Idealize.ShloMosaic.StableHlo Idealize.ShloMosaic.TcCoe

variable {F : FTy → Type} [FloatOps F] (m : (ℓ : Loc nD τ sig) → Buf (Elt F) ℓ) (outs : Gen.Outs (F := F)) (c : Dev nD)

set_option quotPrecheck false
local notation "A0" => (m ((c.tc : Thread nD τ).loc main_arg0) : FVec F S50000x128 .f32)
local notation "A1" => (m ((c.tc : Thread nD τ).loc main_arg1) : IVec S2x800000 32)
local notation "A2" => (m ((c.tc : Thread nD τ).loc main_arg2) : FVec F S50000x2x3 .f32)
local notation "A3" => (m ((c.tc : Thread nD τ).loc main_arg3) : FVec F S262x128 .f32)
local notation "A4" => (m ((c.tc : Thread nD τ).loc main_arg4) : FVec F S128 .f32)
local notation "A5" => (m ((c.tc : Thread nD τ).loc main_arg5) : FVec F S128x128 .f32)
local notation "A6" => (m ((c.tc : Thread nD τ).loc main_arg6) : FVec F S128 .f32)
local notation "A7" => (m ((c.tc : Thread nD τ).loc main_arg7) : FVec F S256x128 .f32)
local notation "A8" => (m ((c.tc : Thread nD τ).loc main_arg8) : FVec F S128 .f32)
local notation "A9" => (m ((c.tc : Thread nD τ).loc main_arg9) : FVec F S128x128 .f32)
local notation "A10" => (m ((c.tc : Thread nD τ).loc main_arg10) : FVec F S128 .f32)
local notation "A11" => (m ((c.tc : Thread nD τ).loc main_arg11) : FVec F S128x128 .f32)
local notation "A12" => (m ((c.tc : Thread nD τ).loc main_arg12) : FVec F S128 .f32)
local notation "A13" => (m ((c.tc : Thread nD τ).loc main_arg13) : FVec F S128x2 .f32)

/-! ## After stretch 0 -/

theorem V1_v1 : (V1 m c main_v1 : IVec S800000 32) = rowV A1 := s0_v1 (V0 m c)
theorem V1_v10 : (V1 m c main_v10 : FVec F S800000x128 .f32) = HR A0 A1 := s0_v10 (V0 m c)
theorem V1_v17 : (V1 m c main_v17 : FVec F S800000x128 .f32) = HC A0 A1 := s0_v17 (V0 m c)
theorem V1_v24 : (V1 m c main_v24 : FVec F S800000x2x3 .f32) = CR A1 A2 := s0_v24 (V0 m c)
theorem V1_v31 : (V1 m c main_v31 : FVec F S800000x2x3 .f32) = CC A1 A2 := s0_v31 (V0 m c)
theorem V1_v36 : (V1 m c main_v36 : FVec F S800000x3 .f32) = dAtom A1 A2 := s0_v36 (V0 m c)

/-! ## The lengths, the side vectors and the first cosine, stretch by stretch -/

theorem V2_v37 : (V2 m c main_v37 : FVec F S800000 .f32) = dist A1 A2 :=
  (s1_v37 (V1 m c)).trans (congrArg normV (V1_v36 m c))

theorem V3_v42 : (V3 m c main_v42 : FVec F S800000x3 .f32) = s0 A1 A2 :=
  (s2_v42 (V2 m c)).trans (congrArg sideV (((V2_of m c main_v24 (by decide))).trans (V1_v24 m c)))

theorem V4_v43 : (V4 m c main_v43 : FVec F S800000 .f32) = ds0 A1 A2 :=
  (s3_v43 (V3 m c)).trans (congrArg normV (V3_v42 m c))

theorem V5_v47 : (V5 m c main_v47 : FVec F S800000 .f32) = a0 A1 A2 := by
  refine (s4_v47 (V4 m c)).trans ?_
  rw [show (V4 m c main_v42 : FVec F S800000x3 .f32) = s0 A1 A2 from ((V4_of m c main_v42 (by decide))).trans (V3_v42 m c),
    show (V4 m c main_v36 : FVec F S800000x3 .f32) = dAtom A1 A2 from ((V4_of m c main_v36 (by decide)).trans ((V3_of m c main_v36 (by decide)).trans ((V2_of m c main_v36 (by decide))))).trans (V1_v36 m c),
    show (V4 m c main_v37 : FVec F S800000 .f32) = dist A1 A2 from ((V4_of m c main_v37 (by decide)).trans ((V3_of m c main_v37 (by decide)))).trans (V2_v37 m c),
    V4_v43 m c]
  rfl

theorem V5_v52 : (V5 m c main_v52 : FVec F S800000x3 .f32) = s1 A1 A2 :=
  (s4_v52 (V4 m c)).trans (congrArg sideV (((V4_of m c main_v31 (by decide)).trans ((V3_of m c main_v31 (by decide)).trans ((V2_of m c main_v31 (by decide))))).trans (V1_v31 m c)))

theorem V6_v53 : (V6 m c main_v53 : FVec F S800000 .f32) = ds1 A1 A2 :=
  (s5_v53 (V5 m c)).trans (congrArg normV (V5_v52 m c))

/-! ## What the last stretch before the edge region finds -/

theorem V6_v10 : (V6 m c main_v10 : FVec F S800000x128 .f32) = HR A0 A1 := ((V6_of m c main_v10 (by decide)).trans ((V5_of m c main_v10 (by decide)).trans ((V4_of m c main_v10 (by decide)).trans ((V3_of m c main_v10 (by decide)).trans ((V2_of m c main_v10 (by decide))))))).trans (V1_v10 m c)
theorem V6_v17 : (V6 m c main_v17 : FVec F S800000x128 .f32) = HC A0 A1 := ((V6_of m c main_v17 (by decide)).trans ((V5_of m c main_v17 (by decide)).trans ((V4_of m c main_v17 (by decide)).trans ((V3_of m c main_v17 (by decide)).trans ((V2_of m c main_v17 (by decide))))))).trans (V1_v17 m c)
theorem V6_v24 : (V6 m c main_v24 : FVec F S800000x2x3 .f32) = CR A1 A2 := ((V6_of m c main_v24 (by decide)).trans ((V5_of m c main_v24 (by decide)).trans ((V4_of m c main_v24 (by decide)).trans ((V3_of m c main_v24 (by decide)).trans ((V2_of m c main_v24 (by decide))))))).trans (V1_v24 m c)
theorem V6_v31 : (V6 m c main_v31 : FVec F S800000x2x3 .f32) = CC A1 A2 := ((V6_of m c main_v31 (by decide)).trans ((V5_of m c main_v31 (by decide)).trans ((V4_of m c main_v31 (by decide)).trans ((V3_of m c main_v31 (by decide)).trans ((V2_of m c main_v31 (by decide))))))).trans (V1_v31 m c)
theorem V6_v36 : (V6 m c main_v36 : FVec F S800000x3 .f32) = dAtom A1 A2 := ((V6_of m c main_v36 (by decide)).trans ((V5_of m c main_v36 (by decide)).trans ((V4_of m c main_v36 (by decide)).trans ((V3_of m c main_v36 (by decide)).trans ((V2_of m c main_v36 (by decide))))))).trans (V1_v36 m c)
theorem V6_v37 : (V6 m c main_v37 : FVec F S800000 .f32) = dist A1 A2 := ((V6_of m c main_v37 (by decide)).trans ((V5_of m c main_v37 (by decide)).trans ((V4_of m c main_v37 (by decide)).trans ((V3_of m c main_v37 (by decide)))))).trans (V2_v37 m c)
theorem V6_v42 : (V6 m c main_v42 : FVec F S800000x3 .f32) = s0 A1 A2 := ((V6_of m c main_v42 (by decide)).trans ((V5_of m c main_v42 (by decide)).trans ((V4_of m c main_v42 (by decide))))).trans (V3_v42 m c)
theorem V6_v43 : (V6 m c main_v43 : FVec F S800000 .f32) = ds0 A1 A2 := ((V6_of m c main_v43 (by decide)).trans ((V5_of m c main_v43 (by decide)))).trans (V4_v43 m c)
theorem V6_v47 : (V6 m c main_v47 : FVec F S800000 .f32) = a0 A1 A2 := ((V6_of m c main_v47 (by decide))).trans (V5_v47 m c)
theorem V6_v52 : (V6 m c main_v52 : FVec F S800000x3 .f32) = s1 A1 A2 := ((V6_of m c main_v52 (by decide))).trans (V5_v52 m c)
theorem V6_arg3 : (V6 m c main_arg3 : FVec F S262x128 .f32) = A3 := (V6_of m c main_arg3 (by decide)).trans ((V5_of m c main_arg3 (by decide)).trans ((V4_of m c main_arg3 (by decide)).trans ((V3_of m c main_arg3 (by decide)).trans ((V2_of m c main_arg3 (by decide)).trans ((V1_of m c main_arg3 (by decide)))))))
theorem V6_arg4 : (V6 m c main_arg4 : FVec F S128 .f32) = A4 := (V6_of m c main_arg4 (by decide)).trans ((V5_of m c main_arg4 (by decide)).trans ((V4_of m c main_arg4 (by decide)).trans ((V3_of m c main_arg4 (by decide)).trans ((V2_of m c main_arg4 (by decide)).trans ((V1_of m c main_arg4 (by decide)))))))
theorem V6_arg5 : (V6 m c main_arg5 : FVec F S128x128 .f32) = A5 := (V6_of m c main_arg5 (by decide)).trans ((V5_of m c main_arg5 (by decide)).trans ((V4_of m c main_arg5 (by decide)).trans ((V3_of m c main_arg5 (by decide)).trans ((V2_of m c main_arg5 (by decide)).trans ((V1_of m c main_arg5 (by decide)))))))
theorem V6_arg6 : (V6 m c main_arg6 : FVec F S128 .f32) = A6 := (V6_of m c main_arg6 (by decide)).trans ((V5_of m c main_arg6 (by decide)).trans ((V4_of m c main_arg6 (by decide)).trans ((V3_of m c main_arg6 (by decide)).trans ((V2_of m c main_arg6 (by decide)).trans ((V1_of m c main_arg6 (by decide)))))))
theorem V6_arg11 : (V6 m c main_arg11 : FVec F S128x128 .f32) = A11 := (V6_of m c main_arg11 (by decide)).trans ((V5_of m c main_arg11 (by decide)).trans ((V4_of m c main_arg11 (by decide)).trans ((V3_of m c main_arg11 (by decide)).trans ((V2_of m c main_arg11 (by decide)).trans ((V1_of m c main_arg11 (by decide)))))))
theorem V6_arg12 : (V6 m c main_arg12 : FVec F S128 .f32) = A12 := (V6_of m c main_arg12 (by decide)).trans ((V5_of m c main_arg12 (by decide)).trans ((V4_of m c main_arg12 (by decide)).trans ((V3_of m c main_arg12 (by decide)).trans ((V2_of m c main_arg12 (by decide)).trans ((V1_of m c main_arg12 (by decide)))))))
theorem V6_arg13 : (V6 m c main_arg13 : FVec F S128x2 .f32) = A13 := (V6_of m c main_arg13 (by decide)).trans ((V5_of m c main_arg13 (by decide)).trans ((V4_of m c main_arg13 (by decide)).trans ((V3_of m c main_arg13 (by decide)).trans ((V2_of m c main_arg13 (by decide)).trans ((V1_of m c main_arg13 (by decide)))))))

/-! ## The arrays of the edge region's twelve input windows -/

theorem V7_v72 : (V7 m c main_v72 : FVec F S800000x128 .bf16) = truncf .bf16 (HR A0 A1) bitsLt_bf16_f32 :=
  (s6_v72 (V6 m c)).trans (congrArg (fun x : FVec F S800000x128 .f32 => truncf .bf16 x bitsLt_bf16_f32) (V6_v10 m c))

theorem V7_v73 : (V7 m c main_v73 : FVec F S800000x128 .bf16) = truncf .bf16 (HC A0 A1) bitsLt_bf16_f32 :=
  (s6_v73 (V6 m c)).trans (congrArg (fun x : FVec F S800000x128 .f32 => truncf .bf16 x bitsLt_bf16_f32) (V6_v17 m c))

theorem V7_v71 : (V7 m c main_v71 : FVec F S800000x12 .f32) = EXTRA A1 A2 := by
  refine (s6_v71 (V6 m c)).trans ?_
  rw [V6_v37 m c, V6_v43 m c, V6_v53 m c, V6_v47 m c, V6_v52 m c, V6_v36 m c, V6_v42 m c, V6_v24 m c, V6_v31 m c]
  rfl

theorem V7_v75 : (V7 m c main_v75 : FVec F S128x128 .bf16)
    = truncf .bf16 (extractStridedSlice S128x128 ![0, 0] A3 slices_S262x128_S128x128_0_0) bitsLt_bf16_f32 :=
  (s6_v75 (V6 m c)).trans (congrArg (fun x : FVec F S262x128 .f32 => truncf .bf16 (extractStridedSlice S128x128 ![0, 0] x slices_S262x128_S128x128_0_0) bitsLt_bf16_f32) (V6_arg3 m c))

theorem V7_v77 : (V7 m c main_v77 : FVec F S128x128 .bf16)
    = truncf .bf16 (extractStridedSlice S128x128 ![128, 0] A3 slices_S262x128_S128x128_128_0) bitsLt_bf16_f32 :=
  (s6_v77 (V6 m c)).trans (congrArg (fun x : FVec F S262x128 .f32 => truncf .bf16 (extractStridedSlice S128x128 ![128, 0] x slices_S262x128_S128x128_128_0) bitsLt_bf16_f32) (V6_arg3 m c))

theorem V7_v79 : (V7 m c main_v79 : FVec F S6x128 .bf16)
    = truncf .bf16 (extractStridedSlice S6x128 ![256, 0] A3 slices_S262x128_S6x128_256_0) bitsLt_bf16_f32 :=
  (s6_v79 (V6 m c)).trans (congrArg (fun x : FVec F S262x128 .f32 => truncf .bf16 (extractStridedSlice S6x128 ![256, 0] x slices_S262x128_S6x128_256_0) bitsLt_bf16_f32) (V6_arg3 m c))

theorem V7_v80 : (V7 m c main_v80 : FVec F S1x128 .f32) = shapeCast _ A4 shapeCasts_S128_S1x128 :=
  (s6_v80 (V6 m c)).trans (congrArg (fun x : FVec F S128 .f32 => (shapeCast _ x shapeCasts_S128_S1x128 : FVec F S1x128 .f32)) (V6_arg4 m c))

theorem V7_v81 : (V7 m c main_v81 : FVec F S128x128 .bf16) = truncf .bf16 A5 bitsLt_bf16_f32 :=
  (s6_v81 (V6 m c)).trans (congrArg (fun x : FVec F S128x128 .f32 => truncf .bf16 x bitsLt_bf16_f32) (V6_arg5 m c))

theorem V7_v82 : (V7 m c main_v82 : FVec F S1x128 .f32) = shapeCast _ A6 shapeCasts_S128_S1x128 :=
  (s6_v82 (V6 m c)).trans (congrArg (fun x : FVec F S128 .f32 => (shapeCast _ x shapeCasts_S128_S1x128 : FVec F S1x128 .f32)) (V6_arg6 m c))

theorem V7_v83 : (V7 m c main_v83 : FVec F S128x128 .bf16) = truncf .bf16 A11 bitsLt_bf16_f32 :=
  (s6_v83 (V6 m c)).trans (congrArg (fun x : FVec F S128x128 .f32 => truncf .bf16 x bitsLt_bf16_f32) (V6_arg11 m c))

theorem V7_v84 : (V7 m c main_v84 : FVec F S1x128 .f32) = shapeCast _ A12 shapeCasts_S128_S1x128 :=
  (s6_v84 (V6 m c)).trans (congrArg (fun x : FVec F S128 .f32 => (shapeCast _ x shapeCasts_S128_S1x128 : FVec F S1x128 .f32)) (V6_arg12 m c))

theorem V7_v85 : (V7 m c main_v85 : FVec F S128x2 .bf16) = truncf .bf16 A13 bitsLt_bf16_f32 :=
  (s6_v85 (V6 m c)).trans (congrArg (fun x : FVec F S128x2 .f32 => truncf .bf16 x bitsLt_bf16_f32) (V6_arg13 m c))

/-! ## After the edge region: its two outputs are unknowns, everything else is as the region found it -/

theorem V8_v86_0 : (V8 m outs c main_v86_0 : FVec F S800000x128 .f32) = outs 8 main_v86_0 c := by
  show Function.update (Function.update (V7 m c) _ _) _ _ _ = _
  rw [Function.update_of_ne (StableHlo.devRef_ne_of_ne (by decide)), Function.update_self]

theorem V8_v86_1 : (V8 m outs c main_v86_1 : FVec F S800000x6 .f32) = outs 8 main_v86_1 c := by
  show Function.update (Function.update (V7 m c) _ _) _ _ _ = _
  rw [Function.update_self]

theorem V8_v1 : (V8 m outs c main_v1 : IVec S800000 32) = rowV A1 :=
  ((V8_of m outs c main_v1 (by decide)).trans ((V7_of m c main_v1 (by decide)).trans ((V6_of m c main_v1 (by decide)).trans ((V5_of m c main_v1 (by decide)).trans ((V4_of m c main_v1 (by decide)).trans ((V3_of m c main_v1 (by decide)).trans ((V2_of m c main_v1 (by decide))))))))).trans (V1_v1 m c)

theorem V9_v89 : (V9 m outs c main_v89 : FVec F S50000x128 .f32)
    = Host.scatterAdd (F := F) scatter_S50000x128_S800000x1_S800000x128_1_0_0_1
        (broadcastInDim S50000x128 ![] bcast_S_S50000x128 (constant (F := F) S_ .f32 0x00000000#32)) (sIdx A1) (outs 8 main_v86_0 c) := by
  refine (h1_v89 (V8 m outs c)).trans ?_
  rw [V8_v1 m outs c, V8_v86_0 m outs c]
  rfl

theorem V9_v97 : (V9 m outs c main_v97 : FVec F S50000x2x3 .f32)
    = shapeCast _ (Host.scatterAdd (F := F) scatter_S50000x6_S800000x1_S800000x6_1_0_0_1
        (broadcastInDim S50000x6 ![] bcast_S_S50000x6 (constant (F := F) S_ .f32 0x00000000#32)) (sIdx A1) (outs 8 main_v86_1 c))
        shapeCasts_S50000x6_S50000x2x3 := by
  refine (h1_v97 (V8 m outs c)).trans ?_
  rw [V8_v1 m outs c, V8_v86_1 m outs c]
  rfl

theorem V9_v96 : (V9 m outs c main_v96 : FVec F S50000 .f32) = cntOf (sIdx A1) := by
  refine (h1_v96 (V8 m outs c)).trans ?_
  rw [V8_v1 m outs c]
  rfl

theorem V10_v98 : (V10 m outs c main_v98 : FVec F S50000 .f32) = cntClip A1 := by
  refine (h11_v98 (V9 m outs c)).trans ?_
  rw [show (V9 m outs c main_cst_13 : FVec F S_ .f32) = constant (F := F) S_ .f32 0x3F800000#32 from h1_cst13 (V8 m outs c),
    V9_v96 m outs c]
  rfl

/-! ## The arrays of the node region's seven input windows -/

theorem V11_arg0 : (V11 m outs c main_arg0 : FVec F S50000x128 .f32) = A0 := (V11_of m outs c main_arg0 (by decide)).trans ((V10_of m outs c main_arg0 (by decide)).trans ((V9_of m outs c main_arg0 (by decide)).trans ((V8_of m outs c main_arg0 (by decide)).trans ((V7_of m c main_arg0 (by decide)).trans ((V6_of m c main_arg0 (by decide)).trans ((V5_of m c main_arg0 (by decide)).trans ((V4_of m c main_arg0 (by decide)).trans ((V3_of m c main_arg0 (by decide)).trans ((V2_of m c main_arg0 (by decide)).trans ((V1_of m c main_arg0 (by decide))))))))))))

theorem V11_v89 : (V11 m outs c main_v89 : FVec F S50000x128 .f32)
    = Host.scatterAdd (F := F) scatter_S50000x128_S800000x1_S800000x128_1_0_0_1
        (broadcastInDim S50000x128 ![] bcast_S_S50000x128 (constant (F := F) S_ .f32 0x00000000#32)) (sIdx A1) (outs 8 main_v86_0 c) :=
  ((V11_of m outs c main_v89 (by decide)).trans ((V10_of m outs c main_v89 (by decide)))).trans (V9_v89 m outs c)
theorem V10_arg2 : (V10 m outs c main_arg2 : FVec F S50000x2x3 .f32) = A2 := (V10_of m outs c main_arg2 (by decide)).trans ((V9_of m outs c main_arg2 (by decide)).trans ((V8_of m outs c main_arg2 (by decide)).trans ((V7_of m c main_arg2 (by decide)).trans ((V6_of m c main_arg2 (by decide)).trans ((V5_of m c main_arg2 (by decide)).trans ((V4_of m c main_arg2 (by decide)).trans ((V3_of m c main_arg2 (by decide)).trans ((V2_of m c main_arg2 (by decide)).trans ((V1_of m c main_arg2 (by decide)))))))))))
theorem V10_arg7 : (V10 m outs c main_arg7 : FVec F S256x128 .f32) = A7 := (V10_of m outs c main_arg7 (by decide)).trans ((V9_of m outs c main_arg7 (by decide)).trans ((V8_of m outs c main_arg7 (by decide)).trans ((V7_of m c main_arg7 (by decide)).trans ((V6_of m c main_arg7 (by decide)).trans ((V5_of m c main_arg7 (by decide)).trans ((V4_of m c main_arg7 (by decide)).trans ((V3_of m c main_arg7 (by decide)).trans ((V2_of m c main_arg7 (by decide)).trans ((V1_of m c main_arg7 (by decide)))))))))))
theorem V10_arg8 : (V10 m outs c main_arg8 : FVec F S128 .f32) = A8 := (V10_of m outs c main_arg8 (by decide)).trans ((V9_of m outs c main_arg8 (by decide)).trans ((V8_of m outs c main_arg8 (by decide)).trans ((V7_of m c main_arg8 (by decide)).trans ((V6_of m c main_arg8 (by decide)).trans ((V5_of m c main_arg8 (by decide)).trans ((V4_of m c main_arg8 (by decide)).trans ((V3_of m c main_arg8 (by decide)).trans ((V2_of m c main_arg8 (by decide)).trans ((V1_of m c main_arg8 (by decide)))))))))))
theorem V10_arg9 : (V10 m outs c main_arg9 : FVec F S128x128 .f32) = A9 := (V10_of m outs c main_arg9 (by decide)).trans ((V9_of m outs c main_arg9 (by decide)).trans ((V8_of m outs c main_arg9 (by decide)).trans ((V7_of m c main_arg9 (by decide)).trans ((V6_of m c main_arg9 (by decide)).trans ((V5_of m c main_arg9 (by decide)).trans ((V4_of m c main_arg9 (by decide)).trans ((V3_of m c main_arg9 (by decide)).trans ((V2_of m c main_arg9 (by decide)).trans ((V1_of m c main_arg9 (by decide)))))))))))
theorem V10_arg10 : (V10 m outs c main_arg10 : FVec F S128 .f32) = A10 := (V10_of m outs c main_arg10 (by decide)).trans ((V9_of m outs c main_arg10 (by decide)).trans ((V8_of m outs c main_arg10 (by decide)).trans ((V7_of m c main_arg10 (by decide)).trans ((V6_of m c main_arg10 (by decide)).trans ((V5_of m c main_arg10 (by decide)).trans ((V4_of m c main_arg10 (by decide)).trans ((V3_of m c main_arg10 (by decide)).trans ((V2_of m c main_arg10 (by decide)).trans ((V1_of m c main_arg10 (by decide)))))))))))

set_option maxHeartbeats 2000000 in
theorem V11_v104 : (V11 m outs c main_v104 : FVec F S128x128 .bf16)
    = truncf .bf16 (extractStridedSlice S128x128 ![0, 0] A7 slices_S256x128_S128x128_0_0) bitsLt_bf16_f32 := by
  refine (h12_v104 (V10 m outs c)).trans ?_
  rw [V10_arg7 m outs c]

set_option maxHeartbeats 2000000 in
theorem V11_v106 : (V11 m outs c main_v106 : FVec F S128x128 .bf16)
    = truncf .bf16 (extractStridedSlice S128x128 ![128, 0] A7 slices_S256x128_S128x128_128_0) bitsLt_bf16_f32 := by
  refine (h12_v106 (V10 m outs c)).trans ?_
  rw [V10_arg7 m outs c]

theorem V11_v107 : (V11 m outs c main_v107 : FVec F S1x128 .f32) = shapeCast _ A8 shapeCasts_S128_S1x128 :=
  (h12_v107 (V10 m outs c)).trans (congrArg (fun x : FVec F S128 .f32 => (shapeCast _ x shapeCasts_S128_S1x128 : FVec F S1x128 .f32)) (V10_arg8 m outs c))

theorem V11_v108 : (V11 m outs c main_v108 : FVec F S128x128 .bf16) = truncf .bf16 A9 bitsLt_bf16_f32 :=
  (h12_v108 (V10 m outs c)).trans (congrArg (fun x : FVec F S128x128 .f32 => truncf .bf16 x bitsLt_bf16_f32) (V10_arg9 m outs c))

theorem V11_v109 : (V11 m outs c main_v109 : FVec F S1x128 .f32) = shapeCast _ A10 shapeCasts_S128_S1x128 :=
  (h12_v109 (V10 m outs c)).trans (congrArg (fun x : FVec F S128 .f32 => (shapeCast _ x shapeCasts_S128_S1x128 : FVec F S1x128 .f32)) (V10_arg10 m outs c))

/-! ## The two results -/

theorem V12_v102 : (V12 m outs c main_v102 : FVec F S50000x2x3 .f32)
    = addf A2 (Host.divf (F := F)
        (shapeCast _ (Host.scatterAdd (F := F) scatter_S50000x6_S800000x1_S800000x6_1_0_0_1
          (broadcastInDim S50000x6 ![] bcast_S_S50000x6 (constant (F := F) S_ .f32 0x00000000#32)) (sIdx A1) (outs 8 main_v86_1 c))
          shapeCasts_S50000x6_S50000x2x3)
        (cntDiv A1)) := by
  refine ((V12_of m outs c main_v102 (by decide))).trans ((h12_v102 (V10 m outs c)).trans ?_)
  rw [V10_arg2 m outs c,
    show (V10 m outs c main_v97 : FVec F S50000x2x3 .f32) = _ from ((V10_of m outs c main_v97 (by decide))).trans (V9_v97 m outs c),
    V10_v98 m outs c]
  rfl

theorem V12_v110 : (V12 m outs c main_v110 : FVec F S50000x128 .f32) = outs 12 main_v110 c := by
  show Function.update (V11 m outs c) _ _ _ = _
  rw [Function.update_self]

end Cert.KernelIdeal.HostVal

end
-- ==== Proof.HostStagesAgree.lean ====
/-
  The pieces the kernel program's host operations build and the stages of the reference program are the same
  functions of the argument arrays: the same operations on the same arguments, named in two programs. Each
  equation holds by unfolding the names on both sides.
-/
import proofs.«102740_j91328184582715_1_alg».proof.Proof.KernelHostDefs
import proofs.«102740_j91328184582715_1_alg».proof.Proof.RefRead

noncomputable section

namespace Cert.KernelIdeal.HostVal

open Cert.KernelIdeal Idealize.ShloMosaic

variable {F : FTy → Type} [FloatOps F]

theorem sIdx_eq_ref (x1 : IVec S2x800000 32) : sIdx x1 = Cert.ReferenceIdeal.ReadP.val_main_v91 (F := F) x1 := rfl

theorem sIdx_eq_ref95 (x1 : IVec S2x800000 32) : sIdx x1 = Cert.ReferenceIdeal.ReadP.val_main_v95 (F := F) x1 := rfl

theorem sIdx_eq_ref103 (x1 : IVec S2x800000 32) : sIdx x1 = Cert.ReferenceIdeal.ReadP.val_main_v103 (F := F) x1 := rfl

theorem HR_eq_ref (x0 : FVec F S50000x128 .f32) (x1 : IVec S2x800000 32) :
    HR x0 x1 = Cert.ReferenceIdeal.ReadP.val_main_v62 (F := F) x0 x1 := rfl

theorem HC_eq_ref (x0 : FVec F S50000x128 .f32) (x1 : IVec S2x800000 32) :
    HC x0 x1 = Cert.ReferenceIdeal.ReadP.val_main_v69 (F := F) x0 x1 := rfl

theorem DIFF3_eq_ref (x1 : IVec S2x800000 32) (x2 : FVec F S50000x2x3 .f32) :
    DIFF3 x1 x2 = Cert.ReferenceIdeal.ReadP.val_main_v18 (F := F) x1 x2 := rfl

theorem RAD_eq_ref (x1 : IVec S2x800000 32) (x2 : FVec F S50000x2x3 .f32) :
    RAD x1 x2 = Cert.ReferenceIdeal.ReadP.val_main_v55 (F := F) x1 x2 := rfl

theorem cntDiv_eq_ref (x1 : IVec S2x800000 32) :
    cntDiv (F := F) x1 = Cert.ReferenceIdeal.ReadP.val_main_v99 (F := F) x1 := rfl

end Cert.KernelIdeal.HostVal

end
-- ==== Proof.LibScatterAddSlabs.lean ====
/-
  An accumulating scatter of whole SLABS, read at an entry.

  The operand is an `N × A × B` array, the updates an `E × A × B` array, and update slab `e` (an `A × B` matrix) is added
  onto the operand slab whose number is the `e`-th scatter index (one signed integer per update slab, held as an
  `E × 1` array); a slab whose index is negative or `≥ N` is dropped. On the extended reals the result at `(n, a, b)` is
  therefore the operand's entry plus the sum, over the update slabs `e` whose index is `n`, of the update entry
  `(e, a, b)`: the positions inside a slab never mix.

  Everything is general in the four extents and in the width of the index integers. Also here: a rank-3 index set is
  the product of its three coordinate ranges, so a sum over it is the triple sum.
-/
import Idealize.ShloMosaic.PureOps.Ideal
import Idealize.ShloMosaic.PureOps.Contract
import Idealize.ShloMosaic.Lib.ValueIdx

noncomputable section

open scoped BigOperators

namespace LibScatterAddSlabs

open Idealize.ShloMosaic Idealize.ShloMosaic.ValueIdx

/-- A rank-3 index is its three coordinates … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over the index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

variable {N E A B w : Nat}

/-- The dimension numbers of a slab scatter: operand `[N, A, B]`, one index per update slab held as `[E, 1]`, updates
    `[E, A, B]`; the update's axes 1 and 2 are the window, the operand's axis 0 is the one the index names. -/
abbrev slabDims (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable (wf : ScatterDims.WF ⟨3, ![N, A, B]⟩ ⟨2, ![E, 1]⟩ ⟨3, ![E, A, B]⟩ [1, 2] [0] [0] 1)

/-- On the slab axis the window of update entry `(e, a, b)` starts at the `e`-th scatter index, read signed. -/
theorem start_slab (idx : IVec ⟨2, ![E, 1]⟩ w) (e : Fin E) (a : Fin A) (b : Fin B) :
    (slabDims N E A B wf).start (ix3 e a b) idx 0 = (idx (ix2 e (0 : Fin 1))).toInt := by
  unfold ScatterDims.start
  rw [dif_pos (show (0 : Fin 3) ∈ (slabDims N E A B wf).scatterDimsToOperandDims from List.mem_singleton.mpr rfl)]
  have hsi : (slabDims N E A B wf).siIdx (ix3 e a b) ⟨List.idxOf (0 : Fin 3) (slabDims N E A B wf).scatterDimsToOperandDims,
      List.idxOf_lt_length_iff.2 (List.mem_singleton.mpr rfl)⟩ = ix2 e (0 : Fin 1) := by
    funext x; refine Fin.ext ?_
    match x with
    | ⟨0, _⟩ => rfl
    | ⟨1, _⟩ => rfl
  rw [hsi]

/-- On the two axes inside a slab it starts at zero. -/
theorem start_in1 (idx : IVec ⟨2, ![E, 1]⟩ w) (e : Fin E) (a : Fin A) (b : Fin B) :
    (slabDims N E A B wf).start (ix3 e a b) idx 1 = 0 := by
  unfold ScatterDims.start
  rw [dif_neg (show ¬ (1 : Fin 3) ∈ (slabDims N E A B wf).scatterDimsToOperandDims from by
    intro h; exact absurd (congrArg Fin.val (List.mem_singleton.mp h)) Nat.one_ne_zero)]

theorem start_in2 (idx : IVec ⟨2, ![E, 1]⟩ w) (e : Fin E) (a : Fin A) (b : Fin B) :
    (slabDims N E A B wf).start (ix3 e a b) idx 2 = 0 := by
  unfold ScatterDims.start
  rw [dif_neg (show ¬ (2 : Fin 3) ∈ (slabDims N E A B wf).scatterDimsToOperandDims from by
    intro h; exact absurd (congrArg Fin.val (List.mem_singleton.mp h)) (show ¬ (2 : ℕ) = 0 by omega))]

/-- The window coordinate on the slab axis is zero … -/
theorem window_slab (e : Fin E) (a : Fin A) (b : Fin B) : (slabDims N E A B wf).window (ix3 e a b) 0 = 0 := by
  unfold ScatterDims.window
  rw [dif_neg (show ¬ (0 : Fin 3) ∈ (slabDims N E A B wf).sKept from by
    show ¬ (0 : Fin 3) ∈ ([1, 2] : List (Fin 3))
    decide)]

/-- … and inside the slab it is the update entry's own position. -/
theorem window_in1 (e : Fin E) (a : Fin A) (b : Fin B) : (slabDims N E A B wf).window (ix3 e a b) 1 = a.val := by
  unfold ScatterDims.window
  rw [dif_pos (show (1 : Fin 3) ∈ (slabDims N E A B wf).sKept from by
    show (1 : Fin 3) ∈ ([1, 2] : List (Fin 3))
    decide)]
  rfl

theorem window_in2 (e : Fin E) (a : Fin A) (b : Fin B) : (slabDims N E A B wf).window (ix3 e a b) 2 = b.val := by
  unfold ScatterDims.window
  rw [dif_pos (show (2 : Fin 3) ∈ (slabDims N E A B wf).sKept from by
    show (2 : Fin 3) ∈ ([1, 2] : List (Fin 3))
    decide)]
  rfl

/-- WHERE AN UPDATE ENTRY LANDS: entry `(e, a, b)` lands on operand entry `(n, a', b')` exactly when the `e`-th index
    is `n` and the positions inside the slab agree. -/
theorem resultIdx?_iff (idx : IVec ⟨2, ![E, 1]⟩ w) (e : Fin E) (a : Fin A) (b : Fin B) (n : Fin N) (a' : Fin A) (b' : Fin B) :
    (slabDims N E A B wf).resultIdx? (ix3 e a b) idx = some (ix3 n a' b')
      ↔ (idx (ix2 e (0 : Fin 1))).toInt = (n.val : Int) ∧ a = a' ∧ b = b' := by
  have hs0 := start_slab wf idx e a b
  have hs1 := start_in1 wf idx e a b
  have hs2 := start_in2 wf idx e a b
  have hw0 := window_slab wf e a b
  have hw1 := window_in1 wf e a b
  have hw2 := window_in2 wf e a b
  unfold ScatterDims.resultIdx?
  constructor
  · intro H
    split at H
    · rename_i h
      have H' := Option.some.inj H
      have h0 : ((slabDims N E A B wf).start (ix3 e a b) idx 0 + (slabDims N E A B wf).window (ix3 e a b) 0).toNat = n.val :=
        congrArg (fun f => (f 0).val) H'
      have h1 : ((slabDims N E A B wf).start (ix3 e a b) idx 1 + (slabDims N E A B wf).window (ix3 e a b) 1).toNat = a'.val :=
        congrArg (fun f => (f 1).val) H'
      have h2 : ((slabDims N E A B wf).start (ix3 e a b) idx 2 + (slabDims N E A B wf).window (ix3 e a b) 2).toNat = b'.val :=
        congrArg (fun f => (f 2).val) H'
      have hh0 := (h 0).1
      rw [hs0, hw0] at h0 hh0
      rw [hs1, hw1] at h1
      rw [hs2, hw2] at h2
      exact ⟨by omega, Fin.ext (by omega), Fin.ext (by omega)⟩
    · exact absurd H (by simp)
  · rintro ⟨h0, rfl, rfl⟩
    have hn : n.val < N := n.isLt
    have ha : a.val < A := a.isLt
    have hb : b.val < B := b.isLt
    have p0 : 0 ≤ (slabDims N E A B wf).start (ix3 e a b) idx 0 + (slabDims N E A B wf).window (ix3 e a b) 0
        ∧ (slabDims N E A B wf).start (ix3 e a b) idx 0 + (slabDims N E A B wf).window (ix3 e a b) 0
          < (⟨3, ![N, A, B]⟩ : Shape).size 0 := by
      rw [hs0, hw0, h0]
      refine ⟨by omega, ?_⟩
      show (n.val : Int) + ((0 : Nat) : Int) < ((N : Nat) : Int)
      omega
    have p1 : 0 ≤ (slabDims N E A B wf).start (ix3 e a b) idx 1 + (slabDims N E A B wf).window (ix3 e a b) 1
        ∧ (slabDims N E A B wf).start (ix3 e a b) idx 1 + (slabDims N E A B wf).window (ix3 e a b) 1
          < (⟨3, ![N, A, B]⟩ : Shape).size 1 := by
      rw [hs1, hw1]
      refine ⟨by omega, ?_⟩
      show (0 : Int) + ((a.val : Nat) : Int) < ((A : Nat) : Int)
      omega
    have p2 : 0 ≤ (slabDims N E A B wf).start (ix3 e a b) idx 2 + (slabDims N E A B wf).window (ix3 e a b) 2
        ∧ (slabDims N E A B wf).start (ix3 e a b) idx 2 + (slabDims N E A B wf).window (ix3 e a b) 2
          < (⟨3, ![N, A, B]⟩ : Shape).size 2 := by
      rw [hs2, hw2]
      refine ⟨by omega, ?_⟩
      show (0 : Int) + ((b.val : Nat) : Int) < ((B : Nat) : Int)
      omega
    have h : ∀ x, 0 ≤ (slabDims N E A B wf).start (ix3 e a b) idx x + (slabDims N E A B wf).window (ix3 e a b) x
        ∧ (slabDims N E A B wf).start (ix3 e a b) idx x + (slabDims N E A B wf).window (ix3 e a b) x
          < (⟨3, ![N, A, B]⟩ : Shape).size x := fun x =>
      match x with
      | ⟨0, _⟩ => p0
      | ⟨1, _⟩ => p1
      | ⟨2, _⟩ => p2
    rw [dif_pos h]
    refine congrArg some (funext fun x => Fin.ext ?_)
    match x with
    | ⟨0, _⟩ =>
      show ((slabDims N E A B wf).start (ix3 e a b) idx 0 + (slabDims N E A B wf).window (ix3 e a b) 0).toNat = n.val
      rw [hs0, hw0, h0]; omega
    | ⟨1, _⟩ =>
      show ((slabDims N E A B wf).start (ix3 e a b) idx 1 + (slabDims N E A B wf).window (ix3 e a b) 1).toNat = a.val
      rw [hs1, hw1]; omega
    | ⟨2, _⟩ =>
      show ((slabDims N E A B wf).start (ix3 e a b) idx 2 + (slabDims N E A B wf).window (ix3 e a b) 2).toNat = b.val
      rw [hs2, hw2]; omega

/-- THE SLAB SCATTER READ AT AN ENTRY, on the extended reals: the operand's entry plus the update entries at the same
    position of the slabs whose index is `n`. -/
theorem hostScatterAdd_slabs (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (slabDims N E A B wf) x idx upd (ix3 n a b)
      = x (ix3 n a b) + ∑ e : Fin E, if (idx (ix2 e (0 : Fin 1))).toInt = (n.val : Int) then upd (ix3 e a b) else 0 := by
  unfold Ideal.hostScatterAdd
  refine congrArg (x (ix3 n a b) + ·) ?_
  rw [Finset.sum_filter, sum_idx3]
  refine Finset.sum_congr rfl fun e _ => ?_
  simp only [resultIdx?_iff]
  by_cases hq : (idx (ix2 e (0 : Fin 1))).toInt = (n.val : Int)
  · simp only [hq, true_and]
    rw [Finset.sum_eq_single a (fun a' _ ha' => by
        refine Finset.sum_eq_zero fun b' _ => ?_
        rw [if_neg (fun h => ha' h.1)]) (fun h => absurd (Finset.mem_univ a) h)]
    rw [Finset.sum_eq_single b (fun b' _ hb' => by rw [if_neg (fun h => hb' h.2)])
        (fun h => absurd (Finset.mem_univ b) h)]
    rw [if_pos ⟨rfl, rfl⟩, if_pos trivial]
  · simp only [hq, false_and, if_false, Finset.sum_const_zero]

/-- The same for the host operation as a program prints it, read at the exact instance. -/
theorem scatterAdd_slabs (x : FVec Ideal ⟨3, ![N, A, B]⟩ .f32) (idx : IVec ⟨2, ![E, 1]⟩ w)
    (upd : FVec Ideal ⟨3, ![E, A, B]⟩ .f32) (n : Fin N) (a : Fin A) (b : Fin B) :
    Host.scatterAdd (F := Ideal) (slabDims N E A B wf) x idx upd (ix3 n a b)
      = x (ix3 n a b) + ∑ e : Fin E, if (idx (ix2 e (0 : Fin 1))).toInt = (n.val : Int) then upd (ix3 e a b) else 0 :=
  hostScatterAdd_slabs wf x idx upd n a b

end LibScatterAddSlabs

end
-- ==== Proof.RefStages.lean ====
/-
  The reference's stages read at an entry, in the row functions of `LayerSpec`.

  The reference computes the same layer with whole-array host operations: products with the whole weight matrices
  (the first layers' inputs stacked side by side), bias rows broadcast, `x · 1/(1 + e^(-x))` spelt out with a negation,
  an exponential, an addition and a division. Read at an entry, on the extended reals: that spelling is `silu`
  (the constant one's pattern denotes 1, and the logistic function IS `1/(1 + e^(-x))`); a product is the plain sum over the
  contracted index; a stack of arrays side by side reads the piece the column falls in.
-/
import proofs.«102740_j91328184582715_1_alg».proof.Proof.RefRead
import proofs.«102740_j91328184582715_1_alg».proof.Proof.LayerSpec
import proofs.«102740_j91328184582715_1_alg».proof.Proof.LibScatterAddSlabs
import proofs.«102740_j91328184582715_1_alg».proof.Proof.LibScatterAddRows
import Idealize.ShloMosaic.Lib.Pipeline.Value
import Idealize.ShloMosaic.Lib.ValueIdx
import Idealize.ShloMosaic.PureOps.Ideal.Laws

noncomputable section

open scoped BigOperators

namespace Cert.ReferenceIdeal.Stages

open Cert.ReferenceIdeal Cert.ReferenceIdeal.ReadP Cert.Layer
open Idealize.ShloMosaic Idealize.ShloMosaic.ValueIdx

/-- The host's spelling of `x · σ(x)`: the pattern `0x3F800000` denotes 1, and `σ(x) = 1 / (1 + e^(-x))`. -/
theorem silu_host (x : EReal) :
    FloatOps.mulf (F := Ideal) (φ := .f32) x (FloatOps.hostDivf (FloatOps.ofBits .f32 0x3F800000#32)
      (FloatOps.addf (FloatOps.ofBits .f32 0x3F800000#32) (FloatOps.hostUnary .exp (FloatOps.hostNegf x)))) = silu x := by
  have h1 : (FloatOps.ofBits (F := Ideal) .f32 0x3F800000#32 : Ideal .f32) = 1 := IdealRules.sign_bit.ideal_onePat .f32
  rw [h1]
  rfl

variable (x0 : (⟨S50000x128, .f32⟩ : BufTy).Contents (Elt Ideal)) (x1 : (⟨S2x800000, .i32⟩ : BufTy).Contents (Elt Ideal))
  (x2 : (⟨S50000x2x3, .f32⟩ : BufTy).Contents (Elt Ideal)) (x3 : (⟨S262x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x128, .f32⟩ : BufTy).Contents (Elt Ideal))
  (x12 : (⟨S128, .f32⟩ : BufTy).Contents (Elt Ideal)) (x13 : (⟨S128x2, .f32⟩ : BufTy).Contents (Elt Ideal))

/-! ## Index maps of the products and broadcasts, at explicit coordinates -/

theorem l71 (e : Fin 800000) (k : Fin 128) (k' : Fin 262) : lidx_main_v71 (ix2 e k) k' = ix2 e k' :=
  funext fun a => by match a with | ⟨0, _⟩ => rfl | ⟨1, _⟩ => rfl
theorem r71 (e : Fin 800000) (k : Fin 128) (k' : Fin 262) : ridx_main_v71 (ix2 e k) k' = ix2 k' k :=
  funext fun a => by match a with | ⟨0, _⟩ => rfl | ⟨1, _⟩ => rfl
theorem b73 (e : Fin 800000) (k : Fin 128) : idx_main_v72 (idx_main_v73 (ix2 e k)) = ix1 k :=
  funext fun a => by match a with | ⟨0, _⟩ => rfl
theorem l76 (e : Fin 800000) (j : Fin 128) (k : Fin 128) : lidx_main_v76 (ix2 e j) k = ix2 e k :=
  funext fun a => by match a with | ⟨0, _⟩ => rfl | ⟨1, _⟩ => rfl
theorem r76 (e : Fin 800000) (j : Fin 128) (k : Fin 128) : ridx_main_v76 (ix2 e j) k = ix2 k j :=
  funext fun a => by match a with | ⟨0, _⟩ => rfl | ⟨1, _⟩ => rfl
theorem b78 (e : Fin 800000) (j : Fin 128) : idx_main_v77 (idx_main_v78 (ix2 e j)) = ix1 j :=
  funext fun a => by match a with | ⟨0, _⟩ => rfl
theorem l81 (e : Fin 800000) (j : Fin 128) (k : Fin 128) : lidx_main_v81 (ix2 e j) k = ix2 e k :=
  funext fun a => by match a with | ⟨0, _⟩ => rfl | ⟨1, _⟩ => rfl
theorem r81 (e : Fin 800000) (j : Fin 128) (k : Fin 128) : ridx_main_v81 (ix2 e j) k = ix2 k j :=
  funext fun a => by match a with | ⟨0, _⟩ => rfl | ⟨1, _⟩ => rfl
theorem b83 (e : Fin 800000) (j : Fin 128) : idx_main_v82 (idx_main_v83 (ix2 e j)) = ix1 j :=
  funext fun a => by match a with | ⟨0, _⟩ => rfl
theorem l86 (e : Fin 800000) (c : Fin 2) (k : Fin 128) : lidx_main_v86 (ix2 e c) k = ix2 e k :=
  funext fun a => by match a with | ⟨0, _⟩ => rfl | ⟨1, _⟩ => rfl
theorem r86 (e : Fin 800000) (c : Fin 2) (k : Fin 128) : ridx_main_v86 (ix2 e c) k = ix2 k c :=
  funext fun a => by match a with | ⟨0, _⟩ => rfl | ⟨1, _⟩ => rfl
theorem b88 (e : Fin 800000) (c : Fin 2) (d : Fin 3) : idx_main_v87 (idx_main_v88 (ix3 e c d)) = ix2 e c :=
  funext fun a => by match a with | ⟨0, _⟩ => rfl | ⟨1, _⟩ => rfl
theorem l106 (n : Fin 50000) (j : Fin 128) (k : Fin 256) : lidx_main_v106 (ix2 n j) k = ix2 n k :=
  funext fun a => by match a with | ⟨0, _⟩ => rfl | ⟨1, _⟩ => rfl
theorem r106 (n : Fin 50000) (j : Fin 128) (k : Fin 256) : ridx_main_v106 (ix2 n j) k = ix2 k j :=
  funext fun a => by match a with | ⟨0, _⟩ => rfl | ⟨1, _⟩ => rfl
theorem b108 (n : Fin 50000) (j : Fin 128) : idx_main_v107 (idx_main_v108 (ix2 n j)) = ix1 j :=
  funext fun a => by match a with | ⟨0, _⟩ => rfl
theorem l111 (n : Fin 50000) (j : Fin 128) (k : Fin 128) : lidx_main_v111 (ix2 n j) k = ix2 n k :=
  funext fun a => by match a with | ⟨0, _⟩ => rfl | ⟨1, _⟩ => rfl
theorem r111 (n : Fin 50000) (j : Fin 128) (k : Fin 128) : ridx_main_v111 (ix2 n j) k = ix2 k j :=
  funext fun a => by match a with | ⟨0, _⟩ => rfl | ⟨1, _⟩ => rfl
theorem b113 (n : Fin 50000) (j : Fin 128) : idx_main_v112 (idx_main_v113 (ix2 n j)) = ix1 j :=
  funext fun a => by match a with | ⟨0, _⟩ => rfl

/-! ## The edge layers -/

/-- The first edge layer after its `silu`. -/
theorem v75_at (e : Fin 800000) (k : Fin 128) :
    val_main_v75 (F := Ideal) x0 x1 x2 x3 x4 (ix2 e k)
      = silu (lin (fun k' => val_main_v70 (F := Ideal) x0 x1 x2 (ix2 e k')) (fun k' => x3 (ix2 k' k)) (x4 (ix1 k))) := by
  simp only [val_main_v75_apply, val_main_call3_v5_apply, val_main_call3_v4_apply, val_main_call3_cst_0_apply, val_main_call3_v3_apply,
    val_main_call3_v2_apply, val_main_call3_cst_apply, val_main_call3_v1_apply, val_main_call3_v0_apply, silu_host]
  rw [val_main_v74_apply, val_main_v71_apply, val_main_v73_apply, val_main_v72_apply]
  simp only [l71, r71, b73]
  rfl

/-- THE MESSAGE, in the stacked spelling. -/
theorem v80_at (e : Fin 800000) (j : Fin 128) :
    val_main_v80 (F := Ideal) x0 x1 x2 x3 x4 x5 x6 (ix2 e j)
      = msgRowStacked (fun k' => val_main_v70 (F := Ideal) x0 x1 x2 (ix2 e k')) (fun k' k => x3 (ix2 k' k)) (fun k => x4 (ix1 k))
          (fun k' k => x5 (ix2 k' k)) (fun k => x6 (ix1 k)) j := by
  simp only [val_main_v80_apply, val_main_call4_v5_apply, val_main_call4_v4_apply, val_main_call4_cst_0_apply, val_main_call4_v3_apply,
    val_main_call4_v2_apply, val_main_call4_cst_apply, val_main_call4_v1_apply, val_main_call4_v0_apply, silu_host]
  rw [val_main_v79_apply, val_main_v76_apply, val_main_v78_apply, val_main_v77_apply]
  simp only [l76, r76, b78, v75_at]
  rfl

/-- THE COORDINATE WEIGHTS. -/
theorem v86_at (e : Fin 800000) (c : Fin 2) :
    val_main_v86 (F := Ideal) x0 x1 x2 x3 x4 x5 x6 x11 x12 x13 (ix2 e c)
      = cwRow (fun k => val_main_v80 (F := Ideal) x0 x1 x2 x3 x4 x5 x6 (ix2 e k)) (fun k' k => x11 (ix2 k' k)) (fun k => x12 (ix1 k))
          (fun k c => x13 (ix2 k c)) c := by
  rw [val_main_v86_apply]
  simp only [l86, r86]
  unfold cwRow
  refine Finset.sum_congr rfl fun k _ => ?_
  refine congrArg (· * x13 (ix2 k c)) ?_
  simp only [val_main_v85_apply, val_main_call5_v5_apply, val_main_call5_v4_apply, val_main_call5_cst_0_apply, val_main_call5_v3_apply,
    val_main_call5_v2_apply, val_main_call5_cst_apply, val_main_call5_v1_apply, val_main_call5_v0_apply, silu_host]
  rw [val_main_v84_apply, val_main_v81_apply, val_main_v83_apply, val_main_v82_apply]
  simp only [l81, r81, b83]
  rfl

/-- THE TRANSLATIONS: the coordinate difference times the channel's weight. -/
theorem v89_at (e : Fin 800000) (c : Fin 2) (d : Fin 3) :
    val_main_v89 (F := Ideal) x0 x1 x2 x3 x4 x5 x6 x11 x12 x13 (ix3 e c d)
      = val_main_v18 (F := Ideal) x1 x2 (ix3 e c d) * val_main_v86 (F := Ideal) x0 x1 x2 x3 x4 x5 x6 x11 x12 x13 (ix2 e c) := by
  rw [val_main_v89_apply, val_main_v88_apply, val_main_v87_apply, b88]
  rfl

/-! ## The node layers -/

/-- The first node layer after its `silu`. -/
theorem v110_at (n : Fin 50000) (k : Fin 128) :
    val_main_v110 (F := Ideal) x0 x1 x2 x3 x4 x5 x6 x7 x8 (ix2 n k)
      = silu (lin (fun k' => val_main_v105 (F := Ideal) x0 x1 x2 x3 x4 x5 x6 (ix2 n k')) (fun k' => x7 (ix2 k' k)) (x8 (ix1 k))) := by
  simp only [val_main_v110_apply, val_main_call7_v5_apply, val_main_call7_v4_apply, val_main_call7_cst_0_apply, val_main_call7_v3_apply,
    val_main_call7_v2_apply, val_main_call7_cst_apply, val_main_call7_v1_apply, val_main_call7_v0_apply, silu_host]
  rw [val_main_v109_apply, val_main_v106_apply, val_main_v108_apply, val_main_v107_apply]
  simp only [l106, r106, b108]
  rfl

/-- THE NODE UPDATE, in the stacked spelling. -/
theorem v115_at (n : Fin 50000) (j : Fin 128) :
    val_main_v115 (F := Ideal) x0 x1 x2 x3 x4 x5 x6 x7 x8 x9 x10 (ix2 n j)
      = nodeRowStacked (fun k => x0 (ix2 n k)) (fun k' => val_main_v105 (F := Ideal) x0 x1 x2 x3 x4 x5 x6 (ix2 n k'))
          (fun k' k => x7 (ix2 k' k)) (fun k => x8 (ix1 k)) (fun k' k => x9 (ix2 k' k)) (fun k => x10 (ix1 k)) j := by
  rw [val_main_v115_apply, val_main_v114_apply, val_main_v111_apply, val_main_v113_apply, val_main_v112_apply]
  simp only [l111, r111, b113, v110_at]
  rfl

/-! ## The stacked inputs -/

/-- The first edge layer's stacked input reads the piece its column falls in: source features, target features,
    radial features. -/
theorem v70_at (e : Fin 800000) (k' : Fin 262) :
    val_main_v70 (F := Ideal) x0 x1 x2 (ix2 e k')
      = stack3 (fun k => val_main_v62 (F := Ideal) x0 x1 (ix2 e k)) (fun k => val_main_v69 (F := Ideal) x0 x1 (ix2 e k))
          (fun k => val_main_v55 (F := Ideal) x1 x2 (ix2 e k)) k' := by
  unfold val_main_v70 stack3
  generalize val_main_v62 (F := Ideal) x0 x1 = A
  generalize val_main_v69 (F := Ideal) x0 x1 = B
  generalize val_main_v55 (F := Ideal) x1 x2 = R
  by_cases h1 : k'.val < 128
  · rw [dif_pos h1]
    exact concatenate_apply_piece 1 _ _ (ix2 e k') 0 (by show 0 < 3; omega) S800000x128 A rfl rfl 0 rfl (ix2 e ⟨k'.val, h1⟩)
      (fun b hb => by match b with | ⟨0, _⟩ => rfl | ⟨1, _⟩ => exact absurd rfl hb)
      (by show 0 + k'.val = k'.val; omega)
  · rw [dif_neg h1]
    by_cases h2 : k'.val < 256
    · rw [dif_pos h2]
      exact concatenate_apply_piece 1 _ _ (ix2 e k') 1 (by show 1 < 3; omega) S800000x128 B rfl rfl 128 rfl
        (ix2 e ⟨k'.val - 128, by omega⟩)
        (fun b hb => by match b with | ⟨0, _⟩ => rfl | ⟨1, _⟩ => exact absurd rfl hb)
        (by show 128 + (k'.val - 128) = k'.val; omega)
    · rw [dif_neg h2]
      exact concatenate_apply_piece 1 _ _ (ix2 e k') 2 (by show 2 < 3; omega) S800000x6 R rfl rfl 256 rfl
        (ix2 e ⟨k'.val - 256, by have := k'.isLt; omega⟩)
        (fun b hb => by match b with | ⟨0, _⟩ => rfl | ⟨1, _⟩ => exact absurd rfl hb)
        (by show 256 + (k'.val - 256) = k'.val; omega)

/-- The first node layer's stacked input: the node's features, then its aggregated messages. -/
theorem v105_at (n : Fin 50000) (k' : Fin 256) :
    val_main_v105 (F := Ideal) x0 x1 x2 x3 x4 x5 x6 (ix2 n k')
      = stack2 (fun k => x0 (ix2 n k)) (fun k => val_main_v104 (F := Ideal) x0 x1 x2 x3 x4 x5 x6 (ix2 n k)) k' := by
  unfold val_main_v105 stack2
  generalize val_main_v104 (F := Ideal) x0 x1 x2 x3 x4 x5 x6 = G
  by_cases h1 : k'.val < 128
  · rw [dif_pos h1]
    exact concatenate_pair_apply_left 1 x0 G _ (ix2 n k') rfl (ix2 n ⟨k'.val, h1⟩)
      (fun b => by match b with | ⟨0, _⟩ => rfl | ⟨1, _⟩ => rfl)
  · rw [dif_neg h1]
    exact concatenate_pair_apply_right 1 x0 G _ (ix2 n k') rfl rfl (ix2 n ⟨k'.val - 128, by have := k'.isLt; omega⟩)
      (fun b hb => by match b with | ⟨0, _⟩ => rfl | ⟨1, _⟩ => exact absurd rfl hb)
      (by show (k'.val - 128) + 128 = k'.val; omega)

/-! ## The aggregations -/

/-- The aggregated translations at `(n, c, d)`: the translations at `(e, c, d)` of the edges whose receiving node is `n`,
    added up from zero. -/
theorem v92_at (n : Fin 50000) (c : Fin 2) (d : Fin 3) :
    val_main_v92 (F := Ideal) x0 x1 x2 x3 x4 x5 x6 x11 x12 x13 (ix3 n c d)
      = Ideal.ofBits .f32 0x00000000#32 + ∑ e : Fin 800000,
          if (val_main_v91 (F := Ideal) x1 (ix2 e (0 : Fin 1))).toInt = (n.val : Int)
          then val_main_v89 (F := Ideal) x0 x1 x2 x3 x4 x5 x6 x11 x12 x13 (ix3 e c d) else 0 := by
  unfold val_main_v92
  generalize val_main_v89 (F := Ideal) x0 x1 x2 x3 x4 x5 x6 x11 x12 x13 = U
  generalize val_main_v91 (F := Ideal) x1 = I
  refine (LibScatterAddSlabs.scatterAdd_slabs (N := 50000) (E := 800000) (A := 2) (B := 3)
    scatter_S50000x2x3_S800000x1_S800000x2x3_12_0_0_1.wf (val_main_v90 (F := Ideal)) I U n c d).trans ?_
  rfl

end Cert.ReferenceIdeal.Stages

end
-- ==== Proof.Results.lean ====
/-
  The kernel program's two results are the reference's last stages, as functions of the argument arrays (the
  extended reals).

  Region 0 leaves the message array and the flat translation array (`RegionArrays`), functions of the arrays the host
  operations built (`KernelHostValues`); those are the reference's own stages (`HostStagesAgree`), its stacked inputs read
  piece by piece (`RefStages`), and its weight matrices read slab by slab (`KernelGlue`). So the message array is the
  reference's message stage and the flat translation at `3c + d` is the reference's translation at `(c, d)` (`RowBridge`).
  The host then aggregates them over the edges arriving at each node — the same sums on both sides, flat or not — and
  region 1 updates the node features from the aggregated messages: the reference's last stage again.
-/
import proofs.«102740_j91328184582715_1_alg».proof.Proof.KernelIdealRegions
import proofs.«102740_j91328184582715_1_alg».proof.Proof.RegionArrays
import proofs.«102740_j91328184582715_1_alg».proof.Proof.RowBridge
import proofs.«102740_j91328184582715_1_alg».proof.Proof.KernelGlue
import proofs.«102740_j91328184582715_1_alg».proof.Proof.KernelHostValues
import proofs.«102740_j91328184582715_1_alg».proof.Proof.HostStagesAgree
import proofs.«102740_j91328184582715_1_alg».proof.Proof.RefStages

set_option maxRecDepth 16384

noncomputable section

open scoped BigOperators

namespace Cert.KernelIdeal.Res

open Cert.KernelIdeal Cert.KernelIdeal.Gen Cert.KernelIdeal.Reg Cert.KernelIdeal.Arr Cert.KernelIdeal.HostVal
open Cert.KernelIdeal.Glue Cert.KernelIdeal.Bridge Cert.Layer
open Cert.ReferenceIdeal.ReadP
open Idealize.ShloMosaic Idealize.ShloMosaic.TcCoe Idealize.ShloMosaic.ValueIdx Idealize.SL.Sem

variable (m : (ℓ : Loc nD τ sig) → Buf (Elt Ideal) ℓ) (c : Dev nD)

set_option quotPrecheck false
local notation "A0" => (m ((c.tc : Thread nD τ).loc main_arg0) : FVec Ideal S50000x128 .f32)
local notation "A1" => (m ((c.tc : Thread nD τ).loc main_arg1) : IVec S2x800000 32)
local notation "A2" => (m ((c.tc : Thread nD τ).loc main_arg2) : FVec Ideal S50000x2x3 .f32)
local notation "A3" => (m ((c.tc : Thread nD τ).loc main_arg3) : FVec Ideal S262x128 .f32)
local notation "A4" => (m ((c.tc : Thread nD τ).loc main_arg4) : FVec Ideal S128 .f32)
local notation "A5" => (m ((c.tc : Thread nD τ).loc main_arg5) : FVec Ideal S128x128 .f32)
local notation "A6" => (m ((c.tc : Thread nD τ).loc main_arg6) : FVec Ideal S128 .f32)
local notation "A7" => (m ((c.tc : Thread nD τ).loc main_arg7) : FVec Ideal S256x128 .f32)
local notation "A8" => (m ((c.tc : Thread nD τ).loc main_arg8) : FVec Ideal S128 .f32)
local notation "A9" => (m ((c.tc : Thread nD τ).loc main_arg9) : FVec Ideal S128x128 .f32)
local notation "A10" => (m ((c.tc : Thread nD τ).loc main_arg10) : FVec Ideal S128 .f32)
local notation "A11" => (m ((c.tc : Thread nD τ).loc main_arg11) : FVec Ideal S128x128 .f32)
local notation "A12" => (m ((c.tc : Thread nD τ).loc main_arg12) : FVec Ideal S128 .f32)
local notation "A13" => (m ((c.tc : Thread nD τ).loc main_arg13) : FVec Ideal S128x2 .f32)

/-! ## The message -/

/-- The kernel's message entry, over the host-built arrays, is the reference's message stage there. -/
theorem msg_core (e : Fin 800000) (j : Fin 128) :
    msgAt (truncf (F := Ideal) .bf16 (HR A0 A1) bitsLt_bf16_f32 : FVec Ideal S800000x128 .bf16) (truncf (F := Ideal) .bf16 (HC A0 A1) bitsLt_bf16_f32 : FVec Ideal S800000x128 .bf16) (EXTRA A1 A2 : FVec Ideal S800000x12 .f32)
      (truncf (F := Ideal) .bf16 (extractStridedSlice S128x128 ![0, 0] A3 slices_S262x128_S128x128_0_0) bitsLt_bf16_f32 : FVec Ideal S128x128 .bf16)
      (truncf (F := Ideal) .bf16 (extractStridedSlice S128x128 ![128, 0] A3 slices_S262x128_S128x128_128_0) bitsLt_bf16_f32 : FVec Ideal S128x128 .bf16)
      (truncf (F := Ideal) .bf16 (extractStridedSlice S6x128 ![256, 0] A3 slices_S262x128_S6x128_256_0) bitsLt_bf16_f32 : FVec Ideal S6x128 .bf16)
      (shapeCast S1x128 A4 shapeCasts_S128_S1x128 : FVec Ideal S1x128 .f32) (truncf (F := Ideal) .bf16 A5 bitsLt_bf16_f32 : FVec Ideal S128x128 .bf16) (shapeCast S1x128 A6 shapeCasts_S128_S1x128 : FVec Ideal S1x128 .f32) e j
      = val_main_v80 (F := Ideal) A0 A1 A2 A3 A4 A5 A6 (ix2 e j) := by
  rw [Cert.ReferenceIdeal.Stages.v80_at]
  refine msg_eq _ _ _ _ _ _ _ _ _ (val_main_v70 (F := Ideal) A0 A1 A2) A3 A4 A5 A6 ?_ ?_ ?_ ?_ ?_ ?_ ?_ e j
  · intro e k'
    rw [Cert.ReferenceIdeal.Stages.v70_at]
    have h3 : (fun k : Fin 6 => (EXTRA A1 A2 : FVec Ideal S800000x12 .f32) (ix2 e ⟨k.val, by have := k.isLt; omega⟩))
        = fun k : Fin 6 => val_main_v55 (F := Ideal) A1 A2 (ix2 e k) :=
      funext fun k => (extra_left (RAD A1 A2) (DIFF3 A1 A2) e k).trans (congrFun (RAD_eq_ref (F := Ideal) A1 A2) _)
    rw [h3]
    rfl
  · exact fun k' k => we1a A3 k' k
  · exact fun k' k => we1b A3 k' k
  · exact fun k' k => we1c A3 k' k
  · exact fun k => bias_row A4 k
  · exact fun k' k => rfl
  · exact fun k => bias_row A6 k

/-- THE MESSAGE ARRAY region 0 leaves is the reference's message stage. -/
theorem msg_out : (outs m 8 main_v86_0 c : FVec Ideal S800000x128 .f32) = val_main_v80 (F := Ideal) A0 A1 A2 A3 A4 A5 A6 := by
  rw [outs_8_0 m c, final12 (Vat7 m) c]
  show msgArr (V7 m c main_v72) (V7 m c main_v73) (V7 m c main_v71) (V7 m c main_v75) (V7 m c main_v77) (V7 m c main_v79)
    (V7 m c main_v80) (V7 m c main_v81) (V7 m c main_v82) = _
  rw [V7_v72 m c, V7_v73 m c, V7_v71 m c, V7_v75 m c, V7_v77 m c, V7_v79 m c, V7_v80 m c, V7_v81 m c, V7_v82 m c]
  funext i
  obtain ⟨e, j, rfl⟩ : ∃ (e : Fin 800000) (j : Fin 128), i = ix2 e j := ⟨i 0, i 1, eq_ix2 i⟩
  exact msg_core m c e j

/-! ## The translations -/

/-- THE FLAT TRANSLATION region 0 leaves at `(e, 3c + d)` is the reference's translation at `(e, c, d)`. -/
theorem trans_out (e : Fin 800000) (ch : Fin 2) (d : Fin 3) :
    (outs m 8 main_v86_1 c : FVec Ideal S800000x6 .f32) (ix2 e (⟨3 * ch.val + d.val, by have := ch.isLt; have := d.isLt; omega⟩ : Fin 6))
      = val_main_v89 (F := Ideal) A0 A1 A2 A3 A4 A5 A6 A11 A12 A13 (ix3 e ch d) := by
  rw [outs_8_1 m c, final13 (Vat7 m) c]
  show transArr (V7 m c main_v72) (V7 m c main_v73) (V7 m c main_v71) (V7 m c main_v75) (V7 m c main_v77) (V7 m c main_v79)
    (V7 m c main_v80) (V7 m c main_v81) (V7 m c main_v82) (V7 m c main_v83) (V7 m c main_v84) (V7 m c main_v85) _ = _
  rw [V7_v72 m c, V7_v73 m c, V7_v71 m c, V7_v75 m c, V7_v77 m c, V7_v79 m c, V7_v80 m c, V7_v81 m c, V7_v82 m c,
    V7_v83 m c, V7_v84 m c, V7_v85 m c]
  show transAt (truncf (F := Ideal) .bf16 (HR A0 A1) bitsLt_bf16_f32 : FVec Ideal S800000x128 .bf16) (truncf (F := Ideal) .bf16 (HC A0 A1) bitsLt_bf16_f32 : FVec Ideal S800000x128 .bf16) (EXTRA A1 A2 : FVec Ideal S800000x12 .f32)
      (truncf (F := Ideal) .bf16 (extractStridedSlice S128x128 ![0, 0] A3 slices_S262x128_S128x128_0_0) bitsLt_bf16_f32 : FVec Ideal S128x128 .bf16)
      (truncf (F := Ideal) .bf16 (extractStridedSlice S128x128 ![128, 0] A3 slices_S262x128_S128x128_128_0) bitsLt_bf16_f32 : FVec Ideal S128x128 .bf16)
      (truncf (F := Ideal) .bf16 (extractStridedSlice S6x128 ![256, 0] A3 slices_S262x128_S6x128_256_0) bitsLt_bf16_f32 : FVec Ideal S6x128 .bf16)
      (shapeCast S1x128 A4 shapeCasts_S128_S1x128 : FVec Ideal S1x128 .f32) (truncf (F := Ideal) .bf16 A5 bitsLt_bf16_f32 : FVec Ideal S128x128 .bf16) (shapeCast S1x128 A6 shapeCasts_S128_S1x128 : FVec Ideal S1x128 .f32)
      (truncf (F := Ideal) .bf16 A11 bitsLt_bf16_f32 : FVec Ideal S128x128 .bf16) (shapeCast S1x128 A12 shapeCasts_S128_S1x128 : FVec Ideal S1x128 .f32) (truncf (F := Ideal) .bf16 A13 bitsLt_bf16_f32 : FVec Ideal S128x2 .bf16) e ⟨3 * ch.val + d.val, _⟩ = _
  rw [Cert.ReferenceIdeal.Stages.v89_at, Cert.ReferenceIdeal.Stages.v86_at]
  exact trans_eq _ _ _ _ _ _ _ _ _ _ _ _ (val_main_v80 (F := Ideal) A0 A1 A2 A3 A4 A5 A6) (val_main_v18 (F := Ideal) A1 A2) A11 A12 A13
    (fun e k => msg_core m c e k)
    (fun e ch d => (extra_right (RAD A1 A2) (DIFF3 A1 A2) e ch d).trans (congrFun (DIFF3_eq_ref (F := Ideal) A1 A2) _))
    (fun k' k => rfl) (fun k => bias_row A12 k) (fun k ch => rfl) e ch d

/-! ## The two results -/

/-- THE COORDINATE RESULT of the kernel program is the reference's. -/
theorem coord_out : (V12 m (outs m) c main_v102 : FVec Ideal S50000x2x3 .f32)
    = val_main_v101 (F := Ideal) A0 A1 A2 A3 A4 A5 A6 A11 A12 A13 := by
  rw [V12_v102 m (outs m) c, cntDiv_eq_ref (F := Ideal) A1]
  unfold val_main_v101 val_main_v100
  refine congrArg (fun z => addf A2 (Host.divf (F := Ideal) z (val_main_v99 (F := Ideal) A1))) ?_
  funext i
  obtain ⟨n, ch, d, rfl⟩ : ∃ (n : Fin 50000) (ch : Fin 2) (d : Fin 3), i = ix3 n ch d := ⟨i 0, i 1, i 2, eq_ix3 i⟩
  refine (aggc_at _ _ n ch d).trans ?_
  rw [Cert.ReferenceIdeal.Stages.v92_at]
  refine congrArg (Ideal.ofBits .f32 0x00000000#32 + ·) (Finset.sum_congr rfl fun e _ => ?_)
  exact if_congr Iff.rfl (trans_out m c e ch d) rfl

/-- THE FEATURE RESULT of the kernel program is the reference's. -/
theorem feat_out : (V12 m (outs m) c main_v110 : FVec Ideal S50000x128 .f32)
    = val_main_v115 (F := Ideal) A0 A1 A2 A3 A4 A5 A6 A7 A8 A9 A10 := by
  rw [V12_v110 m (outs m) c, outs_12 m c, final7 (Vat11 m) c]
  show nodeArr (V11 m (outs m) c main_arg0) (V11 m (outs m) c main_v89) (V11 m (outs m) c main_v104) (V11 m (outs m) c main_v106)
    (V11 m (outs m) c main_v107) (V11 m (outs m) c main_v108) (V11 m (outs m) c main_v109) = _
  rw [V11_arg0 m (outs m) c, V11_v89 m (outs m) c, V11_v104 m (outs m) c, V11_v106 m (outs m) c, V11_v107 m (outs m) c,
    V11_v108 m (outs m) c, V11_v109 m (outs m) c, msg_out m c]
  funext i
  obtain ⟨n, j, rfl⟩ : ∃ (n : Fin 50000) (j : Fin 128), i = ix2 n j := ⟨i 0, i 1, eq_ix2 i⟩
  show nodeAt _ _ _ _ _ _ _ n j = _
  rw [Cert.ReferenceIdeal.Stages.v115_at]
  refine node_eq _ _ _ _ _ _ _ (val_main_v105 (F := Ideal) A0 A1 A2 A3 A4 A5 A6) A7 A8 A9 A10 ?_ ?_ ?_ ?_ ?_ ?_ n j
  · intro n k'
    rw [Cert.ReferenceIdeal.Stages.v105_at]
    rfl
  · exact fun k' k => wn1a A7 k' k
  · exact fun k' k => wn1b A7 k' k
  · exact fun k => bias_row A8 k
  · exact fun k' k => rfl
  · exact fun k => bias_row A10 k

end Cert.KernelIdeal.Res

end
-- ==== Proof.LibAfter.lean ====
/-
  The contents after two lines of host operations run one after the other: the second line's fold over the first's.

  General in the topology, the signature and the element values; imports Lib/StableHlo/Run only.
-/
import Idealize.ShloMosaic.Lib.StableHlo.Run

namespace Cert.After

open Idealize.ShloMosaic

/-- Folding a concatenation is folding the second list over the first list's fold. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.After
-- ==== Proof.RefChunks.lean ====
/-
  The reference program's line of host operations, cut into 8 consecutive stages, with the list of references each
  stage writes. The contents after the whole line are the contents after the last stage run over the contents after the
  one before it, and so on down to the first; a reference a stage does not write keeps its contents through that stage.
  The cuts fall so that every joined array (a concatenation) is the first operation of a stage or reads only arguments
  and arrays of earlier stages: its pieces are then known contents, not unevaluated results.
-/
import proofs.«102740_j91328184582715_1_alg».proof.Proof.RefRunRaw
import proofs.«102740_j91328184582715_1_alg».proof.Proof.LibAfter
import Idealize.ShloMosaic.Lib.StableHlo.Run

noncomputable section

namespace Cert.ReferenceIdeal.RunVal

open Cert.ReferenceIdeal Cert.ReferenceIdeal.Gen Idealize.ShloMosaic Idealize.ShloMosaic.TcCoe Idealize.SL.Sem Idealize.ShloMosaic.StableHlo

variable {F : FTy → Type} [FloatOps F]

/-- Stage 1: the two index rows of the edge list, the gathered end-point coordinates and their difference. -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg2 main_v9 main_v10 ((fun x i => Host.gather gather_S50000x2x3_S800000x1_S800000x2x3_12_0_n_n_0_1_123 x i) : (⟨S50000x2x3, .f32⟩ : BufTy).Contents (Elt F) → (⟨S800000x1, .i32⟩ : BufTy).Contents (Elt F) → (⟨S800000x2x3, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg2 main_v16 main_v17 ((fun x i => Host.gather gather_S50000x2x3_S800000x1_S800000x2x3_12_0_n_n_0_1_123 x i) : (⟨S50000x2x3, .f32⟩ : BufTy).Contents (Elt F) → (⟨S800000x1, .i32⟩ : BufTy).Contents (Elt F) → (⟨S800000x2x3, .f32⟩ : BufTy).Contents (Elt F)),
    binary main_v10 main_v17 main_v18 (subf : (⟨S800000x2x3, .f32⟩ : BufTy).Contents (Elt F) → (⟨S800000x2x3, .f32⟩ : BufTy).Contents (Elt F) → (⟨S800000x2x3, .f32⟩ : BufTy).Contents (Elt F)) ]
/-- The references stage 1 writes. -/
abbrev ops1_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18]

/-- Stage 2: the six radial features of an edge, each as a column: three lengths and three normalised inner products. -/
abbrev ops2 : List (HloOp τ sig (Elt F)) :=
  [ unary main_v10 main_v19 ((extractStridedSlice S800000x1x3 ![0, 0, 0] · slices_S800000x2x3_S800000x1x3_0_0_0) : (⟨S800000x2x3, .f32⟩ : BufTy).Contents (Elt F) → (⟨S800000x1x3, .f32⟩ : BufTy).Contents (Elt F)),
    reshape main_v19 main_v20 rfl shapeCasts_S800000x1x3_S800000x3,
    unary main_v17 main_v21 ((extractStridedSlice S800000x1x3 ![0, 0, 0] · slices_S800000x2x3_S800000x1x3_0_0_0) : (⟨S800000x2x3, .f32⟩ : BufTy).Contents (Elt F) → (⟨S800000x1x3, .f32⟩ : BufTy).Contents (Elt F)),
    reshape main_v21 main_v22 rfl shapeCasts_S800000x1x3_S800000x3,
    binary main_v20 main_v22 main_v23 (subf : (⟨S800000x3, .f32⟩ : BufTy).Contents (Elt F) → (⟨S800000x3, .f32⟩ : BufTy).Contents (Elt F) → (⟨S800000x3, .f32⟩ : BufTy).Contents (Elt F)),
    TRef.binary (TRef.of (T := ⟨S800000x3, .f32⟩) main_v23) (TRef.of (T := ⟨S800000x3, .f32⟩) main_v23) (TRef.of (T := ⟨S800000x3, .f32⟩) main_call0_v0) mulf,
    TRef.nullary (TRef.of (T := ⟨S_, .f32⟩) main_call0_cst) (constant S_ .f32 0x00000000#32),
    TRef.binary (TRef.of (T := ⟨S800000x3, .f32⟩) main_call0_v0) (TRef.of (T := ⟨S_, .f32⟩) main_call0_cst) (TRef.of (T := ⟨S800000, .f32⟩) main_call0_v1) (fun x v => Host.reduceAdd x v reducesTo_S800000x3_S800000_d1 h_S_),
    TRef.unary (TRef.of (T := ⟨S800000, .f32⟩) main_call0_v1) (TRef.of (T := ⟨S800000, .f32⟩) main_v24) Host.sqrt,
    unary main_v10 main_v25 ((extractStridedSlice S800000x1x3 ![0, 1, 0] · slices_S800000x2x3_S800000x1x3_0_1_0) : (⟨S800000x2x3, .f32⟩ : BufTy).Contents (Elt F) → (⟨S800000x1x3, .f32⟩ : BufTy).Contents (Elt F)),
    reshape main_v25 main_v26 rfl shapeCasts_S800000x1x3_S800000x3,
    unary main_v10 main_v27 ((extractStridedSlice S800000x1x3 ![0, 0, 0] · slices_S800000x2x3_S800000x1x3_0_0_0) : (⟨S800000x2x3, .f32⟩ : BufTy).Contents (Elt F) → (⟨S800000x1x3, .f32⟩ : BufTy).Contents (Elt F)),
    reshape main_v27 main_v28 rfl shapeCasts_S800000x1x3_S800000x3,
    binary main_v26 main_v28 main_v29 (subf : (⟨S800000x3, .f32⟩ : BufTy).Contents (Elt F) → (⟨S800000x3, .f32⟩ : BufTy).Contents (Elt F) → (⟨S800000x3, .f32⟩ : BufTy).Contents (Elt F)),
    TRef.binary (TRef.of (T := ⟨S800000x3, .f32⟩) main_v29) (TRef.of (T := ⟨S800000x3, .f32⟩) main_v29) (TRef.of (T := ⟨S800000x3, .f32⟩) main_call1_v0) mulf,
    TRef.nullary (TRef.of (T := ⟨S_, .f32⟩) main_call1_cst) (constant S_ .f32 0x00000000#32),
    TRef.binary (TRef.of (T := ⟨S800000x3, .f32⟩) main_call1_v0) (TRef.of (T := ⟨S_, .f32⟩) main_call1_cst) (TRef.of (T := ⟨S800000, .f32⟩) main_call1_v1) (fun x v => Host.reduceAdd x v reducesTo_S800000x3_S800000_d1 h_S_),
    TRef.unary (TRef.of (T := ⟨S800000, .f32⟩) main_call1_v1) (TRef.of (T := ⟨S800000, .f32⟩) main_v30) Host.sqrt,
    binary main_v29 main_v23 main_v31 (mulf : (⟨S800000x3, .f32⟩ : BufTy).Contents (Elt F) → (⟨S800000x3, .f32⟩ : BufTy).Contents (Elt F) → (⟨S800000x3, .f32⟩ : BufTy).Contents (Elt F)),
    nullary main_cst (constant S_ .f32 0x00000000#32),
    binary main_v31 main_cst main_v32 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    binary main_v24 main_v30 main_v33 (mulf : (⟨S800000, .f32⟩ : BufTy).Contents (Elt F) → (⟨S800000, .f32⟩ : BufTy).Contents (Elt F) → (⟨S800000, .f32⟩ : BufTy).Contents (Elt F)),
    binary main_v32 main_v33 main_v34 (Host.divf : (⟨S800000, .f32⟩ : BufTy).Contents (Elt F) → (⟨S800000, .f32⟩ : BufTy).Contents (Elt F) → (⟨S800000, .f32⟩ : BufTy).Contents (Elt F)),
    unary main_v17 main_v35 ((extractStridedSlice S800000x1x3 ![0, 1, 0] · slices_S800000x2x3_S800000x1x3_0_1_0) : (⟨S800000x2x3, .f32⟩ : BufTy).Contents (Elt F) → (⟨S800000x1x3, .f32⟩ : BufTy).Contents (Elt F)),
    reshape main_v35 main_v36 rfl shapeCasts_S800000x1x3_S800000x3,
    unary main_v17 main_v37 ((extractStridedSlice S800000x1x3 ![0, 0, 0] · slices_S800000x2x3_S800000x1x3_0_0_0) : (⟨S800000x2x3, .f32⟩ : BufTy).Contents (Elt F) → (⟨S800000x1x3, .f32⟩ : BufTy).Contents (Elt F)),
    reshape main_v37 main_v38 rfl shapeCasts_S800000x1x3_S800000x3,
    binary main_v36 main_v38 main_v39 (subf : (⟨S800000x3, .f32⟩ : BufTy).Contents (Elt F) → (⟨S800000x3, .f32⟩ : BufTy).Contents (Elt F) → (⟨S800000x3, .f32⟩ : BufTy).Contents (Elt F)),
    TRef.binary (TRef.of (T := ⟨S800000x3, .f32⟩) main_v39) (TRef.of (T := ⟨S800000x3, .f32⟩) main_v39) (TRef.of (T := ⟨S800000x3, .f32⟩) main_call2_v0) mulf,
    TRef.nullary (TRef.of (T := ⟨S_, .f32⟩) main_call2_cst) (constant S_ .f32 0x00000000#32),
    TRef.binary (TRef.of (T := ⟨S800000x3, .f32⟩) main_call2_v0) (TRef.of (T := ⟨S_, .f32⟩) main_call2_cst) (TRef.of (T := ⟨S800000, .f32⟩) main_call2_v1) (fun x v => Host.reduceAdd x v reducesTo_S800000x3_S800000_d1 h_S_),
    TRef.unary (TRef.of (T := ⟨S800000, .f32⟩) main_call2_v1) (TRef.of (T := ⟨S800000, .f32⟩) main_v40) Host.sqrt,
    binary main_v39 main_v23 main_v41 (mulf : (⟨S800000x3, .f32⟩ : BufTy).Contents (Elt F) → (⟨S800000x3, .f32⟩ : BufTy).Contents (Elt F) → (⟨S800000x3, .f32⟩ : BufTy).Contents (Elt F)),
    nullary main_cst_3 (constant S_ .f32 0x00000000#32),
    binary main_v41 main_cst_3 main_v42 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    binary main_v24 main_v40 main_v43 (mulf : (⟨S800000, .f32⟩ : BufTy).Contents (Elt F) → (⟨S800000, .f32⟩ : BufTy).Contents (Elt F) → (⟨S800000, .f32⟩ : BufTy).Contents (Elt F)),
    binary main_v42 main_v43 main_v44 (Host.divf : (⟨S800000, .f32⟩ : BufTy).Contents (Elt F) → (⟨S800000, .f32⟩ : BufTy).Contents (Elt F) → (⟨S800000, .f32⟩ : BufTy).Contents (Elt F)),
    binary main_v29 main_v39 main_v45 (mulf : (⟨S800000x3, .f32⟩ : BufTy).Contents (Elt F) → (⟨S800000x3, .f32⟩ : BufTy).Contents (Elt F) → (⟨S800000x3, .f32⟩ : BufTy).Contents (Elt F)),
    nullary main_cst_4 (constant S_ .f32 0x00000000#32),
    binary main_v45 main_cst_4 main_v46 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    binary main_v30 main_v40 main_v47 (mulf : (⟨S800000, .f32⟩ : BufTy).Contents (Elt F) → (⟨S800000, .f32⟩ : BufTy).Contents (Elt F) → (⟨S800000, .f32⟩ : BufTy).Contents (Elt F)),
    binary main_v46 main_v47 main_v48 (Host.divf : (⟨S800000, .f32⟩ : BufTy).Contents (Elt F) → (⟨S800000, .f32⟩ : BufTy).Contents (Elt F) → (⟨S800000, .f32⟩ : BufTy).Contents (Elt F)),
    unary main_v24 main_v49 (broadcastInDim S800000x1 ![0] bcast_S800000_S800000x1_0 : (⟨S800000, .f32⟩ : BufTy).Contents (Elt F) → (⟨S800000x1, .f32⟩ : BufTy).Contents (Elt F)),
    unary main_v30 main_v50 (broadcastInDim S800000x1 ![0] bcast_S800000_S800000x1_0 : (⟨S800000, .f32⟩ : BufTy).Contents (Elt F) → (⟨S800000x1, .f32⟩ : BufTy).Contents (Elt F)),
    unary main_v40 main_v51 (broadcastInDim S800000x1 ![0] bcast_S800000_S800000x1_0 : (⟨S800000, .f32⟩ : BufTy).Contents (Elt F) → (⟨S800000x1, .f32⟩ : BufTy).Contents (Elt F)),
    unary main_v34 main_v52 (broadcastInDim S800000x1 ![0] bcast_S800000_S800000x1_0 : (⟨S800000, .f32⟩ : BufTy).Contents (Elt F) → (⟨S800000x1, .f32⟩ : BufTy).Contents (Elt F)),
    unary main_v44 main_v53 (broadcastInDim S800000x1 ![0] bcast_S800000_S800000x1_0 : (⟨S800000, .f32⟩ : BufTy).Contents (Elt F) → (⟨S800000x1, .f32⟩ : BufTy).Contents (Elt F)),
    unary main_v48 main_v54 (broadcastInDim S800000x1 ![0] bcast_S800000_S800000x1_0 : (⟨S800000, .f32⟩ : BufTy).Contents (Elt F) → (⟨S800000x1, .f32⟩ : BufTy).Contents (Elt F)) ]
/-- The references stage 2 writes. -/
abbrev ops2_W : List (Ref sig .tc) := [main_v19, main_v20, main_v21, main_v22, main_v23, main_call0_v0, main_call0_cst, main_call0_v1, main_v24, main_v25, main_v26, main_v27, main_v28, main_v29, main_call1_v0, main_call1_cst, main_call1_v1, main_v30, main_v31, main_cst, main_v32, main_v33, main_v34, main_v35, main_v36, main_v37, main_v38, main_v39, main_call2_v0, main_call2_cst, main_call2_v1, main_v40, main_v41, main_cst_3, main_v42, main_v43, main_v44, main_v45, main_cst_4, main_v46, main_v47, main_v48, main_v49, main_v50, main_v51, main_v52, main_v53, main_v54]

/-- Stage 3: the radial columns joined into one row per edge, and the node features gathered at both end points. -/
abbrev ops3 : List (HloOp τ sig (Elt F)) :=
  [ nary ![main_v49, main_v50, main_v51, main_v52, main_v53, main_v54] main_v55 (fun u => concatenate S800000x6 1 [⟨S800000x1, u 0⟩, ⟨S800000x1, u 1⟩, ⟨S800000x1, u 2⟩, ⟨S800000x1, u 3⟩, ⟨S800000x1, u 4⟩, ⟨S800000x1, u 5⟩] concatenates_S800000x1_S800000x1_S800000x1_S800000x1_S800000x1_S800000x1_S800000x6_d1),
    nullary main_c_5 (constantI S_ 32 0#32),
    unary main_c_5 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_arg0 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_7 (constantI S_ 32 0#32),
    unary main_c_7 main_v63 (broadcastInDim S800000 ![] bcast_S_S800000 : (⟨S_, .i32⟩ : BufTy).Contents (Elt F) → (⟨S800000, .i32⟩ : BufTy).Contents (Elt F)),
    binary main_v3 main_v63 main_v64 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v65 (broadcastInDim S800000 ![] bcast_S_S800000 : (⟨S_, .i32⟩ : BufTy).Contents (Elt F) → (⟨S800000, .i32⟩ : BufTy).Contents (Elt F)),
    binary main_v3 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_v3 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_arg0 main_v68 main_v69 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]
/-- The references stage 3 writes. -/
abbrev ops3_W : List (Ref sig .tc) := [main_v55, main_c_5, main_v56, main_v57, main_c_6, main_v58, main_v59, main_v60, main_v61, main_v62, main_c_7, main_v63, main_v64, main_c_8, main_v65, main_v66, main_v67, main_v68, main_v69]

/-- Stage 4: the first edge layer: the joined edge input, its affine map and gated activation. -/
abbrev ops4 : List (HloOp τ sig (Elt F)) :=
  [ nary ![main_v62, main_v69, main_v55] main_v70 (fun u => concatenate S800000x262 1 [⟨S800000x128, u 0⟩, ⟨S800000x128, u 1⟩, ⟨S800000x6, u 2⟩] concatenates_S800000x128_S800000x128_S800000x6_S800000x262_d1),
    binary main_v70 main_arg3 main_v71 ((fun l r => Host.dotGeneral dot_S800000x262_S262x128_S800000x128_1_0_0_1_n_n none l r) : (⟨S800000x262, .f32⟩ : BufTy).Contents (Elt F) → (⟨S262x128, .f32⟩ : BufTy).Contents (Elt F) → (⟨S800000x128, .f32⟩ : BufTy).Contents (Elt F)),
    unary main_arg4 main_v72 (broadcastInDim S1x128 ![1] bcast_S128_S1x128_1 : (⟨S128, .f32⟩ : BufTy).Contents (Elt F) → (⟨S1x128, .f32⟩ : BufTy).Contents (Elt F)),
    unary main_v72 main_v73 (broadcastInDim S800000x128 ![0, 1] bcast_S1x128_S800000x128_0_1 : (⟨S1x128, .f32⟩ : BufTy).Contents (Elt F) → (⟨S800000x128, .f32⟩ : BufTy).Contents (Elt F)),
    binary main_v71 main_v73 main_v74 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v74) (TRef.of (T := ⟨S800000x128, .f32⟩) main_call3_v0) Host.negf,
    TRef.unary (TRef.of (T := ⟨S800000x128, .f32⟩) main_call3_v0) (TRef.of (T := ⟨S800000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S800000x128, .f32⟩) main_call3_v2) (broadcastInDim S800000x128 ![] bcast_S_S800000x128),
    TRef.binary (TRef.of (T := ⟨S800000x128, .f32⟩) main_call3_v2) (TRef.of (T := ⟨S800000x128, .f32⟩) main_call3_v1) (TRef.of (T := ⟨S800000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S800000x128, .f32⟩) main_call3_v4) (broadcastInDim S800000x128 ![] bcast_S_S800000x128),
    TRef.binary (TRef.of (T := ⟨S800000x128, .f32⟩) main_call3_v4) (TRef.of (T := ⟨S800000x128, .f32⟩) main_call3_v3) (TRef.of (T := ⟨S800000x128, .f32⟩) main_call3_v5) Host.divf,
    TRef.binary (TRef.of (T := ⟨S800000x128, .f32⟩) main_v74) (TRef.of (T := ⟨S800000x128, .f32⟩) main_call3_v5) (TRef.of (T := ⟨S800000x128, .f32⟩) main_v75) mulf ]
/-- The references stage 4 writes. -/
abbrev ops4_W : List (Ref sig .tc) := [main_v70, main_v71, main_v72, main_v73, main_v74, main_call3_v0, main_call3_v1, main_call3_cst, main_call3_v2, main_call3_v3, main_call3_cst_0, main_call3_v4, main_call3_v5, main_v75]

/-- Stage 5: the second edge layer (the message), the coordinate head, and the per-edge coordinate update. -/
abbrev ops5 : List (HloOp τ sig (Elt F)) :=
  [ binary main_v75 main_arg5 main_v76 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v77 (broadcastInDim S1x128 ![1] bcast_S128_S1x128_1 : (⟨S128, .f32⟩ : BufTy).Contents (Elt F) → (⟨S1x128, .f32⟩ : BufTy).Contents (Elt F)),
    unary main_v77 main_v78 (broadcastInDim S800000x128 ![0, 1] bcast_S1x128_S800000x128_0_1 : (⟨S1x128, .f32⟩ : BufTy).Contents (Elt F) → (⟨S800000x128, .f32⟩ : BufTy).Contents (Elt F)),
    binary main_v76 main_v78 main_v79 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v79) (TRef.of (T := ⟨S800000x128, .f32⟩) main_call4_v0) Host.negf,
    TRef.unary (TRef.of (T := ⟨S800000x128, .f32⟩) main_call4_v0) (TRef.of (T := ⟨S800000x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S800000x128, .f32⟩) main_call4_v2) (broadcastInDim S800000x128 ![] bcast_S_S800000x128),
    TRef.binary (TRef.of (T := ⟨S800000x128, .f32⟩) main_call4_v2) (TRef.of (T := ⟨S800000x128, .f32⟩) main_call4_v1) (TRef.of (T := ⟨S800000x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S800000x128, .f32⟩) main_call4_v4) (broadcastInDim S800000x128 ![] bcast_S_S800000x128),
    TRef.binary (TRef.of (T := ⟨S800000x128, .f32⟩) main_call4_v4) (TRef.of (T := ⟨S800000x128, .f32⟩) main_call4_v3) (TRef.of (T := ⟨S800000x128, .f32⟩) main_call4_v5) Host.divf,
    TRef.binary (TRef.of (T := ⟨S800000x128, .f32⟩) main_v79) (TRef.of (T := ⟨S800000x128, .f32⟩) main_call4_v5) (TRef.of (T := ⟨S800000x128, .f32⟩) main_v80) mulf,
    binary main_v80 main_arg11 main_v81 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg12 main_v82 (broadcastInDim S1x128 ![1] bcast_S128_S1x128_1 : (⟨S128, .f32⟩ : BufTy).Contents (Elt F) → (⟨S1x128, .f32⟩ : BufTy).Contents (Elt F)),
    unary main_v82 main_v83 (broadcastInDim S800000x128 ![0, 1] bcast_S1x128_S800000x128_0_1 : (⟨S1x128, .f32⟩ : BufTy).Contents (Elt F) → (⟨S800000x128, .f32⟩ : BufTy).Contents (Elt F)),
    binary main_v81 main_v83 main_v84 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v84) (TRef.of (T := ⟨S800000x128, .f32⟩) main_call5_v0) Host.negf,
    TRef.unary (TRef.of (T := ⟨S800000x128, .f32⟩) main_call5_v0) (TRef.of (T := ⟨S800000x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S800000x128, .f32⟩) main_call5_v2) (broadcastInDim S800000x128 ![] bcast_S_S800000x128),
    TRef.binary (TRef.of (T := ⟨S800000x128, .f32⟩) main_call5_v2) (TRef.of (T := ⟨S800000x128, .f32⟩) main_call5_v1) (TRef.of (T := ⟨S800000x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S800000x128, .f32⟩) main_call5_v4) (broadcastInDim S800000x128 ![] bcast_S_S800000x128),
    TRef.binary (TRef.of (T := ⟨S800000x128, .f32⟩) main_call5_v4) (TRef.of (T := ⟨S800000x128, .f32⟩) main_call5_v3) (TRef.of (T := ⟨S800000x128, .f32⟩) main_call5_v5) Host.divf,
    TRef.binary (TRef.of (T := ⟨S800000x128, .f32⟩) main_v84) (TRef.of (T := ⟨S800000x128, .f32⟩) main_call5_v5) (TRef.of (T := ⟨S800000x128, .f32⟩) main_v85) mulf,
    binary main_v85 main_arg13 main_v86 ((fun l r => Host.dotGeneral dot_S800000x128_S128x2_S800000x2_1_0_0_1_n_n none l r) : (⟨S800000x128, .f32⟩ : BufTy).Contents (Elt F) → (⟨S128x2, .f32⟩ : BufTy).Contents (Elt F) → (⟨S800000x2, .f32⟩ : BufTy).Contents (Elt F)),
    unary main_v86 main_v87 (broadcastInDim S800000x2x1 ![0, 1] bcast_S800000x2_S800000x2x1_0_1 : (⟨S800000x2, .f32⟩ : BufTy).Contents (Elt F) → (⟨S800000x2x1, .f32⟩ : BufTy).Contents (Elt F)),
    unary main_v87 main_v88 (broadcastInDim S800000x2x3 ![0, 1, 2] bcast_S800000x2x1_S800000x2x3_0_1_2 : (⟨S800000x2x1, .f32⟩ : BufTy).Contents (Elt F) → (⟨S800000x2x3, .f32⟩ : BufTy).Contents (Elt F)),
    binary main_v18 main_v88 main_v89 (mulf : (⟨S800000x2x3, .f32⟩ : BufTy).Contents (Elt F) → (⟨S800000x2x3, .f32⟩ : BufTy).Contents (Elt F) → (⟨S800000x2x3, .f32⟩ : BufTy).Contents (Elt F)) ]
/-- The references stage 5 writes. -/
abbrev ops5_W : List (Ref sig .tc) := [main_v76, main_v77, main_v78, main_v79, main_call4_v0, main_call4_v1, main_call4_cst, main_call4_v2, main_call4_v3, main_call4_cst_0, main_call4_v4, main_call4_v5, main_v80, main_v81, main_v82, main_v83, main_v84, main_call5_v0, main_call5_v1, main_call5_cst, main_call5_v2, main_call5_v3, main_call5_cst_0, main_call5_v4, main_call5_v5, main_v85, main_v86, main_v87, main_v88, main_v89]

/-- Stage 6: the coordinate update summed per receiving node, divided by the clipped in-degree, added to the coordinates. -/
abbrev ops6 : List (HloOp τ sig (Elt F)) :=
  [ nullary main_cst_9 (constant S_ .f32 0x00000000#32),
    unary main_cst_9 main_v90 (broadcastInDim S50000x2x3 ![] bcast_S_S50000x2x3 : (⟨S_, .f32⟩ : BufTy).Contents (Elt F) → (⟨S50000x2x3, .f32⟩ : BufTy).Contents (Elt F)),
    unary main_v1 main_v91 (broadcastInDim S800000x1 ![0] bcast_S800000_S800000x1_0 : (⟨S800000, .i32⟩ : BufTy).Contents (Elt F) → (⟨S800000x1, .i32⟩ : BufTy).Contents (Elt F)),
    ternary main_v90 main_v91 main_v89 main_v92 ((fun x i u => Host.scatterAdd scatter_S50000x2x3_S800000x1_S800000x2x3_12_0_0_1 x i u) : (⟨S50000x2x3, .f32⟩ : BufTy).Contents (Elt F) → (⟨S800000x1, .i32⟩ : BufTy).Contents (Elt F) → (⟨S800000x2x3, .f32⟩ : BufTy).Contents (Elt F) → (⟨S50000x2x3, .f32⟩ : BufTy).Contents (Elt F)),
    nullary main_cst_10 (constant S_ .f32 0x3F800000#32),
    unary main_cst_10 main_v93 (broadcastInDim S800000 ![] bcast_S_S800000 : (⟨S_, .f32⟩ : BufTy).Contents (Elt F) → (⟨S800000, .f32⟩ : BufTy).Contents (Elt F)),
    nullary main_cst_11 (constant S_ .f32 0x00000000#32),
    unary main_cst_11 main_v94 (broadcastInDim S50000 ![] bcast_S_S50000 : (⟨S_, .f32⟩ : BufTy).Contents (Elt F) → (⟨S50000, .f32⟩ : BufTy).Contents (Elt F)),
    unary main_v1 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_12 (constant S_ .f32 0x3F800000#32),
    TRef.unary (TRef.of (T := ⟨S_, .f32⟩) main_cst_12) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_v96) (TRef.of (T := ⟨S50000, .f32⟩) main_v97) maximumf,
    unary main_v97 main_v98 (broadcastInDim S50000x1x1 ![0] bcast_S50000_S50000x1x1_0 : (⟨S50000, .f32⟩ : BufTy).Contents (Elt F) → (⟨S50000x1x1, .f32⟩ : BufTy).Contents (Elt F)),
    unary main_v98 main_v99 (broadcastInDim S50000x2x3 ![0, 1, 2] bcast_S50000x1x1_S50000x2x3_0_1_2 : (⟨S50000x1x1, .f32⟩ : BufTy).Contents (Elt F) → (⟨S50000x2x3, .f32⟩ : BufTy).Contents (Elt F)),
    binary main_v92 main_v99 main_v100 (Host.divf : (⟨S50000x2x3, .f32⟩ : BufTy).Contents (Elt F) → (⟨S50000x2x3, .f32⟩ : BufTy).Contents (Elt F) → (⟨S50000x2x3, .f32⟩ : BufTy).Contents (Elt F)),
    binary main_arg2 main_v100 main_v101 (addf : (⟨S50000x2x3, .f32⟩ : BufTy).Contents (Elt F) → (⟨S50000x2x3, .f32⟩ : BufTy).Contents (Elt F) → (⟨S50000x2x3, .f32⟩ : BufTy).Contents (Elt F)) ]
/-- The references stage 6 writes. -/
abbrev ops6_W : List (Ref sig .tc) := [main_cst_9, main_v90, main_v91, main_v92, main_cst_10, main_v93, main_cst_11, main_v94, main_v95, main_v96, main_cst_12, main_call6_v0, main_call6_v1, main_v97, main_v98, main_v99, main_v100, main_v101]

/-- Stage 7: the messages summed per receiving node. -/
abbrev ops7 : List (HloOp τ sig (Elt F)) :=
  [ nullary main_cst_13 (constant S_ .f32 0x00000000#32),
    unary main_cst_13 main_v102 (broadcastInDim S50000x128 ![] bcast_S_S50000x128 : (⟨S_, .f32⟩ : BufTy).Contents (Elt F) → (⟨S50000x128, .f32⟩ : BufTy).Contents (Elt F)),
    unary main_v1 main_v103 (broadcastInDim S800000x1 ![0] bcast_S800000_S800000x1_0 : (⟨S800000, .i32⟩ : BufTy).Contents (Elt F) → (⟨S800000x1, .i32⟩ : BufTy).Contents (Elt F)),
    ternary main_v102 main_v103 main_v80 main_v104 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The references stage 7 writes. -/
abbrev ops7_W : List (Ref sig .tc) := [main_cst_13, main_v102, main_v103, main_v104]

/-- Stage 8: the node layers on the node features joined with the summed messages, and the residual node update. -/
abbrev ops8 : List (HloOp τ sig (Elt F)) :=
  [ binary main_arg0 main_v104 main_v105 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v105 main_arg7 main_v106 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg8 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (addf : (⟨S50000x128, .f32⟩ : BufTy).Contents (Elt F) → (⟨S50000x128, .f32⟩ : BufTy).Contents (Elt F) → (⟨S50000x128, .f32⟩ : BufTy).Contents (Elt F)),
    TRef.unary (TRef.of (T := ⟨S50000x128, .f32⟩) main_v109) (TRef.of (T := ⟨S50000x128, .f32⟩) main_call7_v0) Host.negf,
    TRef.unary (TRef.of (T := ⟨S50000x128, .f32⟩) main_call7_v0) (TRef.of (T := ⟨S50000x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S50000x128, .f32⟩) main_call7_v2) (broadcastInDim S50000x128 ![] bcast_S_S50000x128),
    TRef.binary (TRef.of (T := ⟨S50000x128, .f32⟩) main_call7_v2) (TRef.of (T := ⟨S50000x128, .f32⟩) main_call7_v1) (TRef.of (T := ⟨S50000x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S50000x128, .f32⟩) main_call7_v4) (broadcastInDim S50000x128 ![] bcast_S_S50000x128),
    TRef.binary (TRef.of (T := ⟨S50000x128, .f32⟩) main_call7_v4) (TRef.of (T := ⟨S50000x128, .f32⟩) main_call7_v3) (TRef.of (T := ⟨S50000x128, .f32⟩) main_call7_v5) Host.divf,
    TRef.binary (TRef.of (T := ⟨S50000x128, .f32⟩) main_v109) (TRef.of (T := ⟨S50000x128, .f32⟩) main_call7_v5) (TRef.of (T := ⟨S50000x128, .f32⟩) main_v110) mulf,
    binary main_v110 main_arg9 main_v111 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v111 main_v113 main_v114 (addf : (⟨S50000x128, .f32⟩ : BufTy).Contents (Elt F) → (⟨S50000x128, .f32⟩ : BufTy).Contents (Elt F) → (⟨S50000x128, .f32⟩ : BufTy).Contents (Elt F)),
    binary main_arg0 main_v114 main_v115 (addf : (⟨S50000x128, .f32⟩ : BufTy).Contents (Elt F) → (⟨S50000x128, .f32⟩ : BufTy).Contents (Elt F) → (⟨S50000x128, .f32⟩ : BufTy).Contents (Elt F)) ]
/-- The references stage 8 writes. -/
abbrev ops8_W : List (Ref sig .tc) := [main_v105, main_v106, main_v107, main_v108, main_v109, main_call7_v0, main_call7_v1, main_call7_cst, main_call7_v2, main_call7_v3, main_call7_cst_0, main_call7_v4, main_call7_v5, main_v110, main_v111, main_v112, main_v113, main_v114, main_v115]

set_option maxRecDepth 8192 in
/-- The whole line is the stages in order. -/
theorem ops_split : (ValueP.ops : List (HloOp τ sig (Elt F))) = ops1 ++ (ops2 ++ (ops3 ++ (ops4 ++ (ops5 ++ (ops6 ++ (ops7 ++ (ops8))))))) := rfl

/-- The contents after the whole line, stage by stage. -/
theorem after_ops (V : Valuation τ sig (Elt F)) :
    after ValueP.ops V = after ops8 (after ops7 (after ops6 (after ops5 (after ops4 (after ops3 (after ops2 (after ops1 (V)))))))) := by
  rw [ops_split, Cert.After.after_append, Cert.After.after_append, Cert.After.after_append, Cert.After.after_append, Cert.After.after_append, Cert.After.after_append, Cert.After.after_append]

theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, StableHlo.nary_writes, Finset.singleton_subset_iff, List.mem_toFinset]
     exact List.mem_map_of_mem (by decide))
/-- A reference stage 1 does not write keeps its contents through it. -/
theorem keep1 (W : Valuation τ sig (Elt F)) (r : Ref sig .tc) (h : r ∉ ops1_W) :
    after ops1 W (Proc.devRef .tc r) = W (Proc.devRef .tc r) :=
  StableHlo.after_of_writes_sub ops1 W ops1_writes h

theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, StableHlo.nary_writes, Finset.singleton_subset_iff, List.mem_toFinset]
     exact List.mem_map_of_mem (by decide))
/-- A reference stage 2 does not write keeps its contents through it. -/
theorem keep2 (W : Valuation τ sig (Elt F)) (r : Ref sig .tc) (h : r ∉ ops2_W) :
    after ops2 W (Proc.devRef .tc r) = W (Proc.devRef .tc r) :=
  StableHlo.after_of_writes_sub ops2 W ops2_writes h

theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, StableHlo.nary_writes, Finset.singleton_subset_iff, List.mem_toFinset]
     exact List.mem_map_of_mem (by decide))
/-- A reference stage 3 does not write keeps its contents through it. -/
theorem keep3 (W : Valuation τ sig (Elt F)) (r : Ref sig .tc) (h : r ∉ ops3_W) :
    after ops3 W (Proc.devRef .tc r) = W (Proc.devRef .tc r) :=
  StableHlo.after_of_writes_sub ops3 W ops3_writes h

theorem ops4_writes : (ops4 : List (HloOp τ sig (Elt F))).Forall fun op => op.writes ⊆ (ops4_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, StableHlo.nary_writes, Finset.singleton_subset_iff, List.mem_toFinset]
     exact List.mem_map_of_mem (by decide))
/-- A reference stage 4 does not write keeps its contents through it. -/
theorem keep4 (W : Valuation τ sig (Elt F)) (r : Ref sig .tc) (h : r ∉ ops4_W) :
    after ops4 W (Proc.devRef .tc r) = W (Proc.devRef .tc r) :=
  StableHlo.after_of_writes_sub ops4 W ops4_writes h

theorem ops5_writes : (ops5 : List (HloOp τ sig (Elt F))).Forall fun op => op.writes ⊆ (ops5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, StableHlo.nary_writes, Finset.singleton_subset_iff, List.mem_toFinset]
     exact List.mem_map_of_mem (by decide))
/-- A reference stage 5 does not write keeps its contents through it. -/
theorem keep5 (W : Valuation τ sig (Elt F)) (r : Ref sig .tc) (h : r ∉ ops5_W) :
    after ops5 W (Proc.devRef .tc r) = W (Proc.devRef .tc r) :=
  StableHlo.after_of_writes_sub ops5 W ops5_writes h

theorem ops6_writes : (ops6 : List (HloOp τ sig (Elt F))).Forall fun op => op.writes ⊆ (ops6_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, StableHlo.nary_writes, Finset.singleton_subset_iff, List.mem_toFinset]
     exact List.mem_map_of_mem (by decide))
/-- A reference stage 6 does not write keeps its contents through it. -/
theorem keep6 (W : Valuation τ sig (Elt F)) (r : Ref sig .tc) (h : r ∉ ops6_W) :
    after ops6 W (Proc.devRef .tc r) = W (Proc.devRef .tc r) :=
  StableHlo.after_of_writes_sub ops6 W ops6_writes h

theorem ops7_writes : (ops7 : List (HloOp τ sig (Elt F))).Forall fun op => op.writes ⊆ (ops7_W.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes,
      StableHlo.reshape_writes, StableHlo.nary_writes, Finset.singleton_subset_iff, List.mem_toFinset]
     exact List.mem_map_of_mem (by decide))
/-- A reference stage 7 does not write keeps its contents through it. -/
theorem keep7 (W : Valuation τ sig (Elt F)) (r : Ref sig .tc) (h : r ∉ ops7_W) :
    after ops7 W (Proc.devRef .tc r) = W (Proc.devRef .tc r) :=
  StableHlo.after_of_writes_sub ops7 W ops7_writes h

theorem ops8_writes : (ops8 : List (HloOp τ sig (Elt F))).Forall fun op => op.writes ⊆ (ops8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, StableHlo.nary_writes, Finset.singleton_subset_iff, List.mem_toFinset]
     exact List.mem_map_of_mem (by decide))
/-- A reference stage 8 does not write keeps its contents through it. -/
theorem keep8 (W : Valuation τ sig (Elt F)) (r : Ref sig .tc) (h : r ∉ ops8_W) :
    after ops8 W (Proc.devRef .tc r) = W (Proc.devRef .tc r) :=
  StableHlo.after_of_writes_sub ops8 W ops8_writes h

end Cert.ReferenceIdeal.RunVal

end
-- ==== Proof.RefRunStagesA.lean ====
/-
  The reference's stages one to four, each array that a later stage reads as the staged function of the arguments.

  For contents `W` that already hold the earlier stages' arrays (hypotheses `hv…`) and the arguments (hypotheses `a…`),
  the array a stage leaves in a buffer is the staged function `val_…` of the arguments: the stage's operations are
  evaluated in order at that buffer, the earlier arrays are replaced by their staged functions, and both sides are then
  the same composition of operations.
-/
import proofs.«102740_j91328184582715_1_alg».proof.Proof.RefRead
import proofs.«102740_j91328184582715_1_alg».proof.Proof.RefChunks
import Idealize.ShloMosaic.Lib.StableHlo.Run

noncomputable section

namespace Cert.ReferenceIdeal.RunVal

open Cert.ReferenceIdeal Cert.ReferenceIdeal.Gen Idealize.ShloMosaic Idealize.ShloMosaic.TcCoe Idealize.SL.Sem Idealize.ShloMosaic.StableHlo

variable {F : FTy → Type} [FloatOps F]

/-! ## Stage 1: the two index rows of the edge list, the gathered end-point coordinates and their difference -/

theorem stage1_v1 (W : Valuation τ sig (Elt F)) (x1 : (⟨S2x800000, .i32⟩ : BufTy).Contents (Elt F))
    (a1 : W (Proc.devRef .tc main_arg1) = x1)
    : after ops1 W (Proc.devRef .tc main_v1) = ReadP.val_main_v1 x1 := by
  subst a1
  simp (disch := decide) only [after_cons, after_nil, nullary_result', unary_result', binary_result', ternary_result', reshape_result',
      nary_result', nullary_result_ne', unary_result_ne', binary_result_ne', ternary_result_ne', reshape_result_ne', nary_result_ne',
      Matrix.cons_val]
  rfl

theorem stage1_v3 (W : Valuation τ sig (Elt F)) (x1 : (⟨S2x800000, .i32⟩ : BufTy).Contents (Elt F))
    (a1 : W (Proc.devRef .tc main_arg1) = x1)
    : after ops1 W (Proc.devRef .tc main_v3) = ReadP.val_main_v3 x1 := by
  subst a1
  simp (disch := decide) only [after_cons, after_nil, nullary_result', unary_result', binary_result', ternary_result', reshape_result',
      nary_result', nullary_result_ne', unary_result_ne', binary_result_ne', ternary_result_ne', reshape_result_ne', nary_result_ne',
      Matrix.cons_val]
  rfl

theorem stage1_v10 (W : Valuation τ sig (Elt F)) (x1 : (⟨S2x800000, .i32⟩ : BufTy).Contents (Elt F)) (x2 : (⟨S50000x2x3, .f32⟩ : BufTy).Contents (Elt F))
    (a1 : W (Proc.devRef .tc main_arg1) = x1)
    (a2 : W (Proc.devRef .tc main_arg2) = x2)
    : after ops1 W (Proc.devRef .tc main_v10) = ReadP.val_main_v10 x1 x2 := by
  subst a1 a2
  simp (disch := decide) only [after_cons, after_nil, nullary_result', unary_result', binary_result', ternary_result', reshape_result',
      nary_result', nullary_result_ne', unary_result_ne', binary_result_ne', ternary_result_ne', reshape_result_ne', nary_result_ne',
      Matrix.cons_val]
  rfl

theorem stage1_v17 (W : Valuation τ sig (Elt F)) (x1 : (⟨S2x800000, .i32⟩ : BufTy).Contents (Elt F)) (x2 : (⟨S50000x2x3, .f32⟩ : BufTy).Contents (Elt F))
    (a1 : W (Proc.devRef .tc main_arg1) = x1)
    (a2 : W (Proc.devRef .tc main_arg2) = x2)
    : after ops1 W (Proc.devRef .tc main_v17) = ReadP.val_main_v17 x1 x2 := by
  subst a1 a2
  simp (disch := decide) only [after_cons, after_nil, nullary_result', unary_result', binary_result', ternary_result', reshape_result',
      nary_result', nullary_result_ne', unary_result_ne', binary_result_ne', ternary_result_ne', reshape_result_ne', nary_result_ne',
      Matrix.cons_val]
  rfl

theorem stage1_v18 (W : Valuation τ sig (Elt F)) (x1 : (⟨S2x800000, .i32⟩ : BufTy).Contents (Elt F)) (x2 : (⟨S50000x2x3, .f32⟩ : BufTy).Contents (Elt F))
    (a1 : W (Proc.devRef .tc main_arg1) = x1)
    (a2 : W (Proc.devRef .tc main_arg2) = x2)
    : after ops1 W (Proc.devRef .tc main_v18) = ReadP.val_main_v18 x1 x2 := by
  subst a1 a2
  simp (disch := decide) only [after_cons, after_nil, nullary_result', unary_result', binary_result', ternary_result', reshape_result',
      nary_result', nullary_result_ne', unary_result_ne', binary_result_ne', ternary_result_ne', reshape_result_ne', nary_result_ne',
      Matrix.cons_val]
  rfl

/-! ## Stage 2: the six radial features of an edge, each as a column: three lengths and three normalised inner products -/

theorem stage2_v49 (W : Valuation τ sig (Elt F)) (x1 : (⟨S2x800000, .i32⟩ : BufTy).Contents (Elt F)) (x2 : (⟨S50000x2x3, .f32⟩ : BufTy).Contents (Elt F))
    (hv10 : W (Proc.devRef .tc main_v10) = ReadP.val_main_v10 x1 x2)
    (hv17 : W (Proc.devRef .tc main_v17) = ReadP.val_main_v17 x1 x2)
    : after ops2 W (Proc.devRef .tc main_v49) = ReadP.val_main_v49 x1 x2 := by
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv10]
  try rw [hv17]
  rfl

theorem stage2_v50 (W : Valuation τ sig (Elt F)) (x1 : (⟨S2x800000, .i32⟩ : BufTy).Contents (Elt F)) (x2 : (⟨S50000x2x3, .f32⟩ : BufTy).Contents (Elt F))
    (hv10 : W (Proc.devRef .tc main_v10) = ReadP.val_main_v10 x1 x2)
    (hv17 : W (Proc.devRef .tc main_v17) = ReadP.val_main_v17 x1 x2)
    : after ops2 W (Proc.devRef .tc main_v50) = ReadP.val_main_v50 x1 x2 := by
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv10]
  try rw [hv17]
  rfl

theorem stage2_v51 (W : Valuation τ sig (Elt F)) (x1 : (⟨S2x800000, .i32⟩ : BufTy).Contents (Elt F)) (x2 : (⟨S50000x2x3, .f32⟩ : BufTy).Contents (Elt F))
    (hv10 : W (Proc.devRef .tc main_v10) = ReadP.val_main_v10 x1 x2)
    (hv17 : W (Proc.devRef .tc main_v17) = ReadP.val_main_v17 x1 x2)
    : after ops2 W (Proc.devRef .tc main_v51) = ReadP.val_main_v51 x1 x2 := by
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv10]
  try rw [hv17]
  rfl

theorem stage2_v52 (W : Valuation τ sig (Elt F)) (x1 : (⟨S2x800000, .i32⟩ : BufTy).Contents (Elt F)) (x2 : (⟨S50000x2x3, .f32⟩ : BufTy).Contents (Elt F))
    (hv10 : W (Proc.devRef .tc main_v10) = ReadP.val_main_v10 x1 x2)
    (hv17 : W (Proc.devRef .tc main_v17) = ReadP.val_main_v17 x1 x2)
    : after ops2 W (Proc.devRef .tc main_v52) = ReadP.val_main_v52 x1 x2 := by
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv10]
  try rw [hv17]
  rfl

theorem stage2_v53 (W : Valuation τ sig (Elt F)) (x1 : (⟨S2x800000, .i32⟩ : BufTy).Contents (Elt F)) (x2 : (⟨S50000x2x3, .f32⟩ : BufTy).Contents (Elt F))
    (hv10 : W (Proc.devRef .tc main_v10) = ReadP.val_main_v10 x1 x2)
    (hv17 : W (Proc.devRef .tc main_v17) = ReadP.val_main_v17 x1 x2)
    : after ops2 W (Proc.devRef .tc main_v53) = ReadP.val_main_v53 x1 x2 := by
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv10]
  try rw [hv17]
  rfl

theorem stage2_v54 (W : Valuation τ sig (Elt F)) (x1 : (⟨S2x800000, .i32⟩ : BufTy).Contents (Elt F)) (x2 : (⟨S50000x2x3, .f32⟩ : BufTy).Contents (Elt F))
    (hv10 : W (Proc.devRef .tc main_v10) = ReadP.val_main_v10 x1 x2)
    (hv17 : W (Proc.devRef .tc main_v17) = ReadP.val_main_v17 x1 x2)
    : after ops2 W (Proc.devRef .tc main_v54) = ReadP.val_main_v54 x1 x2 := by
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv10]
  try rw [hv17]
  rfl

/-! ## Stage 3: the radial columns joined into one row per edge, and the node features gathered at both end points -/

theorem stage3_v55 (W : Valuation τ sig (Elt F)) (x1 : (⟨S2x800000, .i32⟩ : BufTy).Contents (Elt F)) (x2 : (⟨S50000x2x3, .f32⟩ : BufTy).Contents (Elt F))
    (hv49 : W (Proc.devRef .tc main_v49) = ReadP.val_main_v49 x1 x2)
    (hv50 : W (Proc.devRef .tc main_v50) = ReadP.val_main_v50 x1 x2)
    (hv51 : W (Proc.devRef .tc main_v51) = ReadP.val_main_v51 x1 x2)
    (hv52 : W (Proc.devRef .tc main_v52) = ReadP.val_main_v52 x1 x2)
    (hv53 : W (Proc.devRef .tc main_v53) = ReadP.val_main_v53 x1 x2)
    (hv54 : W (Proc.devRef .tc main_v54) = ReadP.val_main_v54 x1 x2)
    (hv1 : W (Proc.devRef .tc main_v1) = ReadP.val_main_v1 x1)
    (hv3 : W (Proc.devRef .tc main_v3) = ReadP.val_main_v3 x1)
    : after ops3 W (Proc.devRef .tc main_v55) = ReadP.val_main_v55 x1 x2 := by
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv49]
  try rw [hv50]
  try rw [hv51]
  try rw [hv52]
  try rw [hv53]
  try rw [hv54]
  try rw [hv1]
  try rw [hv3]
  rfl

theorem stage3_v62 (W : Valuation τ sig (Elt F)) (x0 : (⟨S50000x128, .f32⟩ : BufTy).Contents (Elt F)) (x1 : (⟨S2x800000, .i32⟩ : BufTy).Contents (Elt F))
    (a0 : W (Proc.devRef .tc main_arg0) = x0)
    (hv1 : W (Proc.devRef .tc main_v1) = ReadP.val_main_v1 x1)
    (hv3 : W (Proc.devRef .tc main_v3) = ReadP.val_main_v3 x1)
    : after ops3 W (Proc.devRef .tc main_v62) = ReadP.val_main_v62 x0 x1 := by
  subst a0
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv1]
  try rw [hv3]
  rfl

theorem stage3_v69 (W : Valuation τ sig (Elt F)) (x0 : (⟨S50000x128, .f32⟩ : BufTy).Contents (Elt F)) (x1 : (⟨S2x800000, .i32⟩ : BufTy).Contents (Elt F))
    (a0 : W (Proc.devRef .tc main_arg0) = x0)
    (hv1 : W (Proc.devRef .tc main_v1) = ReadP.val_main_v1 x1)
    (hv3 : W (Proc.devRef .tc main_v3) = ReadP.val_main_v3 x1)
    : after ops3 W (Proc.devRef .tc main_v69) = ReadP.val_main_v69 x0 x1 := by
  subst a0
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv1]
  try rw [hv3]
  rfl

/-! ## Stage 4: the first edge layer: the joined edge input, its affine map and gated activation -/

theorem stage4_v75 (W : Valuation τ sig (Elt F)) (x0 : (⟨S50000x128, .f32⟩ : BufTy).Contents (Elt F)) (x1 : (⟨S2x800000, .i32⟩ : BufTy).Contents (Elt F)) (x2 : (⟨S50000x2x3, .f32⟩ : BufTy).Contents (Elt F)) (x3 : (⟨S262x128, .f32⟩ : BufTy).Contents (Elt F)) (x4 : (⟨S128, .f32⟩ : BufTy).Contents (Elt F))
    (a3 : W (Proc.devRef .tc main_arg3) = x3)
    (a4 : W (Proc.devRef .tc main_arg4) = x4)
    (hv62 : W (Proc.devRef .tc main_v62) = ReadP.val_main_v62 x0 x1)
    (hv69 : W (Proc.devRef .tc main_v69) = ReadP.val_main_v69 x0 x1)
    (hv55 : W (Proc.devRef .tc main_v55) = ReadP.val_main_v55 x1 x2)
    : after ops4 W (Proc.devRef .tc main_v75) = ReadP.val_main_v75 x0 x1 x2 x3 x4 := by
  subst a3 a4
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv62]
  try rw [hv69]
  try rw [hv55]
  rfl

end Cert.ReferenceIdeal.RunVal

end
-- ==== Proof.RefRunStagesB.lean ====
/-
  The reference's stages five to eight, each array that a later stage reads as the staged function of the arguments.

  For contents `W` that already hold the earlier stages' arrays (hypotheses `hv…`) and the arguments (hypotheses `a…`),
  the array a stage leaves in a buffer is the staged function `val_…` of the arguments: the stage's operations are
  evaluated in order at that buffer, the earlier arrays are replaced by their staged functions, and both sides are then
  the same composition of operations.
-/
import proofs.«102740_j91328184582715_1_alg».proof.Proof.RefRead
import proofs.«102740_j91328184582715_1_alg».proof.Proof.RefChunks
import proofs.«102740_j91328184582715_1_alg».proof.Proof.RefRunStagesA
import Idealize.ShloMosaic.Lib.StableHlo.Run

noncomputable section

namespace Cert.ReferenceIdeal.RunVal

open Cert.ReferenceIdeal Cert.ReferenceIdeal.Gen Idealize.ShloMosaic Idealize.ShloMosaic.TcCoe Idealize.SL.Sem Idealize.ShloMosaic.StableHlo

variable {F : FTy → Type} [FloatOps F]

/-! ## Stage 5: the second edge layer (the message), the coordinate head, and the per-edge coordinate update -/

theorem stage5_v80 (W : Valuation τ sig (Elt F)) (x0 : (⟨S50000x128, .f32⟩ : BufTy).Contents (Elt F)) (x1 : (⟨S2x800000, .i32⟩ : BufTy).Contents (Elt F)) (x2 : (⟨S50000x2x3, .f32⟩ : BufTy).Contents (Elt F)) (x3 : (⟨S262x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (a5 : W (Proc.devRef .tc main_arg5) = x5)
    (a6 : W (Proc.devRef .tc main_arg6) = x6)
    (hv75 : W (Proc.devRef .tc main_v75) = ReadP.val_main_v75 x0 x1 x2 x3 x4)
    (hv18 : W (Proc.devRef .tc main_v18) = ReadP.val_main_v18 x1 x2)
    : after ops5 W (Proc.devRef .tc main_v80) = ReadP.val_main_v80 x0 x1 x2 x3 x4 x5 x6 := by
  subst a5 a6
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv75]
  try rw [hv18]
  rfl

theorem stage5_v89 (W : Valuation τ sig (Elt F)) (x0 : (⟨S50000x128, .f32⟩ : BufTy).Contents (Elt F)) (x1 : (⟨S2x800000, .i32⟩ : BufTy).Contents (Elt F)) (x2 : (⟨S50000x2x3, .f32⟩ : BufTy).Contents (Elt F)) (x3 : (⟨S262x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S128x128, .f32⟩ : BufTy).Contents (Elt F)) (x12 : (⟨S128, .f32⟩ : BufTy).Contents (Elt F)) (x13 : (⟨S128x2, .f32⟩ : BufTy).Contents (Elt F))
    (a5 : W (Proc.devRef .tc main_arg5) = x5)
    (a6 : W (Proc.devRef .tc main_arg6) = x6)
    (a11 : W (Proc.devRef .tc main_arg11) = x11)
    (a12 : W (Proc.devRef .tc main_arg12) = x12)
    (a13 : W (Proc.devRef .tc main_arg13) = x13)
    (hv75 : W (Proc.devRef .tc main_v75) = ReadP.val_main_v75 x0 x1 x2 x3 x4)
    (hv18 : W (Proc.devRef .tc main_v18) = ReadP.val_main_v18 x1 x2)
    : after ops5 W (Proc.devRef .tc main_v89) = ReadP.val_main_v89 x0 x1 x2 x3 x4 x5 x6 x11 x12 x13 := by
  subst a5 a6 a11 a12 a13
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv75]
  try rw [hv18]
  rfl

/-! ## Stage 6: the coordinate update summed per receiving node, divided by the clipped in-degree, added to the coordinates -/

theorem stage6_v101 (W : Valuation τ sig (Elt F)) (x0 : (⟨S50000x128, .f32⟩ : BufTy).Contents (Elt F)) (x1 : (⟨S2x800000, .i32⟩ : BufTy).Contents (Elt F)) (x2 : (⟨S50000x2x3, .f32⟩ : BufTy).Contents (Elt F)) (x3 : (⟨S262x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S128x128, .f32⟩ : BufTy).Contents (Elt F)) (x12 : (⟨S128, .f32⟩ : BufTy).Contents (Elt F)) (x13 : (⟨S128x2, .f32⟩ : BufTy).Contents (Elt F))
    (a2 : W (Proc.devRef .tc main_arg2) = x2)
    (hv1 : W (Proc.devRef .tc main_v1) = ReadP.val_main_v1 x1)
    (hv89 : W (Proc.devRef .tc main_v89) = ReadP.val_main_v89 x0 x1 x2 x3 x4 x5 x6 x11 x12 x13)
    : after ops6 W (Proc.devRef .tc main_v101) = ReadP.val_main_v101 x0 x1 x2 x3 x4 x5 x6 x11 x12 x13 := by
  subst a2
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv1]
  try rw [hv89]
  rfl

/-! ## Stage 7: the messages summed per receiving node -/

theorem stage7_v104 (W : Valuation τ sig (Elt F)) (x0 : (⟨S50000x128, .f32⟩ : BufTy).Contents (Elt F)) (x1 : (⟨S2x800000, .i32⟩ : BufTy).Contents (Elt F)) (x2 : (⟨S50000x2x3, .f32⟩ : BufTy).Contents (Elt F)) (x3 : (⟨S262x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (hv1 : W (Proc.devRef .tc main_v1) = ReadP.val_main_v1 x1)
    (hv80 : W (Proc.devRef .tc main_v80) = ReadP.val_main_v80 x0 x1 x2 x3 x4 x5 x6)
    : after ops7 W (Proc.devRef .tc main_v104) = ReadP.val_main_v104 x0 x1 x2 x3 x4 x5 x6 := by
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv1]
  try rw [hv80]
  rfl

/-! ## Stage 8: the node layers on the node features joined with the summed messages, and the residual node update -/

theorem stage8_v115 (W : Valuation τ sig (Elt F)) (x0 : (⟨S50000x128, .f32⟩ : BufTy).Contents (Elt F)) (x1 : (⟨S2x800000, .i32⟩ : BufTy).Contents (Elt F)) (x2 : (⟨S50000x2x3, .f32⟩ : BufTy).Contents (Elt F)) (x3 : (⟨S262x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F))
    (a0 : W (Proc.devRef .tc main_arg0) = x0)
    (a7 : W (Proc.devRef .tc main_arg7) = x7)
    (a8 : W (Proc.devRef .tc main_arg8) = x8)
    (a9 : W (Proc.devRef .tc main_arg9) = x9)
    (a10 : W (Proc.devRef .tc main_arg10) = x10)
    (hv104 : W (Proc.devRef .tc main_v104) = ReadP.val_main_v104 x0 x1 x2 x3 x4 x5 x6)
    : after ops8 W (Proc.devRef .tc main_v115) = ReadP.val_main_v115 x0 x1 x2 x3 x4 x5 x6 x7 x8 x9 x10 := by
  subst a0 a7 a8 a9 a10
  simp (disch := decide) only [after_cons, after_nil, nullary_result', unary_result', binary_result', ternary_result', reshape_result',
      nary_result', nullary_result_ne', unary_result_ne', binary_result_ne', ternary_result_ne', reshape_result_ne', nary_result_ne',
      Matrix.cons_val]
  try rw [hv104]
  rfl

end Cert.ReferenceIdeal.RunVal

end
-- ==== Proof.RefRunValues.lean ====
/-
  The reference program's run, with its two results as the staged functions of the arguments.

  The contents after the whole line of operations are built stage by stage: after each stage, every array a later stage
  reads is the staged function `val_…` of the arguments' contents (the stage's own lemma, fed with the facts of the
  stages before it), an array written earlier and not rewritten keeps that value, and the arguments keep their contents
  because no operation writes them. The run of the program ends with every buffer at these contents.
-/
import proofs.«102740_j91328184582715_1_alg».proof.Proof.RefRead
import proofs.«102740_j91328184582715_1_alg».proof.Proof.RefChunks
import proofs.«102740_j91328184582715_1_alg».proof.Proof.RefRunStagesA
import proofs.«102740_j91328184582715_1_alg».proof.Proof.RefRunStagesB
import Idealize.ShloMosaic.Lib.StableHlo.Run

noncomputable section

namespace Cert.ReferenceIdeal.RunVal

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

/-- The contents after the first `k` stages. -/
abbrev A1 : Valuation τ sig (Elt F) := after ops1 V
abbrev A2 : Valuation τ sig (Elt F) := after ops2 (A1 V)
abbrev A3 : Valuation τ sig (Elt F) := after ops3 (A2 V)
abbrev A4 : Valuation τ sig (Elt F) := after ops4 (A3 V)
abbrev A5 : Valuation τ sig (Elt F) := after ops5 (A4 V)
abbrev A6 : Valuation τ sig (Elt F) := after ops6 (A5 V)
abbrev A7 : Valuation τ sig (Elt F) := after ops7 (A6 V)
abbrev A8 : Valuation τ sig (Elt F) := after ops8 (A7 V)

/-! ## A reference no stage so far writes keeps its launch contents -/
theorem A1_keep (r : Ref sig .tc) (h1 : r ∉ ops1_W) : A1 V (Proc.devRef .tc r) = V (Proc.devRef .tc r) :=
  (keep1 _ r h1)
theorem A2_keep (r : Ref sig .tc) (h1 : r ∉ ops1_W) (h2 : r ∉ ops2_W) : A2 V (Proc.devRef .tc r) = V (Proc.devRef .tc r) :=
  (keep2 _ r h2).trans (A1_keep V r h1)
theorem A3_keep (r : Ref sig .tc) (h1 : r ∉ ops1_W) (h2 : r ∉ ops2_W) (h3 : r ∉ ops3_W) : A3 V (Proc.devRef .tc r) = V (Proc.devRef .tc r) :=
  (keep3 _ r h3).trans (A2_keep V r h1 h2)
theorem A4_keep (r : Ref sig .tc) (h1 : r ∉ ops1_W) (h2 : r ∉ ops2_W) (h3 : r ∉ ops3_W) (h4 : r ∉ ops4_W) : A4 V (Proc.devRef .tc r) = V (Proc.devRef .tc r) :=
  (keep4 _ r h4).trans (A3_keep V r h1 h2 h3)
theorem A5_keep (r : Ref sig .tc) (h1 : r ∉ ops1_W) (h2 : r ∉ ops2_W) (h3 : r ∉ ops3_W) (h4 : r ∉ ops4_W) (h5 : r ∉ ops5_W) : A5 V (Proc.devRef .tc r) = V (Proc.devRef .tc r) :=
  (keep5 _ r h5).trans (A4_keep V r h1 h2 h3 h4)
theorem A6_keep (r : Ref sig .tc) (h1 : r ∉ ops1_W) (h2 : r ∉ ops2_W) (h3 : r ∉ ops3_W) (h4 : r ∉ ops4_W) (h5 : r ∉ ops5_W) (h6 : r ∉ ops6_W) : A6 V (Proc.devRef .tc r) = V (Proc.devRef .tc r) :=
  (keep6 _ r h6).trans (A5_keep V r h1 h2 h3 h4 h5)
theorem A7_keep (r : Ref sig .tc) (h1 : r ∉ ops1_W) (h2 : r ∉ ops2_W) (h3 : r ∉ ops3_W) (h4 : r ∉ ops4_W) (h5 : r ∉ ops5_W) (h6 : r ∉ ops6_W) (h7 : r ∉ ops7_W) : A7 V (Proc.devRef .tc r) = V (Proc.devRef .tc r) :=
  (keep7 _ r h7).trans (A6_keep V r h1 h2 h3 h4 h5 h6)
theorem A8_keep (r : Ref sig .tc) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) : A8 V (Proc.devRef .tc r) = V (Proc.devRef .tc r) :=
  (keep8 _ r h8).trans (A7_keep V r h1 h2 h3 h4 h5 h6 h7)

/-! ## The arrays that cross a cut, after each stage -/
theorem A1_v1 : A1 V (Proc.devRef .tc main_v1) = ReadP.val_main_v1 (V (Proc.devRef .tc main_arg1)) :=
  stage1_v1 V (V (Proc.devRef .tc main_arg1)) rfl
theorem A1_v3 : A1 V (Proc.devRef .tc main_v3) = ReadP.val_main_v3 (V (Proc.devRef .tc main_arg1)) :=
  stage1_v3 V (V (Proc.devRef .tc main_arg1)) rfl
theorem A1_v10 : A1 V (Proc.devRef .tc main_v10) = ReadP.val_main_v10 (V (Proc.devRef .tc main_arg1)) (V (Proc.devRef .tc main_arg2)) :=
  stage1_v10 V (V (Proc.devRef .tc main_arg1)) (V (Proc.devRef .tc main_arg2)) rfl rfl
theorem A1_v17 : A1 V (Proc.devRef .tc main_v17) = ReadP.val_main_v17 (V (Proc.devRef .tc main_arg1)) (V (Proc.devRef .tc main_arg2)) :=
  stage1_v17 V (V (Proc.devRef .tc main_arg1)) (V (Proc.devRef .tc main_arg2)) rfl rfl
theorem A1_v18 : A1 V (Proc.devRef .tc main_v18) = ReadP.val_main_v18 (V (Proc.devRef .tc main_arg1)) (V (Proc.devRef .tc main_arg2)) :=
  stage1_v18 V (V (Proc.devRef .tc main_arg1)) (V (Proc.devRef .tc main_arg2)) rfl rfl
theorem A2_v49 : A2 V (Proc.devRef .tc main_v49) = ReadP.val_main_v49 (V (Proc.devRef .tc main_arg1)) (V (Proc.devRef .tc main_arg2)) :=
  stage2_v49 (A1 V) (V (Proc.devRef .tc main_arg1)) (V (Proc.devRef .tc main_arg2)) (A1_v10 V) (A1_v17 V)
theorem A2_v50 : A2 V (Proc.devRef .tc main_v50) = ReadP.val_main_v50 (V (Proc.devRef .tc main_arg1)) (V (Proc.devRef .tc main_arg2)) :=
  stage2_v50 (A1 V) (V (Proc.devRef .tc main_arg1)) (V (Proc.devRef .tc main_arg2)) (A1_v10 V) (A1_v17 V)
theorem A2_v51 : A2 V (Proc.devRef .tc main_v51) = ReadP.val_main_v51 (V (Proc.devRef .tc main_arg1)) (V (Proc.devRef .tc main_arg2)) :=
  stage2_v51 (A1 V) (V (Proc.devRef .tc main_arg1)) (V (Proc.devRef .tc main_arg2)) (A1_v10 V) (A1_v17 V)
theorem A2_v52 : A2 V (Proc.devRef .tc main_v52) = ReadP.val_main_v52 (V (Proc.devRef .tc main_arg1)) (V (Proc.devRef .tc main_arg2)) :=
  stage2_v52 (A1 V) (V (Proc.devRef .tc main_arg1)) (V (Proc.devRef .tc main_arg2)) (A1_v10 V) (A1_v17 V)
theorem A2_v53 : A2 V (Proc.devRef .tc main_v53) = ReadP.val_main_v53 (V (Proc.devRef .tc main_arg1)) (V (Proc.devRef .tc main_arg2)) :=
  stage2_v53 (A1 V) (V (Proc.devRef .tc main_arg1)) (V (Proc.devRef .tc main_arg2)) (A1_v10 V) (A1_v17 V)
theorem A2_v54 : A2 V (Proc.devRef .tc main_v54) = ReadP.val_main_v54 (V (Proc.devRef .tc main_arg1)) (V (Proc.devRef .tc main_arg2)) :=
  stage2_v54 (A1 V) (V (Proc.devRef .tc main_arg1)) (V (Proc.devRef .tc main_arg2)) (A1_v10 V) (A1_v17 V)
theorem A2_v1 : A2 V (Proc.devRef .tc main_v1) = ReadP.val_main_v1 (V (Proc.devRef .tc main_arg1)) :=
  (keep2 _ main_v1 (by decide)).trans (A1_v1 V)
theorem A2_v3 : A2 V (Proc.devRef .tc main_v3) = ReadP.val_main_v3 (V (Proc.devRef .tc main_arg1)) :=
  (keep2 _ main_v3 (by decide)).trans (A1_v3 V)
theorem A2_v18 : A2 V (Proc.devRef .tc main_v18) = ReadP.val_main_v18 (V (Proc.devRef .tc main_arg1)) (V (Proc.devRef .tc main_arg2)) :=
  (keep2 _ main_v18 (by decide)).trans (A1_v18 V)
theorem A3_v55 : A3 V (Proc.devRef .tc main_v55) = ReadP.val_main_v55 (V (Proc.devRef .tc main_arg1)) (V (Proc.devRef .tc main_arg2)) :=
  stage3_v55 (A2 V) (V (Proc.devRef .tc main_arg1)) (V (Proc.devRef .tc main_arg2)) (A2_v49 V) (A2_v50 V) (A2_v51 V) (A2_v52 V) (A2_v53 V) (A2_v54 V) (A2_v1 V) (A2_v3 V)
theorem A3_v62 : A3 V (Proc.devRef .tc main_v62) = ReadP.val_main_v62 (V (Proc.devRef .tc main_arg0)) (V (Proc.devRef .tc main_arg1)) :=
  stage3_v62 (A2 V) (V (Proc.devRef .tc main_arg0)) (V (Proc.devRef .tc main_arg1)) (A2_keep V main_arg0 (by decide) (by decide)) (A2_v1 V) (A2_v3 V)
theorem A3_v69 : A3 V (Proc.devRef .tc main_v69) = ReadP.val_main_v69 (V (Proc.devRef .tc main_arg0)) (V (Proc.devRef .tc main_arg1)) :=
  stage3_v69 (A2 V) (V (Proc.devRef .tc main_arg0)) (V (Proc.devRef .tc main_arg1)) (A2_keep V main_arg0 (by decide) (by decide)) (A2_v1 V) (A2_v3 V)
theorem A3_v1 : A3 V (Proc.devRef .tc main_v1) = ReadP.val_main_v1 (V (Proc.devRef .tc main_arg1)) :=
  (keep3 _ main_v1 (by decide)).trans (A2_v1 V)
theorem A3_v18 : A3 V (Proc.devRef .tc main_v18) = ReadP.val_main_v18 (V (Proc.devRef .tc main_arg1)) (V (Proc.devRef .tc main_arg2)) :=
  (keep3 _ main_v18 (by decide)).trans (A2_v18 V)
theorem A4_v75 : A4 V (Proc.devRef .tc main_v75) = ReadP.val_main_v75 (V (Proc.devRef .tc main_arg0)) (V (Proc.devRef .tc main_arg1)) (V (Proc.devRef .tc main_arg2)) (V (Proc.devRef .tc main_arg3)) (V (Proc.devRef .tc main_arg4)) :=
  stage4_v75 (A3 V) (V (Proc.devRef .tc main_arg0)) (V (Proc.devRef .tc main_arg1)) (V (Proc.devRef .tc main_arg2)) (V (Proc.devRef .tc main_arg3)) (V (Proc.devRef .tc main_arg4)) (A3_keep V main_arg3 (by decide) (by decide) (by decide)) (A3_keep V main_arg4 (by decide) (by decide) (by decide)) (A3_v62 V) (A3_v69 V) (A3_v55 V)
theorem A4_v1 : A4 V (Proc.devRef .tc main_v1) = ReadP.val_main_v1 (V (Proc.devRef .tc main_arg1)) :=
  (keep4 _ main_v1 (by decide)).trans (A3_v1 V)
theorem A4_v18 : A4 V (Proc.devRef .tc main_v18) = ReadP.val_main_v18 (V (Proc.devRef .tc main_arg1)) (V (Proc.devRef .tc main_arg2)) :=
  (keep4 _ main_v18 (by decide)).trans (A3_v18 V)
theorem A5_v80 : A5 V (Proc.devRef .tc main_v80) = ReadP.val_main_v80 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  stage5_v80 (A4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (A4_keep V main_arg5 (by decide) (by decide) (by decide) (by decide)) (A4_keep V main_arg6 (by decide) (by decide) (by decide) (by decide)) (A4_v75 V) (A4_v18 V)
theorem A5_v89 : A5 V (Proc.devRef .tc main_v89) = ReadP.val_main_v89 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) :=
  stage5_v89 (A4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (A4_keep V main_arg5 (by decide) (by decide) (by decide) (by decide)) (A4_keep V main_arg6 (by decide) (by decide) (by decide) (by decide)) (A4_keep V main_arg11 (by decide) (by decide) (by decide) (by decide)) (A4_keep V main_arg12 (by decide) (by decide) (by decide) (by decide)) (A4_keep V main_arg13 (by decide) (by decide) (by decide) (by decide)) (A4_v75 V) (A4_v18 V)
theorem A5_v1 : A5 V (Proc.devRef .tc main_v1) = ReadP.val_main_v1 (V (Proc.devRef .tc main_arg1)) :=
  (keep5 _ main_v1 (by decide)).trans (A4_v1 V)
theorem A6_v101 : A6 V (Proc.devRef .tc main_v101) = ReadP.val_main_v101 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) :=
  stage6_v101 (A5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (A5_keep V main_arg2 (by decide) (by decide) (by decide) (by decide) (by decide)) (A5_v1 V) (A5_v89 V)
theorem A6_v1 : A6 V (Proc.devRef .tc main_v1) = ReadP.val_main_v1 (V (Proc.devRef .tc main_arg1)) :=
  (keep6 _ main_v1 (by decide)).trans (A5_v1 V)
theorem A6_v80 : A6 V (Proc.devRef .tc main_v80) = ReadP.val_main_v80 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (keep6 _ main_v80 (by decide)).trans (A5_v80 V)
theorem A7_v104 : A7 V (Proc.devRef .tc main_v104) = ReadP.val_main_v104 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  stage7_v104 (A6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (A6_v1 V) (A6_v80 V)
theorem A7_v101 : A7 V (Proc.devRef .tc main_v101) = ReadP.val_main_v101 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) :=
  (keep7 _ main_v101 (by decide)).trans (A6_v101 V)
theorem A8_v115 : A8 V (Proc.devRef .tc main_v115) = ReadP.val_main_v115 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  stage8_v115 (A7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (A7_keep V main_arg0 (by decide) (by decide) (by decide) (by decide) (by decide) (by decide) (by decide)) (A7_keep V main_arg7 (by decide) (by decide) (by decide) (by decide) (by decide) (by decide) (by decide)) (A7_keep V main_arg8 (by decide) (by decide) (by decide) (by decide) (by decide) (by decide) (by decide)) (A7_keep V main_arg9 (by decide) (by decide) (by decide) (by decide) (by decide) (by decide) (by decide)) (A7_keep V main_arg10 (by decide) (by decide) (by decide) (by decide) (by decide) (by decide) (by decide)) (A7_v104 V)
theorem A8_v101 : A8 V (Proc.devRef .tc main_v101) = ReadP.val_main_v101 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) :=
  (keep8 _ main_v101 (by decide)).trans (A7_v101 V)

/-! ## After the whole line -/

/-- The node result after the whole line is its staged function of the arguments. -/
theorem after_v115 : after ValueP.ops V (Proc.devRef .tc main_v115) = ReadP.val_main_v115 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  (congrFun (after_ops V) _).trans (A8_v115 V)

/-- The coordinate result after the whole line is its staged function of the arguments. -/
theorem after_v101 : after ValueP.ops V (Proc.devRef .tc main_v101) = ReadP.val_main_v101 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) :=
  (congrFun (after_ops V) _).trans (A8_v101 V)

/-- No operation writes an argument. -/
theorem after_arg0 : after ValueP.ops V (Proc.devRef .tc main_arg0) = V (Proc.devRef .tc main_arg0) :=
  (congrFun (after_ops V) _).trans (A8_keep V main_arg0 (by decide) (by decide) (by decide) (by decide) (by decide) (by decide) (by decide) (by decide))
theorem after_arg1 : after ValueP.ops V (Proc.devRef .tc main_arg1) = V (Proc.devRef .tc main_arg1) :=
  (congrFun (after_ops V) _).trans (A8_keep V main_arg1 (by decide) (by decide) (by decide) (by decide) (by decide) (by decide) (by decide) (by decide))
theorem after_arg2 : after ValueP.ops V (Proc.devRef .tc main_arg2) = V (Proc.devRef .tc main_arg2) :=
  (congrFun (after_ops V) _).trans (A8_keep V main_arg2 (by decide) (by decide) (by decide) (by decide) (by decide) (by decide) (by decide) (by decide))
theorem after_arg3 : after ValueP.ops V (Proc.devRef .tc main_arg3) = V (Proc.devRef .tc main_arg3) :=
  (congrFun (after_ops V) _).trans (A8_keep V main_arg3 (by decide) (by decide) (by decide) (by decide) (by decide) (by decide) (by decide) (by decide))
theorem after_arg4 : after ValueP.ops V (Proc.devRef .tc main_arg4) = V (Proc.devRef .tc main_arg4) :=
  (congrFun (after_ops V) _).trans (A8_keep V main_arg4 (by decide) (by decide) (by decide) (by decide) (by decide) (by decide) (by decide) (by decide))
theorem after_arg5 : after ValueP.ops V (Proc.devRef .tc main_arg5) = V (Proc.devRef .tc main_arg5) :=
  (congrFun (after_ops V) _).trans (A8_keep V main_arg5 (by decide) (by decide) (by decide) (by decide) (by decide) (by decide) (by decide) (by decide))
theorem after_arg6 : after ValueP.ops V (Proc.devRef .tc main_arg6) = V (Proc.devRef .tc main_arg6) :=
  (congrFun (after_ops V) _).trans (A8_keep V main_arg6 (by decide) (by decide) (by decide) (by decide) (by decide) (by decide) (by decide) (by decide))
theorem after_arg7 : after ValueP.ops V (Proc.devRef .tc main_arg7) = V (Proc.devRef .tc main_arg7) :=
  (congrFun (after_ops V) _).trans (A8_keep V main_arg7 (by decide) (by decide) (by decide) (by decide) (by decide) (by decide) (by decide) (by decide))
theorem after_arg8 : after ValueP.ops V (Proc.devRef .tc main_arg8) = V (Proc.devRef .tc main_arg8) :=
  (congrFun (after_ops V) _).trans (A8_keep V main_arg8 (by decide) (by decide) (by decide) (by decide) (by decide) (by decide) (by decide) (by decide))
theorem after_arg9 : after ValueP.ops V (Proc.devRef .tc main_arg9) = V (Proc.devRef .tc main_arg9) :=
  (congrFun (after_ops V) _).trans (A8_keep V main_arg9 (by decide) (by decide) (by decide) (by decide) (by decide) (by decide) (by decide) (by decide))
theorem after_arg10 : after ValueP.ops V (Proc.devRef .tc main_arg10) = V (Proc.devRef .tc main_arg10) :=
  (congrFun (after_ops V) _).trans (A8_keep V main_arg10 (by decide) (by decide) (by decide) (by decide) (by decide) (by decide) (by decide) (by decide))
theorem after_arg11 : after ValueP.ops V (Proc.devRef .tc main_arg11) = V (Proc.devRef .tc main_arg11) :=
  (congrFun (after_ops V) _).trans (A8_keep V main_arg11 (by decide) (by decide) (by decide) (by decide) (by decide) (by decide) (by decide) (by decide))
theorem after_arg12 : after ValueP.ops V (Proc.devRef .tc main_arg12) = V (Proc.devRef .tc main_arg12) :=
  (congrFun (after_ops V) _).trans (A8_keep V main_arg12 (by decide) (by decide) (by decide) (by decide) (by decide) (by decide) (by decide) (by decide))
theorem after_arg13 : after ValueP.ops V (Proc.devRef .tc main_arg13) = V (Proc.devRef .tc main_arg13) :=
  (congrFun (after_ops V) _).trans (A8_keep V main_arg13 (by decide) (by decide) (by decide) (by decide) (by decide) (by decide) (by decide) (by decide))

/-- On every device, from any memory with zero counters: every weakly fair execution of the reference terminates with
    the node result and the coordinate result at their staged functions of the arguments' launch contents, and with
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v115) = ReadP.val_main_v115 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v101) = ReadP.val_main_v101 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
    ⟨(h c main_v115).trans (after_v115 (launchContents m c)), (h c main_v101).trans (after_v101 (launchContents m c)),
     (h c main_arg0).trans (after_arg0 (launchContents m c)),
     (h c main_arg1).trans (after_arg1 (launchContents m c)),
     (h c main_arg2).trans (after_arg2 (launchContents m c)),
     (h c main_arg3).trans (after_arg3 (launchContents m c)),
     (h c main_arg4).trans (after_arg4 (launchContents m c)),
     (h c main_arg5).trans (after_arg5 (launchContents m c)),
     (h c main_arg6).trans (after_arg6 (launchContents m c)),
     (h c main_arg7).trans (after_arg7 (launchContents m c)),
     (h c main_arg8).trans (after_arg8 (launchContents m c)),
     (h c main_arg9).trans (after_arg9 (launchContents m c)),
     (h c main_arg10).trans (after_arg10 (launchContents m c)),
     (h c main_arg11).trans (after_arg11 (launchContents m c)),
     (h c main_arg12).trans (after_arg12 (launchContents m c)),
     (h c main_arg13).trans (after_arg13 (launchContents m c))⟩)
    (ValueP.run_raw m ρ)

/-- The reference runs to the end, faults nowhere, and leaves its arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => (h c).2.2) (run m ρ)

end Cert.ReferenceIdeal.RunVal

end
-- ==== Proof.lean ====
/-
  The certificate of a message-passing layer on a graph with coordinates: a two-kernel program against a whole-array
  reference, equal as extended reals.

  THE LAYER. Each of 800000 edges reads its two end nodes' features (128 numbers each) and six radial features of the
  two ends' coordinates; a two-layer map with `silu` makes the edge's MESSAGE (128 numbers); a second two-layer map of
  the message makes two COORDINATE WEIGHTS, one per channel, which scale the edge's coordinate differences into
  TRANSLATIONS (2 × 3 numbers). Messages and translations are added up over the edges arriving at each of 50000 nodes;
  a node's coordinates move by its aggregated translations over its (clamped) degree, and its features by a two-layer
  map of (features, aggregated messages).

  THE TWO PROGRAMS. The reference feeds the first edge layer ONE product of the stacked inputs (262 columns) with the
  whole weight matrix, and likewise the first node layer (256 columns); the kernel program feeds them the SUM of three
  (resp. two) products, one per slab of the weight matrix, block by block of 2000 rows in two pipelined kernels, rounds
  the matrix operands to a shorter float format, keeps the translations flat (6 columns) until they are aggregated,
  and calls the logistic function where the reference spells `1 / (1 + e^(-x))`. On the extended reals a change of
  format is the identity, the logistic function is that expression, a product is the plain sum over the contracted
  index, and a sum taken slab by slab is the whole sum (associativity and commutativity only: no finiteness is used
  anywhere, the precondition is never opened); a flat or a `2 × 3` aggregation adds the same numbers. So the results
  agree entry by entry: `Results.feat_out`, `Results.coord_out`.

  THE FRAMES. The kernel program runs as twelve items (host stretches and the two pipelined regions); each region's
  body overwrites its output blocks from its input blocks, so the program terminates, faults nowhere, and leaves its
  arguments as launched (`KernelRegions.frame`, `KernelIdealRegions.frame`, both from one text over any float values); the
  reference is a straight line of host operations (`RefRunValues`).
-/
import proofs.«102740_j91328184582715_1_alg».proof.Defs
import proofs.«102740_j91328184582715_1_alg».proof.Proof.Gen.Kernel
import proofs.«102740_j91328184582715_1_alg».proof.Proof.Gen.KernelIdeal
import proofs.«102740_j91328184582715_1_alg».proof.Proof.Gen.ReferenceIdeal
import proofs.«102740_j91328184582715_1_alg».proof.Proof.Gen.Pre_finite_inputs
import proofs.«102740_j91328184582715_1_alg».proof.Proof.KernelRegions
import proofs.«102740_j91328184582715_1_alg».proof.Proof.KernelIdealRegions
import proofs.«102740_j91328184582715_1_alg».proof.Proof.Results
import proofs.«102740_j91328184582715_1_alg».proof.Proof.RefRunValues

set_option maxRecDepth 16384

noncomputable section

namespace Cert.Proof

open Idealize.ShloMosaic Idealize.ShloMosaic.TcCoe Idealize.SL.Sem

/-- The kernel program as printed runs and leaves its arguments as launched. -/
theorem frame_k : Cert.frame_Kernel (hKernel := Cert.Kernel.Gen.facts) (hPre_finite_inputs := Cert.Pre_finite_inputs.Gen.facts) :=
  fun m ρ _ => Cert.Kernel.Reg.frame (F := Bits) m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Reg.frame (F := Ideal) m ρ

/-- And so does the reference. -/
theorem frame_ri : Cert.frame_ReferenceIdeal (hReferenceIdeal := Cert.ReferenceIdeal.Gen.facts) (hPre_finite_inputs := Cert.Pre_finite_inputs.Gen.facts) :=
  fun m ρ _ => Cert.ReferenceIdeal.RunVal.frame (F := Ideal) m ρ

/-- Both programs end with the same two results: the reference's last stages of the (shared) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.ReadP.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run (Cert.KernelIdeal.defs (F := Ideal)) _ _).mono (fun r h c => ?_) (Cert.KernelIdeal.Reg.run_all (F := Ideal) m ρ)
    exact ⟨(h c _ (Cert.KernelIdeal.Reg.mem_uc Cert.KernelIdeal.main_v110 (by decide))).trans (Cert.KernelIdeal.Res.feat_out m c),
      (h c _ (Cert.KernelIdeal.Reg.mem_uc Cert.KernelIdeal.main_v102 (by decide))).trans (Cert.KernelIdeal.Res.coord_out m c),
      (h c _ (Cert.KernelIdeal.Reg.mem_uc Cert.KernelIdeal.main_arg0 (by decide))).trans (Cert.KernelIdeal.Gen.V12_main_arg0 m (Cert.KernelIdeal.Reg.outs m) c),
      (h c _ (Cert.KernelIdeal.Reg.mem_uc Cert.KernelIdeal.main_arg1 (by decide))).trans (Cert.KernelIdeal.Gen.V12_main_arg1 m (Cert.KernelIdeal.Reg.outs m) c),
      (h c _ (Cert.KernelIdeal.Reg.mem_uc Cert.KernelIdeal.main_arg2 (by decide))).trans (Cert.KernelIdeal.Gen.V12_main_arg2 m (Cert.KernelIdeal.Reg.outs m) c),
      (h c _ (Cert.KernelIdeal.Reg.mem_uc Cert.KernelIdeal.main_arg3 (by decide))).trans (Cert.KernelIdeal.Gen.V12_main_arg3 m (Cert.KernelIdeal.Reg.outs m) c),
      (h c _ (Cert.KernelIdeal.Reg.mem_uc Cert.KernelIdeal.main_arg4 (by decide))).trans (Cert.KernelIdeal.Gen.V12_main_arg4 m (Cert.KernelIdeal.Reg.outs m) c),
      (h c _ (Cert.KernelIdeal.Reg.mem_uc Cert.KernelIdeal.main_arg5 (by decide))).trans (Cert.KernelIdeal.Gen.V12_main_arg5 m (Cert.KernelIdeal.Reg.outs m) c),
      (h c _ (Cert.KernelIdeal.Reg.mem_uc Cert.KernelIdeal.main_arg6 (by decide))).trans (Cert.KernelIdeal.Gen.V12_main_arg6 m (Cert.KernelIdeal.Reg.outs m) c),
      (h c _ (Cert.KernelIdeal.Reg.mem_uc Cert.KernelIdeal.main_arg7 (by decide))).trans (Cert.KernelIdeal.Gen.V12_main_arg7 m (Cert.KernelIdeal.Reg.outs m) c),
      (h c _ (Cert.KernelIdeal.Reg.mem_uc Cert.KernelIdeal.main_arg8 (by decide))).trans (Cert.KernelIdeal.Gen.V12_main_arg8 m (Cert.KernelIdeal.Reg.outs m) c),
      (h c _ (Cert.KernelIdeal.Reg.mem_uc Cert.KernelIdeal.main_arg9 (by decide))).trans (Cert.KernelIdeal.Gen.V12_main_arg9 m (Cert.KernelIdeal.Reg.outs m) c),
      (h c _ (Cert.KernelIdeal.Reg.mem_uc Cert.KernelIdeal.main_arg10 (by decide))).trans (Cert.KernelIdeal.Gen.V12_main_arg10 m (Cert.KernelIdeal.Reg.outs m) c),
      (h c _ (Cert.KernelIdeal.Reg.mem_uc Cert.KernelIdeal.main_arg11 (by decide))).trans (Cert.KernelIdeal.Gen.V12_main_arg11 m (Cert.KernelIdeal.Reg.outs m) c),
      (h c _ (Cert.KernelIdeal.Reg.mem_uc Cert.KernelIdeal.main_arg12 (by decide))).trans (Cert.KernelIdeal.Gen.V12_main_arg12 m (Cert.KernelIdeal.Reg.outs m) c),
      (h c _ (Cert.KernelIdeal.Reg.mem_uc Cert.KernelIdeal.main_arg13 (by decide))).trans (Cert.KernelIdeal.Gen.V12_main_arg13 m (Cert.KernelIdeal.Reg.outs m) c)⟩
  · refine (θ_run (Cert.ReferenceIdeal.defs (F := Ideal)) _ _).mono (fun r h c => ?_) (Cert.ReferenceIdeal.RunVal.run (F := Ideal) m' ρ')
    refine ⟨(h c).1.trans ?_, (h c).2.1.trans ?_, (h c).2.2⟩
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
    · rw [(hagree c).1, (hagree c).2.1, (hagree c).2.2.1, (hagree c).2.2.2.1, (hagree c).2.2.2.2.1, (hagree c).2.2.2.2.2.1, (hagree c).2.2.2.2.2.2.1, (hagree c).2.2.2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
